-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x256 : Shape := ⟨4, ![8, 32, 32, 256]⟩
abbrev S8x15x256 : Shape := ⟨3, ![8, 15, 256]⟩
abbrev S8x15x4 : Shape := ⟨3, ![8, 15, 4]⟩
abbrev S256x256 : Shape := ⟨2, ![256, 256]⟩
abbrev S_ : Shape := ⟨0, ![]⟩

class Facts : Prop where
  bcast_S_S8x32x32x256 : S_.BroadcastsInDim S8x32x32x256 (![] : Fin 0 → Fin S8x32x32x256.rank)
  reducesTo_S8x32x32x256_S_d0_1_2_3 : S8x32x32x256.ReducesTo [0, 1, 2, 3] S_
  h_S_ : 0 < S_.numel
  bcast_S_S8x15x256 : S_.BroadcastsInDim S8x15x256 (![] : Fin 0 → Fin S8x15x256.rank)
  reducesTo_S8x15x256_S_d0_1_2 : S8x15x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x32x32x256 .f32) (main_arg1 : FVec F S8x15x256 .f32) (main_arg2 : IVec S8x15x4 32) (main_arg3 : FVec F S256x256 .f32) (main_arg4 : FVec F S256x256 .f32) : IVec S_ 1 :=
  let main_v0 : FVec F S8x32x32x256 .f32 := Host.absf main_arg0
  let main_cst : FVec F S_ .f32 := constant S_ .f32 0x7F800000#32
  let main_v1 : FVec F S8x32x32x256 .f32 := broadcastInDim S8x32x32x256 ![] bcast_S_S8x32x32x256 main_cst
  let main_v2 : IVec S8x32x32x256 1 := cmpf .olt main_v0 main_v1
  let main_c : IVec S_ 1 := constantI S_ 1 1#1
  let main_v3 : IVec S_ 1 := (fun x v => Host.reduce IntOp.andi x v reducesTo_S8x32x32x256_S_d0_1_2_3 h_S_) main_v2 main_c
  let main_v4 : FVec F S8x15x256 .f32 := Host.absf main_arg1
  let main_cst_0 : FVec F S_ .f32 := constant S_ .f32 0x7F800000#32
  let main_v5 : FVec F S8x15x256 .f32 := broadcastInDim S8x15x256 ![] bcast_S_S8x15x256 main_cst_0
  let main_v6 : IVec S8x15x256 1 := cmpf .olt main_v4 main_v5
  let main_c_1 : IVec S_ 1 := constantI S_ 1 1#1
  let main_v7 : IVec S_ 1 := (fun x v => Host.reduce IntOp.andi x v reducesTo_S8x15x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x32x32x256 : Shape := ⟨4, ![8, 32, 32, 256]⟩
abbrev S8x15x256 : Shape := ⟨3, ![8, 15, 256]⟩
abbrev S8x15x4 : Shape := ⟨3, ![8, 15, 4]⟩
abbrev S256x256 : Shape := ⟨2, ![256, 256]⟩
abbrev S4 : Shape := ⟨1, ![4]⟩
abbrev S_ : Shape := ⟨0, ![]⟩
abbrev S8x256 : Shape := ⟨2, ![8, 256]⟩
abbrev S8x1x256 : Shape := ⟨3, ![8, 1, 256]⟩
abbrev S8x16x256 : Shape := ⟨3, ![8, 16, 256]⟩
abbrev S8x15x2 : Shape := ⟨3, ![8, 15, 2]⟩
abbrev S8x1x4 : Shape := ⟨3, ![8, 1, 4]⟩
abbrev S8x16x4 : Shape := ⟨3, ![8, 16, 4]⟩
abbrev S32 : Shape := ⟨1, ![32]⟩
abbrev S32x1 : Shape := ⟨2, ![32, 1]⟩
abbrev S1x32 : Shape := ⟨2, ![1, 32]⟩
abbrev S8x16x1 : Shape := ⟨3, ![8, 16, 1]⟩
abbrev S8x16 : Shape := ⟨2, ![8, 16]⟩
abbrev S8x16x1x1 : Shape := ⟨4, ![8, 16, 1, 1]⟩
abbrev S1x1x32x1 : Shape := ⟨4, ![1, 1, 32, 1]⟩
abbrev S8x16x32x1 : Shape := ⟨4, ![8, 16, 32, 1]⟩
abbrev S1x1x1x32 : Shape := ⟨4, ![1, 1, 1, 32]⟩
abbrev S8x16x1x32 : Shape := ⟨4, ![8, 16, 1, 32]⟩
abbrev S8x16x32x32 : Shape := ⟨4, ![8, 16, 32, 32]⟩
abbrev S8x16x1024 : Shape := ⟨3, ![8, 16, 1024]⟩
abbrev S8x1024x256 : Shape := ⟨3, ![8, 1024, 256]⟩
abbrev S2x1024x256 : Shape := ⟨3, ![2, 1024, 256]⟩
abbrev S2x16x1024 : Shape := ⟨3, ![2, 16, 1024]⟩
abbrev S2x16x256 : Shape := ⟨3, ![2, 16, 256]⟩
abbrev S2048x256 : Shape := ⟨2, ![2048, 256]⟩
abbrev S32x256 : Shape := ⟨2, ![32, 256]⟩
abbrev S2x16x1 : Shape := ⟨3, ![2, 16, 1]⟩
abbrev S2x1024x1 : Shape := ⟨3, ![2, 1024, 1]⟩

abbrev nBuf : Space → Nat
  | .hbm => 113
  | .vmem => 10
  | .smem => 0
  | _ => 0

abbrev bufTy : (tb : Table) → Fin (tcTables nBuf tb) → BufTy
  | .hbm, ⟨0, _⟩ => ⟨S8x32x32x256, .f32⟩
  | .hbm, ⟨1, _⟩ => ⟨S8x15x256, .f32⟩
  | .hbm, ⟨2, _⟩ => ⟨S8x15x4, .i32⟩
  | .hbm, ⟨3, _⟩ => ⟨S256x256, .f32⟩
  | .hbm, ⟨4, _⟩ => ⟨S256x256, .f32⟩
  | .hbm, ⟨5, _⟩ => ⟨S4, .i32⟩
  | .hbm, ⟨6, _⟩ => ⟨S_, .f32⟩
  | .hbm, ⟨7, _⟩ => ⟨S8x256, .f32⟩
  | .hbm, ⟨8, _⟩ => ⟨S8x1x256, .f32⟩
  | .hbm, ⟨9, _⟩ => ⟨S_, .f32⟩
  | .hbm, ⟨10, _⟩ => ⟨S8x1x256, .f32⟩
  | .hbm, ⟨11, _⟩ => ⟨S8x1x256, .f32⟩
  | .hbm, ⟨12, _⟩ => ⟨S8x16x256, .f32⟩
  | .hbm, ⟨13, _⟩ => ⟨S8x15x2, .i32⟩
  | .hbm, ⟨14, _⟩ => ⟨S8x15x2, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S8x15x2, .i32⟩
  | .hbm, ⟨22, _⟩ => ⟨S8x15x2, .i32⟩
  | .hbm, ⟨23, _⟩ => ⟨S_, .i32⟩
  | .hbm, ⟨24, _⟩ => ⟨S8x15x2, .i32⟩
  | .hbm, ⟨25, _⟩ => ⟨S8x15x2, .i1⟩
  | .hbm, ⟨26, _⟩ => ⟨S_, .i32⟩
  | .hbm, ⟨27, _⟩ => ⟨S8x15x2, .i32⟩
  | .hbm, ⟨28, _⟩ => ⟨S8x15x2, .i1⟩
  | .hbm, ⟨29, _⟩ => ⟨S_, .i32⟩
  | .hbm, ⟨30, _⟩ => ⟨S_, .i1⟩
  | .hbm, ⟨31, _⟩ => ⟨S8x15x2, .i1⟩
  | .hbm, ⟨32, _⟩ => ⟨S8x15x2, .i1⟩
  | .hbm, ⟨33, _⟩ => ⟨S8x15x2, .i1⟩
  | .hbm, ⟨34, _⟩ => ⟨S8x15x2, .i32⟩
  | .hbm, ⟨35, _⟩ => ⟨S8x15x2, .i32⟩
  | .hbm, ⟨36, _⟩ => ⟨S8x15x2, .i32⟩
  | .hbm, ⟨37, _⟩ => ⟨S8x15x2, .i32⟩
  | .hbm, ⟨38, _⟩ => ⟨S8x15x2, .i32⟩
  | .hbm, ⟨39, _⟩ => ⟨S8x15x2, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S8x15x2, .i32⟩
  | .hbm, ⟨47, _⟩ => ⟨S8x15x2, .i32⟩
  | .hbm, ⟨48, _⟩ => ⟨S_, .i32⟩
  | .hbm, ⟨49, _⟩ => ⟨S8x15x2, .i32⟩
  | .hbm, ⟨50, _⟩ => ⟨S8x15x2, .i1⟩
  | .hbm, ⟨51, _⟩ => ⟨S_, .i32⟩
  | .hbm, ⟨52, _⟩ => ⟨S8x15x2, .i32⟩
  | .hbm, ⟨53, _⟩ => ⟨S8x15x2, .i1⟩
  | .hbm, ⟨54, _⟩ => ⟨S_, .i32⟩
  | .hbm, ⟨55, _⟩ => ⟨S_, .i1⟩
  | .hbm, ⟨56, _⟩ => ⟨S8x15x2, .i1⟩
  | .hbm, ⟨57, _⟩ => ⟨S8x15x2, .i1⟩
  | .hbm, ⟨58, _⟩ => ⟨S8x15x2, .i1⟩
  | .hbm, ⟨59, _⟩ => ⟨S8x15x2, .i32⟩
  | .hbm, ⟨60, _⟩ => ⟨S8x15x2, .i32⟩
  | .hbm, ⟨61, _⟩ => ⟨S8x15x2, .i32⟩
  | .hbm, ⟨62, _⟩ => ⟨S_, .i32⟩
  | .hbm, ⟨63, _⟩ => ⟨S8x15x2, .i32⟩
  | .hbm, ⟨64, _⟩ => ⟨S8x15x2, .i32⟩
  | .hbm, ⟨65, _⟩ => ⟨S8x15x2, .i32⟩
  | .hbm, ⟨66, _⟩ => ⟨S8x15x4, .i32⟩
  | .hbm, ⟨67, _⟩ => ⟨S8x1x4, .i32⟩
  | .hbm, ⟨68, _⟩ => ⟨S8x16x4, .i32⟩
  | .hbm, ⟨69, _⟩ => ⟨S32, .i32⟩
  | .hbm, ⟨70, _⟩ => ⟨S32x1, .i32⟩
  | .hbm, ⟨71, _⟩ => ⟨S32, .i32⟩
  | .hbm, ⟨72, _⟩ => ⟨S1x32, .i32⟩
  | .hbm, ⟨73, _⟩ => ⟨S8x16x1, .i32⟩
  | .hbm, ⟨74, _⟩ => ⟨S8x16, .i32⟩
  | .hbm, ⟨75, _⟩ => ⟨S8x16x1x1, .i32⟩
  | .hbm, ⟨76, _⟩ => ⟨S8x16x1, .i32⟩
  | .hbm, ⟨77, _⟩ => ⟨S8x16, .i32⟩
  | .hbm, ⟨78, _⟩ => ⟨S8x16x1x1, .i32⟩
  | .hbm, ⟨79, _⟩ => ⟨S8x16x1, .i32⟩
  | .hbm, ⟨80, _⟩ => ⟨S8x16, .i32⟩
  | .hbm, ⟨81, _⟩ => ⟨S8x16x1x1, .i32⟩
  | .hbm, ⟨82, _⟩ => ⟨S8x16x1, .i32⟩
  | .hbm, ⟨83, _⟩ => ⟨S8x16, .i32⟩
  | .hbm, ⟨84, _⟩ => ⟨S8x16x1x1, .i32⟩
  | .hbm, ⟨85, _⟩ => ⟨S1x1x32x1, .i32⟩
  | .hbm, ⟨86, _⟩ => ⟨S8x16x32x1, .i32⟩
  | .hbm, ⟨87, _⟩ => ⟨S8x16x32x1, .i32⟩
  | .hbm, ⟨88, _⟩ => ⟨S8x16x32x1, .i1⟩
  | .hbm, ⟨89, _⟩ => ⟨S1x1x32x1, .i32⟩
  | .hbm, ⟨90, _⟩ => ⟨S8x16x32x1, .i32⟩
  | .hbm, ⟨91, _⟩ => ⟨S8x16x32x1, .i32⟩
  | .hbm, ⟨92, _⟩ => ⟨S8x16x32x1, .i1⟩
  | .hbm, ⟨93, _⟩ => ⟨S8x16x32x1, .i1⟩
  | .hbm, ⟨94, _⟩ => ⟨S1x1x1x32, .i32⟩
  | .hbm, ⟨95, _⟩ => ⟨S8x16x1x32, .i32⟩
  | .hbm, ⟨96, _⟩ => ⟨S8x16x1x32, .i32⟩
  | .hbm, ⟨97, _⟩ => ⟨S8x16x1x32, .i1⟩
  | .hbm, ⟨98, _⟩ => ⟨S8x16x32x32, .i1⟩
  | .hbm, ⟨99, _⟩ => ⟨S8x16x32x32, .i1⟩
  | .hbm, ⟨100, _⟩ => ⟨S8x16x32x32, .i1⟩
  | .hbm, ⟨101, _⟩ => ⟨S1x1x1x32, .i32⟩
  | .hbm, ⟨102, _⟩ => ⟨S8x16x1x32, .i32⟩
  | .hbm, ⟨103, _⟩ => ⟨S8x16x1x32, .i32⟩
  | .hbm, ⟨104, _⟩ => ⟨S8x16x1x32, .i1⟩
  | .hbm, ⟨105, _⟩ => ⟨S8x16x32x32, .i1⟩
  | .hbm, ⟨106, _⟩ => ⟨S8x16x32x32, .i1⟩
  | .hbm, ⟨107, _⟩ => ⟨S8x16x1024, .i1⟩
  | .hbm, ⟨108, _⟩ => ⟨S8x16x1024, .bf16⟩
  | .hbm, ⟨109, _⟩ => ⟨S8x1024x256, .f32⟩
  | .hbm, ⟨110, _⟩ => ⟨S256x256, .bf16⟩
  | .hbm, ⟨111, _⟩ => ⟨S256x256, .bf16⟩
  | .hbm, ⟨112, _⟩ => ⟨S8x1024x256, .f32⟩
  | .local _ .vmem, ⟨0, _⟩ => ⟨S2x1024x256, .f32⟩
  | .local _ .vmem, ⟨1, _⟩ => ⟨S2x1024x256, .f32⟩
  | .local _ .vmem, ⟨2, _⟩ => ⟨S2x16x1024, .bf16⟩
  | .local _ .vmem, ⟨3, _⟩ => ⟨S2x16x1024, .bf16⟩
  | .local _ .vmem, ⟨4, _⟩ => ⟨S2x16x256, .f32⟩
  | .local _ .vmem, ⟨5, _⟩ => ⟨S2x16x256, .f32⟩
  | .local _ .vmem, ⟨6, _⟩ => ⟨S256x256, .bf16⟩
  | .local _ .vmem, ⟨7, _⟩ => ⟨S256x256, .bf16⟩
  | .local _ .vmem, ⟨8, _⟩ => ⟨S2x1024x256, .f32⟩
  | .local _ .vmem, ⟨9, _⟩ => ⟨S2x1024x256, .f32⟩
  | _, _ => ⟨S8x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v11 : Ref sig .tc := ⟨.hbm, 61, rfl⟩
abbrev main_c_3 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8x15x256_S8x256_d1 : S8x15x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  concatenates_S8x15x256_S8x1x256_S8x16x256_d1 : Shape.Concatenates [S8x15x256, S8x1x256] S8x16x256 1
  slices_S8x15x4_S8x15x2_0_0_0 : S8x15x4.Slices ![0, 0, 0] S8x15x2
  bcast_S_S8x15x2 : S_.BroadcastsInDim S8x15x2 (![] : Fin 0 → Fin S8x15x2.rank)
  slices_S8x15x4_S8x15x2_0_0_2 : S8x15x4.Slices ![0, 0, 2] S8x15x2
  concatenates_S8x15x2_S8x15x2_S8x15x4_d2 : Shape.Concatenates [S8x15x2, S8x15x2] S8x15x4 2
  bcast_S4_S8x1x4_2 : S4.BroadcastsInDim S8x1x4 (![2] : Fin 1 → Fin S8x1x4.rank)
  concatenates_S8x15x4_S8x1x4_S8x16x4_d1 : Shape.Concatenates [S8x15x4, S8x1x4] S8x16x4 1
  bcast_S32_S32x1_0 : S32.BroadcastsInDim S32x1 (![0] : Fin 1 → Fin S32x1.rank)
  bcast_S32_S1x32_1 : S32.BroadcastsInDim S1x32 (![1] : Fin 1 → Fin S1x32.rank)
  slices_S8x16x4_S8x16x1_0_0_0 : S8x16x4.Slices ![0, 0, 0] S8x16x1
  shapeCasts_S8x16x1_S8x16 : S8x16x1.ShapeCasts S8x16
  bcast_S8x16_S8x16x1x1_0_1 : S8x16.BroadcastsInDim S8x16x1x1 (![0, 1] : Fin 2 → Fin S8x16x1x1.rank)
  slices_S8x16x4_S8x16x1_0_0_1 : S8x16x4.Slices ![0, 0, 1] S8x16x1
  slices_S8x16x4_S8x16x1_0_0_2 : S8x16x4.Slices ![0, 0, 2] S8x16x1
  slices_S8x16x4_S8x16x1_0_0_3 : S8x16x4.Slices ![0, 0, 3] S8x16x1
  bcast_S32x1_S1x1x32x1_2_3 : S32x1.BroadcastsInDim S1x1x32x1 (![2, 3] : Fin 2 → Fin S1x1x32x1.rank)
  bcast_S1x1x32x1_S8x16x32x1_0_1_2_3 : S1x1x32x1.BroadcastsInDim S8x16x32x1 (![0, 1, 2, 3] : Fin 4 → Fin S8x16x32x1.rank)
  bcast_S8x16x1x1_S8x16x32x1_0_1_2_3 : S8x16x1x1.BroadcastsInDim S8x16x32x1 (![0, 1, 2, 3] : Fin 4 → Fin S8x16x32x1.rank)
  bcast_S1x32_S1x1x1x32_2_3 : S1x32.BroadcastsInDim S1x1x1x32 (![2, 3] : Fin 2 → Fin S1x1x1x32.rank)
  bcast_S1x1x1x32_S8x16x1x32_0_1_2_3 : S1x1x1x32.BroadcastsInDim S8x16x1x32 (![0, 1, 2, 3] : Fin 4 → Fin S8x16x1x32.rank)
  bcast_S8x16x1x1_S8x16x1x32_0_1_2_3 : S8x16x1x1.BroadcastsInDim S8x16x1x32 (![0, 1, 2, 3] : Fin 4 → Fin S8x16x1x32.rank)
  bcast_S8x16x32x1_S8x16x32x32_0_1_2_3 : S8x16x32x1.BroadcastsInDim S8x16x32x32 (![0, 1, 2, 3] : Fin 4 → Fin S8x16x32x32.rank)
  bcast_S8x16x1x32_S8x16x32x32_0_1_2_3 : S8x16x1x32.BroadcastsInDim S8x16x32x32 (![0, 1, 2, 3] : Fin 4 → Fin S8x16x32x32.rank)
  shapeCasts_S8x16x32x32_S8x16x1024 : S8x16x32x32.ShapeCasts S8x16x1024
  shapeCasts_S8x32x32x256_S8x1024x256 : S8x32x32x256.ShapeCasts S8x1024x256
  bitsLt_bf16_f32 : FTy.bits .bf16 < FTy.bits .f32
  inb_S2x1024x256_S2x1024x256_0_0_0 : ∀ a, (![0, 0, 0] : Fin 3 → Nat) a + S2x1024x256.size a ≤ S2x1024x256.size a
  h_S2x1024x256 : 0 < S2x1024x256.numel
  shapeCasts_S2x1024x256_S2x1024x256 : S2x1024x256.ShapeCasts S2x1024x256
  shapeCasts_S2x1024x256_S2048x256 : S2x1024x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S2x1024x256 : S2048x256.ShapeCasts S2x1024x256
  inb_S2x16x256_S2x16x256_0_0_0 : ∀ a, (![0, 0, 0] : Fin 3 → Nat) a + S2x16x256.size a ≤ S2x16x256.size a
  h_S2x16x256 : 0 < S2x16x256.numel
  shapeCasts_S2x16x256_S2x16x256 : S2x16x256.ShapeCasts S2x16x256
  shapeCasts_S2x16x256_S32x256 : S2x16x256.ShapeCasts S32x256
  shapeCasts_S32x256_S2x16x256 : S32x256.ShapeCasts S2x16x256
  inb_S2x16x1024_S2x16x1024_0_0_0 : ∀ a, (![0, 0, 0] : Fin 3 → Nat) a + S2x16x1024.size a ≤ S2x16x1024.size a
  h_S2x16x1024 : 0 < S2x16x1024.numel
  shapeCasts_S2x16x1024_S2x16x1024 : S2x16x1024.ShapeCasts S2x16x1024
  broadcasts_S2x1024x1_S2x1024x256 : S2x1024x1.Broadcasts S2x1024x256
  dot_S2048x256_S256x256_S2048x256_1_0_0_1_n_n_wf : DotDims.WF S2048x256 S256x256 S2048x256 [1] [0] [0] [1] [] []
  dot_S32x256_S256x256_S32x256_1_0_0_1_n_n_wf : DotDims.WF S32x256 S256x256 S32x256 [1] [0] [0] [1] [] []
  dot_S2x16x1024_S2x16x256_S2x1024x256_1_1_2_2_0_0_wf : DotDims.WF S2x16x1024 S2x16x256 S2x1024x256 [1] [1] [2] [2] [0] [0]
  dot_S2x16x1024_S2x16x1_S2x1024x1_1_1_2_2_0_0_wf : DotDims.WF S2x16x1024 S2x16x1 S2x1024x1 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S8x1024x256.size a
  hwx0_0 : ∀ i : grid0.Coords, EltTy.bits .f32 = 32 ∨ (Rect.block (s := S8x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x1024.size a ≤ S8x16x1024.size a
  hwx0_1 : ∀ i : grid0.Coords, EltTy.bits .bf16 = 32 ∨ (Rect.block (s := S8x16x1024) S2x16x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x256.size a ≤ S8x16x256.size a
  hwx0_2 : ∀ i : grid0.Coords, EltTy.bits .f32 = 32 ∨ (Rect.block (s := S8x16x256) S2x16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1024x256.size a ≤ S8x1024x256.size a
  hwx0_5 : ∀ i : grid0.Coords, EltTy.bits .f32 = 32 ∨ (Rect.block (s := S8x1024x256) S2x1024x256.size (cc0_transform_5 i) (hinb0_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S2x16x1024_S2x16x256_S2x1024x256_1_1_2_2_0_0 : DotDims S2x16x1024 S2x16x256 S2x1024x256 where
  lhsContracting := [1]
  rhsContracting := [1]
  lhsNonContracting := [2]
  rhsNonContracting := [2]
  lhsBatch := [0]
  rhsBatch := [0]
  wf := dot_S2x16x1024_S2x16x256_S2x1024x256_1_1_2_2_0_0_wf
def dot_S2x16x1024_S2x16x1_S2x1024x1_1_1_2_2_0_0 : DotDims S2x16x1024 S2x16x1 S2x1024x1 where
  lhsContracting := [1]
  rhsContracting := [1]
  lhsNonContracting := [2]
  rhsNonContracting := [2]
  lhsBatch := [0]
  rhsBatch := [0]
  wf := dot_S2x16x1024_S2x16x1_S2x1024x1_1_1_2_2_0_0_wf

abbrev win0_0 : Pipeline.Window sig grid0 :=
  Pipeline.Window.ofSpec (Memref.whole main_v58) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S2x16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v60) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S2x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x32x32x256 : Shape := ⟨4, ![8, 32, 32, 256]⟩
abbrev S8x15x256 : Shape := ⟨3, ![8, 15, 256]⟩
abbrev S8x15x4 : Shape := ⟨3, ![8, 15, 4]⟩
abbrev S256x256 : Shape := ⟨2, ![256, 256]⟩
abbrev S4 : Shape := ⟨1, ![4]⟩
abbrev S_ : Shape := ⟨0, ![]⟩
abbrev S8x256 : Shape := ⟨2, ![8, 256]⟩
abbrev S8x1x256 : Shape := ⟨3, ![8, 1, 256]⟩
abbrev S8x16x256 : Shape := ⟨3, ![8, 16, 256]⟩
abbrev S8x15x2 : Shape := ⟨3, ![8, 15, 2]⟩
abbrev S8x1x4 : Shape := ⟨3, ![8, 1, 4]⟩
abbrev S8x16x4 : Shape := ⟨3, ![8, 16, 4]⟩
abbrev S32 : Shape := ⟨1, ![32]⟩
abbrev S32x1 : Shape := ⟨2, ![32, 1]⟩
abbrev S1x32 : Shape := ⟨2, ![1, 32]⟩
abbrev S8x16x1 : Shape := ⟨3, ![8, 16, 1]⟩
abbrev S8x16 : Shape := ⟨2, ![8, 16]⟩
abbrev S8x16x1x1 : Shape := ⟨4, ![8, 16, 1, 1]⟩
abbrev S1x1x32x1 : Shape := ⟨4, ![1, 1, 32, 1]⟩
abbrev S8x16x32x1 : Shape := ⟨4, ![8, 16, 32, 1]⟩
abbrev S1x1x1x32 : Shape := ⟨4, ![1, 1, 1, 32]⟩
abbrev S8x16x1x32 : Shape := ⟨4, ![8, 16, 1, 32]⟩
abbrev S8x16x32x32 : Shape := ⟨4, ![8, 16, 32, 32]⟩
abbrev S8x16x1024 : Shape := ⟨3, ![8, 16, 1024]⟩
abbrev S8x1024x256 : Shape := ⟨3, ![8, 1024, 256]⟩
abbrev S8x1x1024x256 : Shape := ⟨4, ![8, 1, 1024, 256]⟩
abbrev S8x16x1024x1 : Shape := ⟨4, ![8, 16, 1024, 1]⟩
abbrev S8x16x1x256 : Shape := ⟨4, ![8, 16, 1, 256]⟩
abbrev S8x16x1024x256 : Shape := ⟨4, ![8, 16, 1024, 256]⟩
abbrev S8x1024 : Shape := ⟨2, ![8, 1024]⟩
abbrev S8x1024x1 : Shape := ⟨3, ![8, 1024, 1]⟩

abbrev nBuf : Space → Nat
  | .hbm => 130
  | .vmem => 0
  | .smem => 0
  | _ => 0

abbrev hbmTy0_0 (i : Nat) : BufTy := match i % 128 with
  | 0 => ⟨S8x32x32x256, .f32⟩
  | 1 => ⟨S8x15x256, .f32⟩
  | 2 => ⟨S8x15x4, .i32⟩
  | 3 => ⟨S256x256, .f32⟩
  | 4 => ⟨S256x256, .f32⟩
  | 5 => ⟨S4, .i32⟩
  | 6 => ⟨S_, .f32⟩
  | 7 => ⟨S8x256, .f32⟩
  | 8 => ⟨S8x1x256, .f32⟩
  | 9 => ⟨S_, .f32⟩
  | 10 => ⟨S8x1x256, .f32⟩
  | 11 => ⟨S8x1x256, .f32⟩
  | 12 => ⟨S8x16x256, .f32⟩
  | 13 => ⟨S8x15x2, .i32⟩
  | 14 => ⟨S8x15x2, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S8x15x2, .i32⟩
  | 22 => ⟨S8x15x2, .i32⟩
  | 23 => ⟨S_, .i32⟩
  | 24 => ⟨S8x15x2, .i32⟩
  | 25 => ⟨S8x15x2, .i1⟩
  | 26 => ⟨S_, .i32⟩
  | 27 => ⟨S8x15x2, .i32⟩
  | 28 => ⟨S8x15x2, .i1⟩
  | 29 => ⟨S_, .i32⟩
  | 30 => ⟨S_, .i1⟩
  | 31 => ⟨S8x15x2, .i1⟩
  | 32 => ⟨S8x15x2, .i1⟩
  | 33 => ⟨S8x15x2, .i1⟩
  | 34 => ⟨S8x15x2, .i32⟩
  | 35 => ⟨S8x15x2, .i32⟩
  | 36 => ⟨S8x15x2, .i32⟩
  | 37 => ⟨S8x15x2, .i32⟩
  | 38 => ⟨S8x15x2, .i32⟩
  | 39 => ⟨S8x15x2, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S8x15x2, .i32⟩
  | 47 => ⟨S8x15x2, .i32⟩
  | 48 => ⟨S_, .i32⟩
  | 49 => ⟨S8x15x2, .i32⟩
  | 50 => ⟨S8x15x2, .i1⟩
  | 51 => ⟨S_, .i32⟩
  | 52 => ⟨S8x15x2, .i32⟩
  | 53 => ⟨S8x15x2, .i1⟩
  | 54 => ⟨S_, .i32⟩
  | 55 => ⟨S_, .i1⟩
  | 56 => ⟨S8x15x2, .i1⟩
  | 57 => ⟨S8x15x2, .i1⟩
  | 58 => ⟨S8x15x2, .i1⟩
  | 59 => ⟨S8x15x2, .i32⟩
  | 60 => ⟨S8x15x2, .i32⟩
  | 61 => ⟨S8x15x2, .i32⟩
  | 62 => ⟨S_, .i32⟩
  | 63 => ⟨S8x15x2, .i32⟩
  | 64 => ⟨S8x15x2, .i32⟩
  | 65 => ⟨S8x15x2, .i32⟩
  | 66 => ⟨S8x15x4, .i32⟩
  | 67 => ⟨S8x1x4, .i32⟩
  | 68 => ⟨S8x16x4, .i32⟩
  | 69 => ⟨S32, .i32⟩
  | 70 => ⟨S32x1, .i32⟩
  | 71 => ⟨S32, .i32⟩
  | 72 => ⟨S1x32, .i32⟩
  | 73 => ⟨S8x16x1, .i32⟩
  | 74 => ⟨S8x16, .i32⟩
  | 75 => ⟨S8x16x1x1, .i32⟩
  | 76 => ⟨S8x16x1, .i32⟩
  | 77 => ⟨S8x16, .i32⟩
  | 78 => ⟨S8x16x1x1, .i32⟩
  | 79 => ⟨S8x16x1, .i32⟩
  | 80 => ⟨S8x16, .i32⟩
  | 81 => ⟨S8x16x1x1, .i32⟩
  | 82 => ⟨S8x16x1, .i32⟩
  | 83 => ⟨S8x16, .i32⟩
  | 84 => ⟨S8x16x1x1, .i32⟩
  | 85 => ⟨S1x1x32x1, .i32⟩
  | 86 => ⟨S8x16x32x1, .i32⟩
  | 87 => ⟨S8x16x32x1, .i32⟩
  | 88 => ⟨S8x16x32x1, .i1⟩
  | 89 => ⟨S1x1x32x1, .i32⟩
  | 90 => ⟨S8x16x32x1, .i32⟩
  | 91 => ⟨S8x16x32x1, .i32⟩
  | 92 => ⟨S8x16x32x1, .i1⟩
  | 93 => ⟨S8x16x32x1, .i1⟩
  | 94 => ⟨S1x1x1x32, .i32⟩
  | 95 => ⟨S8x16x1x32, .i32⟩
  | 96 => ⟨S8x16x1x32, .i32⟩
  | 97 => ⟨S8x16x1x32, .i1⟩
  | 98 => ⟨S8x16x32x32, .i1⟩
  | 99 => ⟨S8x16x32x32, .i1⟩
  | 100 => ⟨S8x16x32x32, .i1⟩
  | 101 => ⟨S1x1x1x32, .i32⟩
  | 102 => ⟨S8x16x1x32, .i32⟩
  | 103 => ⟨S8x16x1x32, .i32⟩
  | 104 => ⟨S8x16x1x32, .i1⟩
  | 105 => ⟨S8x16x32x32, .i1⟩
  | 106 => ⟨S8x16x32x32, .i1⟩
  | 107 => ⟨S8x16x1024, .i1⟩
  | 108 => ⟨S8x16x1024, .f32⟩
  | 109 => ⟨S8x1024x256, .f32⟩
  | 110 => ⟨S8x1024x256, .f32⟩
  | 111 => ⟨S8x16x256, .f32⟩
  | 112 => ⟨S8x1x1024x256, .f32⟩
  | 113 => ⟨S8x16x1024x1, .f32⟩
  | 114 => ⟨S8x16x1x256, .f32⟩
  | 115 => ⟨S8x16x1024x256, .f32⟩
  | 116 => ⟨S8x16x1024x256, .f32⟩
  | 117 => ⟨S8x16x1024x256, .f32⟩
  | 118 => ⟨S8x16x1024x256, .f32⟩
  | 119 => ⟨S8x16x1024x256, .f32⟩
  | 120 => ⟨S8x16x1024x1, .f32⟩
  | 121 => ⟨S8x16x1024x256, .f32⟩
  | 122 => ⟨S8x16x1024x256, .f32⟩
  | 123 => ⟨S_, .f32⟩
  | 124 => ⟨S8x1024x256, .f32⟩
  | 125 => ⟨S_, .f32⟩
  | 126 => ⟨S8x1024, .f32⟩
  | 127 => ⟨S8x1024x1, .f32⟩
  | _ => ⟨S8x32x32x256, .f32⟩

abbrev hbmTy0_1 (i : Nat) : BufTy := match i % 128 with
  | 0 => ⟨S8x1024x256, .f32⟩
  | 1 => ⟨S8x1024x256, .f32⟩
  | _ => ⟨S8x32x32x256, .f32⟩

abbrev hbmTy (i : Nat) : BufTy := match i / 128 with
  | 0 => hbmTy0_0 i
  | 1 => hbmTy0_1 i
  | _ => ⟨S8x32x32x256, .f32⟩

abbrev bufTy : (tb : Table) → Fin (tcTables nBuf tb) → BufTy
  | .hbm, ⟨i, _⟩ => hbmTy i
  | _, _ => ⟨S8x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v11 : Ref sig .tc := ⟨.hbm, 61, rfl⟩
abbrev main_c_3 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_4 : Ref sig .tc := ⟨.hbm, 123, rfl⟩
abbrev main_v72 : Ref sig .tc := ⟨.hbm, 124, rfl⟩
abbrev main_cst_5 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩

abbrev nD : Nat := 1
abbrev τ : Topo := Topo.v7x

variable {F : FTy → Type} [FloatOps F]

class Facts₀ : Prop where
  reducesTo_S8x15x256_S8x256_d1 : S8x15x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  concatenates_S8x15x256_S8x1x256_S8x16x256_d1 : Shape.Concatenates [S8x15x256, S8x1x256] S8x16x256 1
  slices_S8x15x4_S8x15x2_0_0_0 : S8x15x4.Slices ![0, 0, 0] S8x15x2
  bcast_S_S8x15x2 : S_.BroadcastsInDim S8x15x2 (![] : Fin 0 → Fin S8x15x2.rank)
  slices_S8x15x4_S8x15x2_0_0_2 : S8x15x4.Slices ![0, 0, 2] S8x15x2
  concatenates_S8x15x2_S8x15x2_S8x15x4_d2 : Shape.Concatenates [S8x15x2, S8x15x2] S8x15x4 2
  bcast_S4_S8x1x4_2 : S4.BroadcastsInDim S8x1x4 (![2] : Fin 1 → Fin S8x1x4.rank)
  concatenates_S8x15x4_S8x1x4_S8x16x4_d1 : Shape.Concatenates [S8x15x4, S8x1x4] S8x16x4 1
  bcast_S32_S32x1_0 : S32.BroadcastsInDim S32x1 (![0] : Fin 1 → Fin S32x1.rank)
  bcast_S32_S1x32_1 : S32.BroadcastsInDim S1x32 (![1] : Fin 1 → Fin S1x32.rank)
  slices_S8x16x4_S8x16x1_0_0_0 : S8x16x4.Slices ![0, 0, 0] S8x16x1
  shapeCasts_S8x16x1_S8x16 : S8x16x1.ShapeCasts S8x16
  bcast_S8x16_S8x16x1x1_0_1 : S8x16.BroadcastsInDim S8x16x1x1 (![0, 1] : Fin 2 → Fin S8x16x1x1.rank)
  slices_S8x16x4_S8x16x1_0_0_1 : S8x16x4.Slices ![0, 0, 1] S8x16x1
  slices_S8x16x4_S8x16x1_0_0_2 : S8x16x4.Slices ![0, 0, 2] S8x16x1
  slices_S8x16x4_S8x16x1_0_0_3 : S8x16x4.Slices ![0, 0, 3] S8x16x1
  bcast_S32x1_S1x1x32x1_2_3 : S32x1.BroadcastsInDim S1x1x32x1 (![2, 3] : Fin 2 → Fin S1x1x32x1.rank)
  bcast_S1x1x32x1_S8x16x32x1_0_1_2_3 : S1x1x32x1.BroadcastsInDim S8x16x32x1 (![0, 1, 2, 3] : Fin 4 → Fin S8x16x32x1.rank)
  bcast_S8x16x1x1_S8x16x32x1_0_1_2_3 : S8x16x1x1.BroadcastsInDim S8x16x32x1 (![0, 1, 2, 3] : Fin 4 → Fin S8x16x32x1.rank)
  bcast_S1x32_S1x1x1x32_2_3 : S1x32.BroadcastsInDim S1x1x1x32 (![2, 3] : Fin 2 → Fin S1x1x1x32.rank)
  bcast_S1x1x1x32_S8x16x1x32_0_1_2_3 : S1x1x1x32.BroadcastsInDim S8x16x1x32 (![0, 1, 2, 3] : Fin 4 → Fin S8x16x1x32.rank)
  bcast_S8x16x1x1_S8x16x1x32_0_1_2_3 : S8x16x1x1.BroadcastsInDim S8x16x1x32 (![0, 1, 2, 3] : Fin 4 → Fin S8x16x1x32.rank)
  bcast_S8x16x32x1_S8x16x32x32_0_1_2_3 : S8x16x32x1.BroadcastsInDim S8x16x32x32 (![0, 1, 2, 3] : Fin 4 → Fin S8x16x32x32.rank)
  bcast_S8x16x1x32_S8x16x32x32_0_1_2_3 : S8x16x1x32.BroadcastsInDim S8x16x32x32 (![0, 1, 2, 3] : Fin 4 → Fin S8x16x32x32.rank)
  shapeCasts_S8x16x32x32_S8x16x1024 : S8x16x32x32.ShapeCasts S8x16x1024
  shapeCasts_S8x32x32x256_S8x1024x256 : S8x32x32x256.ShapeCasts S8x1024x256
  bcast_S8x1024x256_S8x1x1024x256_0_2_3 : S8x1024x256.BroadcastsInDim S8x1x1024x256 (![0, 2, 3] : Fin 3 → Fin S8x1x1024x256.rank)
  bcast_S8x16x1024_S8x16x1024x1_0_1_2 : S8x16x1024.BroadcastsInDim S8x16x1024x1 (![0, 1, 2] : Fin 3 → Fin S8x16x1024x1.rank)
  bcast_S8x16x256_S8x16x1x256_0_1_3 : S8x16x256.BroadcastsInDim S8x16x1x256 (![0, 1, 3] : Fin 3 → Fin S8x16x1x256.rank)
  bcast_S8x16x1024x1_S8x16x1024x256_0_1_2_3 : S8x16x1024x1.BroadcastsInDim S8x16x1024x256 (![0, 1, 2, 3] : Fin 4 → Fin S8x16x1024x256.rank)
  bcast_S8x16x1x256_S8x16x1024x256_0_1_2_3 : S8x16x1x256.BroadcastsInDim S8x16x1024x256 (![0, 1, 2, 3] : Fin 4 → Fin S8x16x1024x256.rank)
  bcast_S8x1x1024x256_S8x16x1024x256_0_1_2_3 : S8x1x1024x256.BroadcastsInDim S8x16x1024x256 (![0, 1, 2, 3] : Fin 4 → Fin S8x16x1024x256.rank)
  reducesTo_S8x16x1024x256_S8x1024x256_d1 : S8x16x1024x256.ReducesTo [1] S8x1024x256
  reducesTo_S8x16x1024_S8x1024_d1 : S8x16x1024.ReducesTo [1] S8x1024
  bcast_S8x1024_S8x1024x1_0_1 : S8x1024.BroadcastsInDim S8x1024x1 (![0, 1] : Fin 2 → Fin S8x1024x1.rank)
  bcast_S8x1024x1_S8x1024x256_0_1_2 : S8x1024x1.BroadcastsInDim S8x1024x256 (![0, 1, 2] : Fin 3 → Fin S8x1024x256.rank)
  dot_S8x1024x256_S256x256_S8x1024x256_2_0_01_1_n_n_wf : DotDims.WF S8x1024x256 S256x256 S8x1024x256 [2] [0] [0, 1] [1] [] []
  dot_S8x16x256_S256x256_S8x16x256_2_0_01_1_n_n_wf : DotDims.WF S8x16x256 S256x256 S8x16x256 [2] [0] [0, 1] [1] [] []

variable [Facts₀]

def dot_S8x1024x256_S256x256_S8x1024x256_2_0_01_1_n_n : DotDims S8x1024x256 S256x256 S8x1024x256 where
  lhsContracting := [2]
  rhsContracting := [0]
  lhsNonContracting := [0, 1]
  rhsNonContracting := [1]
  lhsBatch := []
  rhsBatch := []
  wf := dot_S8x1024x256_S256x256_S8x1024x256_2_0_01_1_n_n_wf
def dot_S8x16x256_S256x256_S8x16x256_2_0_01_1_n_n : DotDims S8x16x256 S256x256 S8x16x256 where
  lhsContracting := [2]
  rhsContracting := [0]
  lhsNonContracting := [0, 1]
  rhsNonContracting := [1]
  lhsBatch := []
  rhsBatch := []
  wf := dot_S8x16x256_S256x256_S8x16x256_2_0_01_1_n_n_wf

class Facts : Prop extends Facts₀ where

variable [Facts]
-- ==== Proof.RefRun.lean ====
/-
  The reference program's run, read back.

  The reference's @main is a straight line of host operations: the mean embedding appended as a sixteenth row, the
  sixteen boxes rasterised into a mask (the remainder function jnp outlines is run twice, once for the box starts and
  once for the box ends), the two projections, and the masked mean over the sixteen rows. Listed here in order, with
  the outlined function's lines at each of its two call sites, the program is the sequence of these operations, and
  every weakly fair execution of it ends with each buffer at the fold of the operations over the launch memory.
-/
import proofs.«142150_j33165737460139_2_alg».proof.Proof.Gen.ReferenceIdeal
import Idealize.ShloMosaic.Lib.StableHlo.Run
import Idealize.ShloMosaic.Lib.Pipeline.Regions

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The operations before the first call of the remainder function. -/
abbrev opsA0 : List (HloOp τ sig (Elt F)) :=
  [ StableHlo.nullary main_c (fun i => lit0 (S4.rowMajor i)),
    StableHlo.nullary main_cst (constant S_ .f32 0x00000000#32),
    StableHlo.binary main_arg1 main_cst main_v0 ((fun x v => Host.reduceAdd x v reducesTo_S8x15x256_S8x256_d1 h_S_) : (⟨S8x15x256, .f32⟩ : BufTy).Contents (Elt F) → (⟨S_, .f32⟩ : BufTy).Contents (Elt F) → (⟨S8x256, .f32⟩ : BufTy).Contents (Elt F)),
    StableHlo.unary main_v0 main_v1 (broadcastInDim S8x1x256 ![0, 2] bcast_S8x256_S8x1x256_0_2 : (⟨S8x256, .f32⟩ : BufTy).Contents (Elt F) → (⟨S8x1x256, .f32⟩ : BufTy).Contents (Elt F)),
    StableHlo.nullary main_cst_0 (constant S_ .f32 0x41700000#32),
    StableHlo.unary main_cst_0 main_v2 (broadcastInDim S8x1x256 ![] bcast_S_S8x1x256 : (⟨S_, .f32⟩ : BufTy).Contents (Elt F) → (⟨S8x1x256, .f32⟩ : BufTy).Contents (Elt F)),
    StableHlo.binary main_v1 main_v2 main_v3 (Host.divf : (⟨S8x1x256, .f32⟩ : BufTy).Contents (Elt F) → (⟨S8x1x256, .f32⟩ : BufTy).Contents (Elt F) → (⟨S8x1x256, .f32⟩ : BufTy).Contents (Elt F)),
    StableHlo.binary main_arg1 main_v3 main_v4 ((fun a b => concatenate S8x16x256 1 [⟨S8x15x256, a⟩, ⟨S8x1x256, b⟩] concatenates_S8x15x256_S8x1x256_S8x16x256_d1) : (⟨S8x15x256, .f32⟩ : BufTy).Contents (Elt F) → (⟨S8x1x256, .f32⟩ : BufTy).Contents (Elt F) → (⟨S8x16x256, .f32⟩ : BufTy).Contents (Elt F)),
    StableHlo.unary main_arg2 main_v5 ((extractStridedSlice S8x15x2 ![0, 0, 0] · slices_S8x15x4_S8x15x2_0_0_0) : (⟨S8x15x4, .i32⟩ : BufTy).Contents (Elt F) → (⟨S8x15x2, .i32⟩ : BufTy).Contents (Elt F)),
    StableHlo.unary main_arg2 main_v6 ((extractStridedSlice S8x15x2 ![0, 0, 0] · slices_S8x15x4_S8x15x2_0_0_0) : (⟨S8x15x4, .i32⟩ : BufTy).Contents (Elt F) → (⟨S8x15x2, .i32⟩ : BufTy).Contents (Elt F)),
    StableHlo.nullary main_c_1 (constantI S_ 32 2#32) ]

/-- The remainder function's lines at its first call (on the box starts). -/
abbrev opsA1 : List (HloOp τ sig (Elt F)) :=
  [ StableHlo.TRef.unary (.of main_c_1 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) main_call0_call0.v0 select,
    StableHlo.TRef.unary main_call0_call0.v0 (.of main_call0_v3 : StableHlo.TRef sig ⟨S8x15x2, .i32⟩) (broadcastInDim S8x15x2 ![] bcast_S_S8x15x2),
    StableHlo.TRef.binary (.of main_v6 : StableHlo.TRef sig ⟨S8x15x2, .i32⟩) (.of main_call0_v3 : StableHlo.TRef sig ⟨S8x15x2, .i32⟩) (.of main_call0_v4 : StableHlo.TRef sig ⟨S8x15x2, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v5 : StableHlo.TRef sig ⟨S8x15x2, .i32⟩) (.of main_call0_v6 : StableHlo.TRef sig ⟨S8x15x2, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v7 : StableHlo.TRef sig ⟨S8x15x2, .i32⟩) (.of main_call0_v8 : StableHlo.TRef sig ⟨S8x15x2, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8x15x2, .i1⟩) (broadcastInDim S8x15x2 ![] bcast_S_S8x15x2),
    StableHlo.TRef.binary (.of main_call0_v8 : StableHlo.TRef sig ⟨S8x15x2, .i1⟩) (.of main_call0_v10 : StableHlo.TRef sig ⟨S8x15x2, .i1⟩) (.of main_call0_v11 : StableHlo.TRef sig ⟨S8x15x2, .i1⟩) (cmpi .ne),
    StableHlo.TRef.binary (.of main_call0_v11 : StableHlo.TRef sig ⟨S8x15x2, .i1⟩) (.of main_call0_v6 : StableHlo.TRef sig ⟨S8x15x2, .i1⟩) (.of main_call0_v12 : StableHlo.TRef sig ⟨S8x15x2, .i1⟩) andi,
    StableHlo.TRef.unary main_call0_call0.v0 (.of main_call0_v13 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v13 : StableHlo.TRef sig ⟨S8x15x2, .i32⟩) (.of main_call0_v14 : StableHlo.TRef sig ⟨S8x15x2, .i32⟩) addi,
    StableHlo.TRef.ternary (.of main_call0_v12 : StableHlo.TRef sig ⟨S8x15x2, .i1⟩) (.of main_call0_v14 : StableHlo.TRef sig ⟨S8x15x2, .i32⟩) (.of main_call0_v4 : StableHlo.TRef sig ⟨S8x15x2, .i32⟩) (.of main_v7 : StableHlo.TRef sig ⟨S8x15x2, .i32⟩) select ]

/-- Between the two calls. -/
abbrev opsA2 : List (HloOp τ sig (Elt F)) :=
  [ StableHlo.binary main_v5 main_v7 main_v8 (subi : (⟨S8x15x2, .i32⟩ : BufTy).Contents (Elt F) → (⟨S8x15x2, .i32⟩ : BufTy).Contents (Elt F) → (⟨S8x15x2, .i32⟩ : BufTy).Contents (Elt F)),
    StableHlo.unary main_arg2 main_v9 ((extractStridedSlice S8x15x2 ![0, 0, 2] · slices_S8x15x4_S8x15x2_0_0_2) : (⟨S8x15x4, .i32⟩ : BufTy).Contents (Elt F) → (⟨S8x15x2, .i32⟩ : BufTy).Contents (Elt F)),
    StableHlo.unary main_arg2 main_v10 ((extractStridedSlice S8x15x2 ![0, 0, 2] · slices_S8x15x4_S8x15x2_0_0_2) : (⟨S8x15x4, .i32⟩ : BufTy).Contents (Elt F) → (⟨S8x15x2, .i32⟩ : BufTy).Contents (Elt F)),
    StableHlo.nullary main_c_2 (constantI S_ 32 2#32) ]

/-- The remainder function's lines at its second call (on the box ends). -/
abbrev opsA3 : List (HloOp τ sig (Elt F)) :=
  [ StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) main_call1_call0.v0 select,
    StableHlo.TRef.unary main_call1_call0.v0 (.of main_call1_v3 : StableHlo.TRef sig ⟨S8x15x2, .i32⟩) (broadcastInDim S8x15x2 ![] bcast_S_S8x15x2),
    StableHlo.TRef.binary (.of main_v10 : StableHlo.TRef sig ⟨S8x15x2, .i32⟩) (.of main_call1_v3 : StableHlo.TRef sig ⟨S8x15x2, .i32⟩) (.of main_call1_v4 : StableHlo.TRef sig ⟨S8x15x2, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v5 : StableHlo.TRef sig ⟨S8x15x2, .i32⟩) (.of main_call1_v6 : StableHlo.TRef sig ⟨S8x15x2, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v7 : StableHlo.TRef sig ⟨S8x15x2, .i32⟩) (.of main_call1_v8 : StableHlo.TRef sig ⟨S8x15x2, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8x15x2, .i1⟩) (broadcastInDim S8x15x2 ![] bcast_S_S8x15x2),
    StableHlo.TRef.binary (.of main_call1_v8 : StableHlo.TRef sig ⟨S8x15x2, .i1⟩) (.of main_call1_v10 : StableHlo.TRef sig ⟨S8x15x2, .i1⟩) (.of main_call1_v11 : StableHlo.TRef sig ⟨S8x15x2, .i1⟩) (cmpi .ne),
    StableHlo.TRef.binary (.of main_call1_v11 : StableHlo.TRef sig ⟨S8x15x2, .i1⟩) (.of main_call1_v6 : StableHlo.TRef sig ⟨S8x15x2, .i1⟩) (.of main_call1_v12 : StableHlo.TRef sig ⟨S8x15x2, .i1⟩) andi,
    StableHlo.TRef.unary main_call1_call0.v0 (.of main_call1_v13 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v13 : StableHlo.TRef sig ⟨S8x15x2, .i32⟩) (.of main_call1_v14 : StableHlo.TRef sig ⟨S8x15x2, .i32⟩) addi,
    StableHlo.TRef.ternary (.of main_call1_v12 : StableHlo.TRef sig ⟨S8x15x2, .i1⟩) (.of main_call1_v14 : StableHlo.TRef sig ⟨S8x15x2, .i32⟩) (.of main_call1_v4 : StableHlo.TRef sig ⟨S8x15x2, .i32⟩) (.of main_v11 : StableHlo.TRef sig ⟨S8x15x2, .i32⟩) select ]

/-- From the second call to the end of the program's first window: the boxes' corners and the first comparisons. -/
abbrev opsA4 : List (HloOp τ sig (Elt F)) :=
  [ StableHlo.nullary main_c_3 (constantI S_ 32 2#32),
    StableHlo.unary main_c_3 main_v12 (broadcastInDim S8x15x2 ![] bcast_S_S8x15x2 : (⟨S_, .i32⟩ : BufTy).Contents (Elt F) → (⟨S8x15x2, .i32⟩ : BufTy).Contents (Elt F)),
    StableHlo.binary main_v12 main_v11 main_v13 (subi : (⟨S8x15x2, .i32⟩ : BufTy).Contents (Elt F) → (⟨S8x15x2, .i32⟩ : BufTy).Contents (Elt F) → (⟨S8x15x2, .i32⟩ : BufTy).Contents (Elt F)),
    StableHlo.binary main_v9 main_v13 main_v14 (addi : (⟨S8x15x2, .i32⟩ : BufTy).Contents (Elt F) → (⟨S8x15x2, .i32⟩ : BufTy).Contents (Elt F) → (⟨S8x15x2, .i32⟩ : BufTy).Contents (Elt F)),
    StableHlo.binary main_v8 main_v14 main_v15 ((fun a b => concatenate S8x15x4 2 [⟨S8x15x2, a⟩, ⟨S8x15x2, b⟩] concatenates_S8x15x2_S8x15x2_S8x15x4_d2) : (⟨S8x15x2, .i32⟩ : BufTy).Contents (Elt F) → (⟨S8x15x2, .i32⟩ : BufTy).Contents (Elt F) → (⟨S8x15x4, .i32⟩ : BufTy).Contents (Elt F)),
    StableHlo.unary main_c main_v16 (broadcastInDim S8x1x4 ![2] bcast_S4_S8x1x4_2 : (⟨S4, .i32⟩ : BufTy).Contents (Elt F) → (⟨S8x1x4, .i32⟩ : BufTy).Contents (Elt F)),
    StableHlo.binary main_v15 main_v16 main_v17 ((fun a b => concatenate S8x16x4 1 [⟨S8x15x4, a⟩, ⟨S8x1x4, b⟩] concatenates_S8x15x4_S8x1x4_S8x16x4_d1) : (⟨S8x15x4, .i32⟩ : BufTy).Contents (Elt F) → (⟨S8x1x4, .i32⟩ : BufTy).Contents (Elt F) → (⟨S8x16x4, .i32⟩ : BufTy).Contents (Elt F)),
    StableHlo.nullary main_v18 (iotaInDim S32 32 0),
    StableHlo.unary main_v18 main_v19 (broadcastInDim S32x1 ![0] bcast_S32_S32x1_0 : (⟨S32, .i32⟩ : BufTy).Contents (Elt F) → (⟨S32x1, .i32⟩ : BufTy).Contents (Elt F)),
    StableHlo.nullary main_v20 (iotaInDim S32 32 0),
    StableHlo.unary main_v20 main_v21 (broadcastInDim S1x32 ![1] bcast_S32_S1x32_1 : (⟨S32, .i32⟩ : BufTy).Contents (Elt F) → (⟨S1x32, .i32⟩ : BufTy).Contents (Elt F)),
    StableHlo.unary main_v17 main_v22 ((extractStridedSlice S8x16x1 ![0, 0, 0] · slices_S8x16x4_S8x16x1_0_0_0) : (⟨S8x16x4, .i32⟩ : BufTy).Contents (Elt F) → (⟨S8x16x1, .i32⟩ : BufTy).Contents (Elt F)),
    StableHlo.reshape main_v22 main_v23 rfl shapeCasts_S8x16x1_S8x16,
    StableHlo.unary main_v23 main_v24 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v25 ((extractStridedSlice S8x16x1 ![0, 0, 1] · slices_S8x16x4_S8x16x1_0_0_1) : (⟨S8x16x4, .i32⟩ : BufTy).Contents (Elt F) → (⟨S8x16x1, .i32⟩ : BufTy).Contents (Elt F)),
    StableHlo.reshape main_v25 main_v26 rfl shapeCasts_S8x16x1_S8x16,
    StableHlo.unary main_v26 main_v27 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v28 ((extractStridedSlice S8x16x1 ![0, 0, 2] · slices_S8x16x4_S8x16x1_0_0_2) : (⟨S8x16x4, .i32⟩ : BufTy).Contents (Elt F) → (⟨S8x16x1, .i32⟩ : BufTy).Contents (Elt F)),
    StableHlo.reshape main_v28 main_v29 rfl shapeCasts_S8x16x1_S8x16,
    StableHlo.unary main_v29 main_v30 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v31 ((extractStridedSlice S8x16x1 ![0, 0, 3] · slices_S8x16x4_S8x16x1_0_0_3) : (⟨S8x16x4, .i32⟩ : BufTy).Contents (Elt F) → (⟨S8x16x1, .i32⟩ : BufTy).Contents (Elt F)),
    StableHlo.reshape main_v31 main_v32 rfl shapeCasts_S8x16x1_S8x16,
    StableHlo.unary main_v32 main_v33 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v19 main_v34 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v34 main_v35 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v24 main_v36 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v35 main_v36 main_v37 (cmpi .sge : (⟨S8x16x32x1, .i32⟩ : BufTy).Contents (Elt F) → (⟨S8x16x32x1, .i32⟩ : BufTy).Contents (Elt F) → (⟨S8x16x32x1, .i1⟩ : BufTy).Contents (Elt F)),
    StableHlo.unary main_v19 main_v38 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v38 main_v39 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v30 main_v40 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v39 main_v40 main_v41 (cmpi .slt : (⟨S8x16x32x1, .i32⟩ : BufTy).Contents (Elt F) → (⟨S8x16x32x1, .i32⟩ : BufTy).Contents (Elt F) → (⟨S8x16x32x1, .i1⟩ : BufTy).Contents (Elt F)),
    StableHlo.binary main_v37 main_v41 main_v42 (andi : (⟨S8x16x32x1, .i1⟩ : BufTy).Contents (Elt F) → (⟨S8x16x32x1, .i1⟩ : BufTy).Contents (Elt F) → (⟨S8x16x32x1, .i1⟩ : BufTy).Contents (Elt F)),
    StableHlo.unary main_v21 main_v43 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v43 main_v44 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v27 main_v45 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v44 main_v45 main_v46 (cmpi .sge : (⟨S8x16x1x32, .i32⟩ : BufTy).Contents (Elt F) → (⟨S8x16x1x32, .i32⟩ : BufTy).Contents (Elt F) → (⟨S8x16x1x32, .i1⟩ : BufTy).Contents (Elt F)),
    StableHlo.unary main_v42 main_v47 (broadcastInDim S8x16x32x32 ![0, 1, 2, 3] bcast_S8x16x32x1_S8x16x32x32_0_1_2_3 : (⟨S8x16x32x1, .i1⟩ : BufTy).Contents (Elt F) → (⟨S8x16x32x32, .i1⟩ : BufTy).Contents (Elt F)),
    StableHlo.unary main_v46 main_v48 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v47 main_v48 main_v49 (andi : (⟨S8x16x32x32, .i1⟩ : BufTy).Contents (Elt F) → (⟨S8x16x32x32, .i1⟩ : BufTy).Contents (Elt F) → (⟨S8x16x32x32, .i1⟩ : BufTy).Contents (Elt F)),
    StableHlo.unary main_v21 main_v50 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v50 main_v51 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v33 main_v52 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v51 main_v52 main_v53 (cmpi .slt : (⟨S8x16x1x32, .i32⟩ : BufTy).Contents (Elt F) → (⟨S8x16x1x32, .i32⟩ : BufTy).Contents (Elt F) → (⟨S8x16x1x32, .i1⟩ : BufTy).Contents (Elt F)) ]

/-- The program's second window: the rest of the mask, the projections and the masked mean. -/
abbrev opsB0 : List (HloOp τ sig (Elt F)) :=
  [ StableHlo.unary main_v53 main_v54 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v49 main_v54 main_v55 (andi : (⟨S8x16x32x32, .i1⟩ : BufTy).Contents (Elt F) → (⟨S8x16x32x32, .i1⟩ : BufTy).Contents (Elt F) → (⟨S8x16x32x32, .i1⟩ : BufTy).Contents (Elt F)),
    StableHlo.reshape main_v55 main_v56 rfl shapeCasts_S8x16x32x32_S8x16x1024,
    StableHlo.unary main_v56 main_v57 (uitofp .f32 : (⟨S8x16x1024, .i1⟩ : BufTy).Contents (Elt F) → (⟨S8x16x1024, .f32⟩ : BufTy).Contents (Elt F)),
    StableHlo.reshape main_arg0 main_v58 rfl shapeCasts_S8x32x32x256_S8x1024x256,
    StableHlo.binary main_v58 main_arg3 main_v59 ((fun l r => Host.dotGeneral dot_S8x1024x256_S256x256_S8x1024x256_2_0_01_1_n_n none l r) : (⟨S8x1024x256, .f32⟩ : BufTy).Contents (Elt F) → (⟨S256x256, .f32⟩ : BufTy).Contents (Elt F) → (⟨S8x1024x256, .f32⟩ : BufTy).Contents (Elt F)),
    StableHlo.binary main_v4 main_arg4 main_v60 ((fun l r => Host.dotGeneral dot_S8x16x256_S256x256_S8x16x256_2_0_01_1_n_n none l r) : (⟨S8x16x256, .f32⟩ : BufTy).Contents (Elt F) → (⟨S256x256, .f32⟩ : BufTy).Contents (Elt F) → (⟨S8x16x256, .f32⟩ : BufTy).Contents (Elt F)),
    StableHlo.unary main_v59 main_v61 (broadcastInDim S8x1x1024x256 ![0, 2, 3] bcast_S8x1024x256_S8x1x1024x256_0_2_3 : (⟨S8x1024x256, .f32⟩ : BufTy).Contents (Elt F) → (⟨S8x1x1024x256, .f32⟩ : BufTy).Contents (Elt F)),
    StableHlo.unary main_v57 main_v62 (broadcastInDim S8x16x1024x1 ![0, 1, 2] bcast_S8x16x1024_S8x16x1024x1_0_1_2 : (⟨S8x16x1024, .f32⟩ : BufTy).Contents (Elt F) → (⟨S8x16x1024x1, .f32⟩ : BufTy).Contents (Elt F)),
    StableHlo.unary main_v60 main_v63 (broadcastInDim S8x16x1x256 ![0, 1, 3] bcast_S8x16x256_S8x16x1x256_0_1_3 : (⟨S8x16x256, .f32⟩ : BufTy).Contents (Elt F) → (⟨S8x16x1x256, .f32⟩ : BufTy).Contents (Elt F)),
    StableHlo.unary main_v62 main_v64 (broadcastInDim S8x16x1024x256 ![0, 1, 2, 3] bcast_S8x16x1024x1_S8x16x1024x256_0_1_2_3 : (⟨S8x16x1024x1, .f32⟩ : BufTy).Contents (Elt F) → (⟨S8x16x1024x256, .f32⟩ : BufTy).Contents (Elt F)),
    StableHlo.unary main_v63 main_v65 (broadcastInDim S8x16x1024x256 ![0, 1, 2, 3] bcast_S8x16x1x256_S8x16x1024x256_0_1_2_3 : (⟨S8x16x1x256, .f32⟩ : BufTy).Contents (Elt F) → (⟨S8x16x1024x256, .f32⟩ : BufTy).Contents (Elt F)),
    StableHlo.binary main_v64 main_v65 main_v66 (mulf : (⟨S8x16x1024x256, .f32⟩ : BufTy).Contents (Elt F) → (⟨S8x16x1024x256, .f32⟩ : BufTy).Contents (Elt F) → (⟨S8x16x1024x256, .f32⟩ : BufTy).Contents (Elt F)),
    StableHlo.unary main_v61 main_v67 (broadcastInDim S8x16x1024x256 ![0, 1, 2, 3] bcast_S8x1x1024x256_S8x16x1024x256_0_1_2_3 : (⟨S8x1x1024x256, .f32⟩ : BufTy).Contents (Elt F) → (⟨S8x16x1024x256, .f32⟩ : BufTy).Contents (Elt F)),
    StableHlo.binary main_v67 main_v66 main_v68 (addf : (⟨S8x16x1024x256, .f32⟩ : BufTy).Contents (Elt F) → (⟨S8x16x1024x256, .f32⟩ : BufTy).Contents (Elt F) → (⟨S8x16x1024x256, .f32⟩ : BufTy).Contents (Elt F)),
    StableHlo.unary main_v57 main_v69 (broadcastInDim S8x16x1024x1 ![0, 1, 2] bcast_S8x16x1024_S8x16x1024x1_0_1_2 : (⟨S8x16x1024, .f32⟩ : BufTy).Contents (Elt F) → (⟨S8x16x1024x1, .f32⟩ : BufTy).Contents (Elt F)),
    StableHlo.unary main_v69 main_v70 (broadcastInDim S8x16x1024x256 ![0, 1, 2, 3] bcast_S8x16x1024x1_S8x16x1024x256_0_1_2_3 : (⟨S8x16x1024x1, .f32⟩ : BufTy).Contents (Elt F) → (⟨S8x16x1024x256, .f32⟩ : BufTy).Contents (Elt F)),
    StableHlo.binary main_v68 main_v70 main_v71 (mulf : (⟨S8x16x1024x256, .f32⟩ : BufTy).Contents (Elt F) → (⟨S8x16x1024x256, .f32⟩ : BufTy).Contents (Elt F) → (⟨S8x16x1024x256, .f32⟩ : BufTy).Contents (Elt F)),
    StableHlo.nullary main_cst_4 (constant S_ .f32 0x00000000#32),
    StableHlo.binary main_v71 main_cst_4 main_v72 ((fun x v => Host.reduceAdd x v reducesTo_S8x16x1024x256_S8x1024x256_d1 h_S_) : (⟨S8x16x1024x256, .f32⟩ : BufTy).Contents (Elt F) → (⟨S_, .f32⟩ : BufTy).Contents (Elt F) → (⟨S8x1024x256, .f32⟩ : BufTy).Contents (Elt F)),
    StableHlo.nullary main_cst_5 (constant S_ .f32 0x00000000#32),
    StableHlo.binary main_v57 main_cst_5 main_v73 ((fun x v => Host.reduceAdd x v reducesTo_S8x16x1024_S8x1024_d1 h_S_) : (⟨S8x16x1024, .f32⟩ : BufTy).Contents (Elt F) → (⟨S_, .f32⟩ : BufTy).Contents (Elt F) → (⟨S8x1024, .f32⟩ : BufTy).Contents (Elt F)),
    StableHlo.unary main_v73 main_v74 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_v74 main_v75 (broadcastInDim S8x1024x256 ![0, 1, 2] bcast_S8x1024x1_S8x1024x256_0_1_2 : (⟨S8x1024x1, .f32⟩ : BufTy).Contents (Elt F) → (⟨S8x1024x256, .f32⟩ : BufTy).Contents (Elt F)),
    StableHlo.binary main_v72 main_v75 main_v76 (Host.divf : (⟨S8x1024x256, .f32⟩ : BufTy).Contents (Elt F) → (⟨S8x1024x256, .f32⟩ : BufTy).Contents (Elt F) → (⟨S8x1024x256, .f32⟩ : BufTy).Contents (Elt F)) ]

/-- The whole program's operations, in order. -/
abbrev ops : List (HloOp τ sig (Elt F)) :=
  [ StableHlo.nullary main_c (fun i => lit0 (S4.rowMajor i)),
    StableHlo.nullary main_cst (constant S_ .f32 0x00000000#32),
    StableHlo.binary main_arg1 main_cst main_v0 ((fun x v => Host.reduceAdd x v reducesTo_S8x15x256_S8x256_d1 h_S_) : (⟨S8x15x256, .f32⟩ : BufTy).Contents (Elt F) → (⟨S_, .f32⟩ : BufTy).Contents (Elt F) → (⟨S8x256, .f32⟩ : BufTy).Contents (Elt F)),
    StableHlo.unary main_v0 main_v1 (broadcastInDim S8x1x256 ![0, 2] bcast_S8x256_S8x1x256_0_2 : (⟨S8x256, .f32⟩ : BufTy).Contents (Elt F) → (⟨S8x1x256, .f32⟩ : BufTy).Contents (Elt F)),
    StableHlo.nullary main_cst_0 (constant S_ .f32 0x41700000#32),
    StableHlo.unary main_cst_0 main_v2 (broadcastInDim S8x1x256 ![] bcast_S_S8x1x256 : (⟨S_, .f32⟩ : BufTy).Contents (Elt F) → (⟨S8x1x256, .f32⟩ : BufTy).Contents (Elt F)),
    StableHlo.binary main_v1 main_v2 main_v3 (Host.divf : (⟨S8x1x256, .f32⟩ : BufTy).Contents (Elt F) → (⟨S8x1x256, .f32⟩ : BufTy).Contents (Elt F) → (⟨S8x1x256, .f32⟩ : BufTy).Contents (Elt F)),
    StableHlo.binary main_arg1 main_v3 main_v4 ((fun a b => concatenate S8x16x256 1 [⟨S8x15x256, a⟩, ⟨S8x1x256, b⟩] concatenates_S8x15x256_S8x1x256_S8x16x256_d1) : (⟨S8x15x256, .f32⟩ : BufTy).Contents (Elt F) → (⟨S8x1x256, .f32⟩ : BufTy).Contents (Elt F) → (⟨S8x16x256, .f32⟩ : BufTy).Contents (Elt F)),
    StableHlo.unary main_arg2 main_v5 ((extractStridedSlice S8x15x2 ![0, 0, 0] · slices_S8x15x4_S8x15x2_0_0_0) : (⟨S8x15x4, .i32⟩ : BufTy).Contents (Elt F) → (⟨S8x15x2, .i32⟩ : BufTy).Contents (Elt F)),
    StableHlo.unary main_arg2 main_v6 ((extractStridedSlice S8x15x2 ![0, 0, 0] · slices_S8x15x4_S8x15x2_0_0_0) : (⟨S8x15x4, .i32⟩ : BufTy).Contents (Elt F) → (⟨S8x15x2, .i32⟩ : BufTy).Contents (Elt F)),
    StableHlo.nullary main_c_1 (constantI S_ 32 2#32),
    StableHlo.TRef.unary (.of main_c_1 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) main_call0_call0.v0 select,
    StableHlo.TRef.unary main_call0_call0.v0 (.of main_call0_v3 : StableHlo.TRef sig ⟨S8x15x2, .i32⟩) (broadcastInDim S8x15x2 ![] bcast_S_S8x15x2),
    StableHlo.TRef.binary (.of main_v6 : StableHlo.TRef sig ⟨S8x15x2, .i32⟩) (.of main_call0_v3 : StableHlo.TRef sig ⟨S8x15x2, .i32⟩) (.of main_call0_v4 : StableHlo.TRef sig ⟨S8x15x2, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v5 : StableHlo.TRef sig ⟨S8x15x2, .i32⟩) (.of main_call0_v6 : StableHlo.TRef sig ⟨S8x15x2, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v7 : StableHlo.TRef sig ⟨S8x15x2, .i32⟩) (.of main_call0_v8 : StableHlo.TRef sig ⟨S8x15x2, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8x15x2, .i1⟩) (broadcastInDim S8x15x2 ![] bcast_S_S8x15x2),
    StableHlo.TRef.binary (.of main_call0_v8 : StableHlo.TRef sig ⟨S8x15x2, .i1⟩) (.of main_call0_v10 : StableHlo.TRef sig ⟨S8x15x2, .i1⟩) (.of main_call0_v11 : StableHlo.TRef sig ⟨S8x15x2, .i1⟩) (cmpi .ne),
    StableHlo.TRef.binary (.of main_call0_v11 : StableHlo.TRef sig ⟨S8x15x2, .i1⟩) (.of main_call0_v6 : StableHlo.TRef sig ⟨S8x15x2, .i1⟩) (.of main_call0_v12 : StableHlo.TRef sig ⟨S8x15x2, .i1⟩) andi,
    StableHlo.TRef.unary main_call0_call0.v0 (.of main_call0_v13 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v13 : StableHlo.TRef sig ⟨S8x15x2, .i32⟩) (.of main_call0_v14 : StableHlo.TRef sig ⟨S8x15x2, .i32⟩) addi,
    StableHlo.TRef.ternary (.of main_call0_v12 : StableHlo.TRef sig ⟨S8x15x2, .i1⟩) (.of main_call0_v14 : StableHlo.TRef sig ⟨S8x15x2, .i32⟩) (.of main_call0_v4 : StableHlo.TRef sig ⟨S8x15x2, .i32⟩) (.of main_v7 : StableHlo.TRef sig ⟨S8x15x2, .i32⟩) select,
    StableHlo.binary main_v5 main_v7 main_v8 (subi : (⟨S8x15x2, .i32⟩ : BufTy).Contents (Elt F) → (⟨S8x15x2, .i32⟩ : BufTy).Contents (Elt F) → (⟨S8x15x2, .i32⟩ : BufTy).Contents (Elt F)),
    StableHlo.unary main_arg2 main_v9 ((extractStridedSlice S8x15x2 ![0, 0, 2] · slices_S8x15x4_S8x15x2_0_0_2) : (⟨S8x15x4, .i32⟩ : BufTy).Contents (Elt F) → (⟨S8x15x2, .i32⟩ : BufTy).Contents (Elt F)),
    StableHlo.unary main_arg2 main_v10 ((extractStridedSlice S8x15x2 ![0, 0, 2] · slices_S8x15x4_S8x15x2_0_0_2) : (⟨S8x15x4, .i32⟩ : BufTy).Contents (Elt F) → (⟨S8x15x2, .i32⟩ : BufTy).Contents (Elt F)),
    StableHlo.nullary main_c_2 (constantI S_ 32 2#32),
    StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) main_call1_call0.v0 select,
    StableHlo.TRef.unary main_call1_call0.v0 (.of main_call1_v3 : StableHlo.TRef sig ⟨S8x15x2, .i32⟩) (broadcastInDim S8x15x2 ![] bcast_S_S8x15x2),
    StableHlo.TRef.binary (.of main_v10 : StableHlo.TRef sig ⟨S8x15x2, .i32⟩) (.of main_call1_v3 : StableHlo.TRef sig ⟨S8x15x2, .i32⟩) (.of main_call1_v4 : StableHlo.TRef sig ⟨S8x15x2, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v5 : StableHlo.TRef sig ⟨S8x15x2, .i32⟩) (.of main_call1_v6 : StableHlo.TRef sig ⟨S8x15x2, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v7 : StableHlo.TRef sig ⟨S8x15x2, .i32⟩) (.of main_call1_v8 : StableHlo.TRef sig ⟨S8x15x2, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8x15x2, .i1⟩) (broadcastInDim S8x15x2 ![] bcast_S_S8x15x2),
    StableHlo.TRef.binary (.of main_call1_v8 : StableHlo.TRef sig ⟨S8x15x2, .i1⟩) (.of main_call1_v10 : StableHlo.TRef sig ⟨S8x15x2, .i1⟩) (.of main_call1_v11 : StableHlo.TRef sig ⟨S8x15x2, .i1⟩) (cmpi .ne),
    StableHlo.TRef.binary (.of main_call1_v11 : StableHlo.TRef sig ⟨S8x15x2, .i1⟩) (.of main_call1_v6 : StableHlo.TRef sig ⟨S8x15x2, .i1⟩) (.of main_call1_v12 : StableHlo.TRef sig ⟨S8x15x2, .i1⟩) andi,
    StableHlo.TRef.unary main_call1_call0.v0 (.of main_call1_v13 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v13 : StableHlo.TRef sig ⟨S8x15x2, .i32⟩) (.of main_call1_v14 : StableHlo.TRef sig ⟨S8x15x2, .i32⟩) addi,
    StableHlo.TRef.ternary (.of main_call1_v12 : StableHlo.TRef sig ⟨S8x15x2, .i1⟩) (.of main_call1_v14 : StableHlo.TRef sig ⟨S8x15x2, .i32⟩) (.of main_call1_v4 : StableHlo.TRef sig ⟨S8x15x2, .i32⟩) (.of main_v11 : StableHlo.TRef sig ⟨S8x15x2, .i32⟩) select,
    StableHlo.nullary main_c_3 (constantI S_ 32 2#32),
    StableHlo.unary main_c_3 main_v12 (broadcastInDim S8x15x2 ![] bcast_S_S8x15x2 : (⟨S_, .i32⟩ : BufTy).Contents (Elt F) → (⟨S8x15x2, .i32⟩ : BufTy).Contents (Elt F)),
    StableHlo.binary main_v12 main_v11 main_v13 (subi : (⟨S8x15x2, .i32⟩ : BufTy).Contents (Elt F) → (⟨S8x15x2, .i32⟩ : BufTy).Contents (Elt F) → (⟨S8x15x2, .i32⟩ : BufTy).Contents (Elt F)),
    StableHlo.binary main_v9 main_v13 main_v14 (addi : (⟨S8x15x2, .i32⟩ : BufTy).Contents (Elt F) → (⟨S8x15x2, .i32⟩ : BufTy).Contents (Elt F) → (⟨S8x15x2, .i32⟩ : BufTy).Contents (Elt F)),
    StableHlo.binary main_v8 main_v14 main_v15 ((fun a b => concatenate S8x15x4 2 [⟨S8x15x2, a⟩, ⟨S8x15x2, b⟩] concatenates_S8x15x2_S8x15x2_S8x15x4_d2) : (⟨S8x15x2, .i32⟩ : BufTy).Contents (Elt F) → (⟨S8x15x2, .i32⟩ : BufTy).Contents (Elt F) → (⟨S8x15x4, .i32⟩ : BufTy).Contents (Elt F)),
    StableHlo.unary main_c main_v16 (broadcastInDim S8x1x4 ![2] bcast_S4_S8x1x4_2 : (⟨S4, .i32⟩ : BufTy).Contents (Elt F) → (⟨S8x1x4, .i32⟩ : BufTy).Contents (Elt F)),
    StableHlo.binary main_v15 main_v16 main_v17 ((fun a b => concatenate S8x16x4 1 [⟨S8x15x4, a⟩, ⟨S8x1x4, b⟩] concatenates_S8x15x4_S8x1x4_S8x16x4_d1) : (⟨S8x15x4, .i32⟩ : BufTy).Contents (Elt F) → (⟨S8x1x4, .i32⟩ : BufTy).Contents (Elt F) → (⟨S8x16x4, .i32⟩ : BufTy).Contents (Elt F)),
    StableHlo.nullary main_v18 (iotaInDim S32 32 0),
    StableHlo.unary main_v18 main_v19 (broadcastInDim S32x1 ![0] bcast_S32_S32x1_0 : (⟨S32, .i32⟩ : BufTy).Contents (Elt F) → (⟨S32x1, .i32⟩ : BufTy).Contents (Elt F)),
    StableHlo.nullary main_v20 (iotaInDim S32 32 0),
    StableHlo.unary main_v20 main_v21 (broadcastInDim S1x32 ![1] bcast_S32_S1x32_1 : (⟨S32, .i32⟩ : BufTy).Contents (Elt F) → (⟨S1x32, .i32⟩ : BufTy).Contents (Elt F)),
    StableHlo.unary main_v17 main_v22 ((extractStridedSlice S8x16x1 ![0, 0, 0] · slices_S8x16x4_S8x16x1_0_0_0) : (⟨S8x16x4, .i32⟩ : BufTy).Contents (Elt F) → (⟨S8x16x1, .i32⟩ : BufTy).Contents (Elt F)),
    StableHlo.reshape main_v22 main_v23 rfl shapeCasts_S8x16x1_S8x16,
    StableHlo.unary main_v23 main_v24 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v25 ((extractStridedSlice S8x16x1 ![0, 0, 1] · slices_S8x16x4_S8x16x1_0_0_1) : (⟨S8x16x4, .i32⟩ : BufTy).Contents (Elt F) → (⟨S8x16x1, .i32⟩ : BufTy).Contents (Elt F)),
    StableHlo.reshape main_v25 main_v26 rfl shapeCasts_S8x16x1_S8x16,
    StableHlo.unary main_v26 main_v27 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v28 ((extractStridedSlice S8x16x1 ![0, 0, 2] · slices_S8x16x4_S8x16x1_0_0_2) : (⟨S8x16x4, .i32⟩ : BufTy).Contents (Elt F) → (⟨S8x16x1, .i32⟩ : BufTy).Contents (Elt F)),
    StableHlo.reshape main_v28 main_v29 rfl shapeCasts_S8x16x1_S8x16,
    StableHlo.unary main_v29 main_v30 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v31 ((extractStridedSlice S8x16x1 ![0, 0, 3] · slices_S8x16x4_S8x16x1_0_0_3) : (⟨S8x16x4, .i32⟩ : BufTy).Contents (Elt F) → (⟨S8x16x1, .i32⟩ : BufTy).Contents (Elt F)),
    StableHlo.reshape main_v31 main_v32 rfl shapeCasts_S8x16x1_S8x16,
    StableHlo.unary main_v32 main_v33 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v19 main_v34 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v34 main_v35 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v24 main_v36 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v35 main_v36 main_v37 (cmpi .sge : (⟨S8x16x32x1, .i32⟩ : BufTy).Contents (Elt F) → (⟨S8x16x32x1, .i32⟩ : BufTy).Contents (Elt F) → (⟨S8x16x32x1, .i1⟩ : BufTy).Contents (Elt F)),
    StableHlo.unary main_v19 main_v38 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v38 main_v39 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v30 main_v40 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v39 main_v40 main_v41 (cmpi .slt : (⟨S8x16x32x1, .i32⟩ : BufTy).Contents (Elt F) → (⟨S8x16x32x1, .i32⟩ : BufTy).Contents (Elt F) → (⟨S8x16x32x1, .i1⟩ : BufTy).Contents (Elt F)),
    StableHlo.binary main_v37 main_v41 main_v42 (andi : (⟨S8x16x32x1, .i1⟩ : BufTy).Contents (Elt F) → (⟨S8x16x32x1, .i1⟩ : BufTy).Contents (Elt F) → (⟨S8x16x32x1, .i1⟩ : BufTy).Contents (Elt F)),
    StableHlo.unary main_v21 main_v43 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v43 main_v44 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v27 main_v45 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v44 main_v45 main_v46 (cmpi .sge : (⟨S8x16x1x32, .i32⟩ : BufTy).Contents (Elt F) → (⟨S8x16x1x32, .i32⟩ : BufTy).Contents (Elt F) → (⟨S8x16x1x32, .i1⟩ : BufTy).Contents (Elt F)),
    StableHlo.unary main_v42 main_v47 (broadcastInDim S8x16x32x32 ![0, 1, 2, 3] bcast_S8x16x32x1_S8x16x32x32_0_1_2_3 : (⟨S8x16x32x1, .i1⟩ : BufTy).Contents (Elt F) → (⟨S8x16x32x32, .i1⟩ : BufTy).Contents (Elt F)),
    StableHlo.unary main_v46 main_v48 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v47 main_v48 main_v49 (andi : (⟨S8x16x32x32, .i1⟩ : BufTy).Contents (Elt F) → (⟨S8x16x32x32, .i1⟩ : BufTy).Contents (Elt F) → (⟨S8x16x32x32, .i1⟩ : BufTy).Contents (Elt F)),
    StableHlo.unary main_v21 main_v50 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v50 main_v51 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v33 main_v52 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v51 main_v52 main_v53 (cmpi .slt : (⟨S8x16x1x32, .i32⟩ : BufTy).Contents (Elt F) → (⟨S8x16x1x32, .i32⟩ : BufTy).Contents (Elt F) → (⟨S8x16x1x32, .i1⟩ : BufTy).Contents (Elt F)),
    StableHlo.unary main_v53 main_v54 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v49 main_v54 main_v55 (andi : (⟨S8x16x32x32, .i1⟩ : BufTy).Contents (Elt F) → (⟨S8x16x32x32, .i1⟩ : BufTy).Contents (Elt F) → (⟨S8x16x32x32, .i1⟩ : BufTy).Contents (Elt F)),
    StableHlo.reshape main_v55 main_v56 rfl shapeCasts_S8x16x32x32_S8x16x1024,
    StableHlo.unary main_v56 main_v57 (uitofp .f32 : (⟨S8x16x1024, .i1⟩ : BufTy).Contents (Elt F) → (⟨S8x16x1024, .f32⟩ : BufTy).Contents (Elt F)),
    StableHlo.reshape main_arg0 main_v58 rfl shapeCasts_S8x32x32x256_S8x1024x256,
    StableHlo.binary main_v58 main_arg3 main_v59 ((fun l r => Host.dotGeneral dot_S8x1024x256_S256x256_S8x1024x256_2_0_01_1_n_n none l r) : (⟨S8x1024x256, .f32⟩ : BufTy).Contents (Elt F) → (⟨S256x256, .f32⟩ : BufTy).Contents (Elt F) → (⟨S8x1024x256, .f32⟩ : BufTy).Contents (Elt F)),
    StableHlo.binary main_v4 main_arg4 main_v60 ((fun l r => Host.dotGeneral dot_S8x16x256_S256x256_S8x16x256_2_0_01_1_n_n none l r) : (⟨S8x16x256, .f32⟩ : BufTy).Contents (Elt F) → (⟨S256x256, .f32⟩ : BufTy).Contents (Elt F) → (⟨S8x16x256, .f32⟩ : BufTy).Contents (Elt F)),
    StableHlo.unary main_v59 main_v61 (broadcastInDim S8x1x1024x256 ![0, 2, 3] bcast_S8x1024x256_S8x1x1024x256_0_2_3 : (⟨S8x1024x256, .f32⟩ : BufTy).Contents (Elt F) → (⟨S8x1x1024x256, .f32⟩ : BufTy).Contents (Elt F)),
    StableHlo.unary main_v57 main_v62 (broadcastInDim S8x16x1024x1 ![0, 1, 2] bcast_S8x16x1024_S8x16x1024x1_0_1_2 : (⟨S8x16x1024, .f32⟩ : BufTy).Contents (Elt F) → (⟨S8x16x1024x1, .f32⟩ : BufTy).Contents (Elt F)),
    StableHlo.unary main_v60 main_v63 (broadcastInDim S8x16x1x256 ![0, 1, 3] bcast_S8x16x256_S8x16x1x256_0_1_3 : (⟨S8x16x256, .f32⟩ : BufTy).Contents (Elt F) → (⟨S8x16x1x256, .f32⟩ : BufTy).Contents (Elt F)),
    StableHlo.unary main_v62 main_v64 (broadcastInDim S8x16x1024x256 ![0, 1, 2, 3] bcast_S8x16x1024x1_S8x16x1024x256_0_1_2_3 : (⟨S8x16x1024x1, .f32⟩ : BufTy).Contents (Elt F) → (⟨S8x16x1024x256, .f32⟩ : BufTy).Contents (Elt F)),
    StableHlo.unary main_v63 main_v65 (broadcastInDim S8x16x1024x256 ![0, 1, 2, 3] bcast_S8x16x1x256_S8x16x1024x256_0_1_2_3 : (⟨S8x16x1x256, .f32⟩ : BufTy).Contents (Elt F) → (⟨S8x16x1024x256, .f32⟩ : BufTy).Contents (Elt F)),
    StableHlo.binary main_v64 main_v65 main_v66 (mulf : (⟨S8x16x1024x256, .f32⟩ : BufTy).Contents (Elt F) → (⟨S8x16x1024x256, .f32⟩ : BufTy).Contents (Elt F) → (⟨S8x16x1024x256, .f32⟩ : BufTy).Contents (Elt F)),
    StableHlo.unary main_v61 main_v67 (broadcastInDim S8x16x1024x256 ![0, 1, 2, 3] bcast_S8x1x1024x256_S8x16x1024x256_0_1_2_3 : (⟨S8x1x1024x256, .f32⟩ : BufTy).Contents (Elt F) → (⟨S8x16x1024x256, .f32⟩ : BufTy).Contents (Elt F)),
    StableHlo.binary main_v67 main_v66 main_v68 (addf : (⟨S8x16x1024x256, .f32⟩ : BufTy).Contents (Elt F) → (⟨S8x16x1024x256, .f32⟩ : BufTy).Contents (Elt F) → (⟨S8x16x1024x256, .f32⟩ : BufTy).Contents (Elt F)),
    StableHlo.unary main_v57 main_v69 (broadcastInDim S8x16x1024x1 ![0, 1, 2] bcast_S8x16x1024_S8x16x1024x1_0_1_2 : (⟨S8x16x1024, .f32⟩ : BufTy).Contents (Elt F) → (⟨S8x16x1024x1, .f32⟩ : BufTy).Contents (Elt F)),
    StableHlo.unary main_v69 main_v70 (broadcastInDim S8x16x1024x256 ![0, 1, 2, 3] bcast_S8x16x1024x1_S8x16x1024x256_0_1_2_3 : (⟨S8x16x1024x1, .f32⟩ : BufTy).Contents (Elt F) → (⟨S8x16x1024x256, .f32⟩ : BufTy).Contents (Elt F)),
    StableHlo.binary main_v68 main_v70 main_v71 (mulf : (⟨S8x16x1024x256, .f32⟩ : BufTy).Contents (Elt F) → (⟨S8x16x1024x256, .f32⟩ : BufTy).Contents (Elt F) → (⟨S8x16x1024x256, .f32⟩ : BufTy).Contents (Elt F)),
    StableHlo.nullary main_cst_4 (constant S_ .f32 0x00000000#32),
    StableHlo.binary main_v71 main_cst_4 main_v72 ((fun x v => Host.reduceAdd x v reducesTo_S8x16x1024x256_S8x1024x256_d1 h_S_) : (⟨S8x16x1024x256, .f32⟩ : BufTy).Contents (Elt F) → (⟨S_, .f32⟩ : BufTy).Contents (Elt F) → (⟨S8x1024x256, .f32⟩ : BufTy).Contents (Elt F)),
    StableHlo.nullary main_cst_5 (constant S_ .f32 0x00000000#32),
    StableHlo.binary main_v57 main_cst_5 main_v73 ((fun x v => Host.reduceAdd x v reducesTo_S8x16x1024_S8x1024_d1 h_S_) : (⟨S8x16x1024, .f32⟩ : BufTy).Contents (Elt F) → (⟨S_, .f32⟩ : BufTy).Contents (Elt F) → (⟨S8x1024, .f32⟩ : BufTy).Contents (Elt F)),
    StableHlo.unary main_v73 main_v74 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_v74 main_v75 (broadcastInDim S8x1024x256 ![0, 1, 2] bcast_S8x1024x1_S8x1024x256_0_1_2 : (⟨S8x1024x1, .f32⟩ : BufTy).Contents (Elt F) → (⟨S8x1024x256, .f32⟩ : BufTy).Contents (Elt F)),
    StableHlo.binary main_v72 main_v75 main_v76 (Host.divf : (⟨S8x1024x256, .f32⟩ : BufTy).Contents (Elt F) → (⟨S8x1024x256, .f32⟩ : BufTy).Contents (Elt F) → (⟨S8x1024x256, .f32⟩ : BufTy).Contents (Elt F)) ]

theorem ops_eq : (ops : List (HloOp τ sig (Elt F))) = opsA0 ++ (opsA1 ++ (opsA2 ++ (opsA3 ++ (opsA4 ++ opsB0)))) := rfl

/-- The first window is the chain of its five stretches. -/
theorem part0_eq (c : Dev nD) : main_part0 (F := F) c = (Pipeline.chainK
    [seq opsA0, seq opsA1, seq opsA2, seq opsA3] (seq opsA4) : Prog (TpuEff nD τ sig (Elt F) (Pipeline.Sig Λ₀ (Fin 0) fun p => (pcfgs (F := F) p).Adm) .tc) PUnit) := by
  chain_rfl

/-- The second window is its one stretch. -/
theorem part1_eq (c : Dev nD) : main_part1 (F := F) c = (seq opsB0 : Prog (TpuEff nD τ sig (Elt F) (Pipeline.Sig Λ₀ (Fin 0) fun p => (pcfgs (F := F) p).Adm) .tc) PUnit) := by
  chain_rfl

/-- So the program is the sequence of all its operations. -/
theorem main_eq (c : Dev nD) : main (F := F) c = seq ops := by
  show (main_part0 (F := F) c >>= fun _ => main_part1 (F := F) c) = _
  rw [part0_eq, part1_eq, ops_eq]
  simp only [seq_append, Pipeline.chainK, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., binary_bufs_sub .., unary_bufs_sub .., unary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., unary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., binary_bufs_sub .., binary_bufs_sub .., unary_bufs_sub .., binary_bufs_sub .., nullary_bufs_sub .., unary_bufs_sub .., nullary_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., binary_bufs_sub .., reshape_bufs_sub .., unary_bufs_sub .., reshape_bufs_sub .., binary_bufs_sub .., binary_bufs_sub .., unary_bufs_sub .., unary_bufs_sub .., unary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., binary_bufs_sub .., unary_bufs_sub .., unary_bufs_sub .., binary_bufs_sub ..⟩

theorem ops_fresh : (ops : List (HloOp τ sig (Elt F))).Forall fun op => op.fresh = ∅ := by
  simp only [List.Forall]; repeat' constructor

/-- Every weakly fair execution of the reference terminates, and every buffer ends at the fold of the operations over
    the launch memory. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Straight

end
-- ==== Proof.Stages.lean ====
/-
  The host stages the kernel's program and the reference share, as functions of the arguments.

  Both programs prepare the same three things on the host before anything else: the embeddings with their mean over
  the fifteen objects appended as a sixteenth row; the sixteen boxes per batch (each object's box with its corners
  moved out to multiples of two, then the whole image [0, 0, 32, 32] as the sixteenth); and the boxes rasterised over
  the 32 × 32 pixels into a mask of single bits, flattened to 1024 pixels. They are named here once so that both
  programs' values are stated over the same functions. What the equivalence needs of the mask is only that its
  sixteenth row is all ones (the whole image covers every pixel), proved here by reading the stages at that row.
  The last definition is the reference's result as a function of the five arguments.
-/
import proofs.«142150_j33165737460139_2_alg».proof.Proof.Gen.ReferenceIdeal
import Idealize.ShloMosaic.Lib.ValueIdx
import Idealize.ShloMosaic.Lib.Pipeline.Value
import Idealize.ShloMosaic.Lib.IdealHost

noncomputable section

namespace Cert.Inject

open Cert.ReferenceIdeal Cert.ReferenceIdeal.Gen Idealize.ShloMosaic Idealize.ShloMosaic.ValueIdx

variable {F : FTy → Type} [FloatOps F]

/-! ## The stages -/

/-- The embeddings with their mean over the fifteen objects (the row sum divided by 15) appended as row 15. -/
def embsExt (e : FVec F S8x15x256 .f32) : FVec F S8x16x256 .f32 :=
  concatenate S8x16x256 1 [⟨S8x15x256, e⟩, ⟨S8x1x256, Host.divf
      (broadcastInDim S8x1x256 ![0, 2] bcast_S8x256_S8x1x256_0_2
        (Host.reduceAdd e (constant S_ .f32 0x00000000#32) reducesTo_S8x15x256_S8x256_d1 h_S_))
      (broadcastInDim S8x1x256 ![] bcast_S_S8x1x256 (constant S_ .f32 0x41700000#32))⟩]
    concatenates_S8x15x256_S8x1x256_S8x16x256_d1

/-- jnp's remainder of every entry by a scalar divisor `two` (the sign of the result follows the divisor): the
    divisor is guarded against zero first, as jnp writes it; then the machine remainder, corrected by the divisor
    where the two signs differ and the remainder is not zero. -/
def remTwo' (x : IVec S8x15x2 32) (two : IVec S_ 32) : IVec S8x15x2 32 :=
  select
    (andi
      (cmpi .ne (cmpi .slt (Host.remsi x (broadcastInDim S8x15x2 ![] bcast_S_S8x15x2 (select (cmpi .eq (id two) (constantI S_ 32 0#32)) (constantI S_ 32 1#32) (id two)))) (broadcastInDim S8x15x2 ![] bcast_S_S8x15x2 (constantI S_ 32 0#32)))
        (broadcastInDim S8x15x2 ![] bcast_S_S8x15x2 (cmpi .slt (select (cmpi .eq (id two) (constantI S_ 32 0#32)) (constantI S_ 32 1#32) (id two)) (constantI S_ 32 0#32))))
      (cmpi .ne (Host.remsi x (broadcastInDim S8x15x2 ![] bcast_S_S8x15x2 (select (cmpi .eq (id two) (constantI S_ 32 0#32)) (constantI S_ 32 1#32) (id two)))) (broadcastInDim S8x15x2 ![] bcast_S_S8x15x2 (constantI S_ 32 0#32))))
    (addi (Host.remsi x (broadcastInDim S8x15x2 ![] bcast_S_S8x15x2 (select (cmpi .eq (id two) (constantI S_ 32 0#32)) (constantI S_ 32 1#32) (id two)))) (broadcastInDim S8x15x2 ![] bcast_S_S8x15x2 (select (cmpi .eq (id two) (constantI S_ 32 0#32)) (constantI S_ 32 1#32) (id two))))
    (Host.remsi x (broadcastInDim S8x15x2 ![] bcast_S_S8x15x2 (select (cmpi .eq (id two) (constantI S_ 32 0#32)) (constantI S_ 32 1#32) (id two))))

/-- The remainder by two. -/
def remTwo (x : IVec S8x15x2 32) : IVec S8x15x2 32 := remTwo' x (constantI S_ 32 2#32)

/-- The sixteen boxes assembled: the moved starts `lo`, the ends `hi` moved up by two less their remainder `r`, side
    by side as the fifteen objects' boxes, then the image's box `img` as the sixteenth. -/
def boxJoin (lo hi r : IVec S8x15x2 32) (img : IVec S4 32) : IVec S8x16x4 32 :=
  concatenate S8x16x4 1 [⟨S8x15x4,
      concatenate S8x15x4 2 [⟨S8x15x2, lo⟩,
        ⟨S8x15x2, addi hi (subi (broadcastInDim S8x15x2 ![] bcast_S_S8x15x2 (constantI S_ 32 2#32)) r)⟩]
        concatenates_S8x15x2_S8x15x2_S8x15x4_d2⟩,
    ⟨S8x1x4, broadcastInDim S8x1x4 ![2] bcast_S4_S8x1x4_2 img⟩]
    concatenates_S8x15x4_S8x1x4_S8x16x4_d1

/-- The sixteen boxes per batch: the fifteen objects' boxes with the starts moved down and the ends moved up to
    multiples of two, then the whole image [0, 0, 32, 32]. -/
def boxes (l : IVec S8x15x4 32) : IVec S8x16x4 32 :=
  boxJoin
    (subi (extractStridedSlice S8x15x2 ![0, 0, 0] l slices_S8x15x4_S8x15x2_0_0_0)
      (remTwo (extractStridedSlice S8x15x2 ![0, 0, 0] l slices_S8x15x4_S8x15x2_0_0_0)))
    (extractStridedSlice S8x15x2 ![0, 0, 2] l slices_S8x15x4_S8x15x2_0_0_2)
    (remTwo (extractStridedSlice S8x15x2 ![0, 0, 2] l slices_S8x15x4_S8x15x2_0_0_2))
    (fun i => lit0 (S4.rowMajor i))

/-- The pixel row number, over [batch, box, row, 1]. -/
def rowIdx : IVec S8x16x32x1 32 :=
  broadcastInDim S8x16x32x1 ![0, 1, 2, 3] bcast_S1x1x32x1_S8x16x32x1_0_1_2_3
    (broadcastInDim S1x1x32x1 ![2, 3] bcast_S32x1_S1x1x32x1_2_3
      (broadcastInDim S32x1 ![0] bcast_S32_S32x1_0 (iotaInDim S32 32 0)))

/-- The pixel column number, over [batch, box, 1, column]. -/
def colIdx : IVec S8x16x1x32 32 :=
  broadcastInDim S8x16x1x32 ![0, 1, 2, 3] bcast_S1x1x1x32_S8x16x1x32_0_1_2_3
    (broadcastInDim S1x1x1x32 ![2, 3] bcast_S1x32_S1x1x1x32_2_3
      (broadcastInDim S1x32 ![1] bcast_S32_S1x32_1 (iotaInDim S32 32 0)))

/-- Corner `k` of every box, over [batch, box, 1, 1]. -/
def corner (B : IVec S8x16x4 32) (k : Nat) (hk : S8x16x4.Slices ![0, 0, k] S8x16x1) : IVec S8x16x1x1 32 :=
  broadcastInDim S8x16x1x1 ![0, 1] bcast_S8x16_S8x16x1x1_0_1
    (shapeCast S8x16 (extractStridedSlice S8x16x1 ![0, 0, k] B hk) shapeCasts_S8x16x1_S8x16)

/-- The pixel's row is inside the box: row ≥ y0 and row < y1. -/
def rowsIn (B : IVec S8x16x4 32) : IVec S8x16x32x1 1 :=
  andi
    (cmpi .sge rowIdx (broadcastInDim S8x16x32x1 ![0, 1, 2, 3] bcast_S8x16x1x1_S8x16x32x1_0_1_2_3 (corner B 0 slices_S8x16x4_S8x16x1_0_0_0)))
    (cmpi .slt rowIdx (broadcastInDim S8x16x32x1 ![0, 1, 2, 3] bcast_S8x16x1x1_S8x16x32x1_0_1_2_3 (corner B 2 slices_S8x16x4_S8x16x1_0_0_2)))

/-- The pixel's column is at or after the box's start: column ≥ x0. -/
def colsGe (B : IVec S8x16x4 32) : IVec S8x16x1x32 1 :=
  cmpi .sge colIdx (broadcastInDim S8x16x1x32 ![0, 1, 2, 3] bcast_S8x16x1x1_S8x16x1x32_0_1_2_3 (corner B 1 slices_S8x16x4_S8x16x1_0_0_1))

/-- The pixel's column is before the box's end: column < x1. -/
def colsLt (B : IVec S8x16x4 32) : IVec S8x16x1x32 1 :=
  cmpi .slt colIdx (broadcastInDim S8x16x1x32 ![0, 1, 2, 3] bcast_S8x16x1x1_S8x16x1x32_0_1_2_3 (corner B 3 slices_S8x16x4_S8x16x1_0_0_3))

/-- The boxes rasterised: bit (b, n, 32·r + c) says pixel (r, c) lies in box n of batch b. -/
def rasterise (B : IVec S8x16x4 32) : IVec S8x16x1024 1 :=
  shapeCast S8x16x1024
    (andi
      (andi (broadcastInDim S8x16x32x32 ![0, 1, 2, 3] bcast_S8x16x32x1_S8x16x32x32_0_1_2_3 (rowsIn B))
        (broadcastInDim S8x16x32x32 ![0, 1, 2, 3] bcast_S8x16x1x32_S8x16x32x32_0_1_2_3 (colsGe B)))
      (broadcastInDim S8x16x32x32 ![0, 1, 2, 3] bcast_S8x16x1x32_S8x16x32x32_0_1_2_3 (colsLt B)))
    shapeCasts_S8x16x32x32_S8x16x1024

/-- The mask bits of the sixteen boxes, from the objects' locations. -/
def maskBits (l : IVec S8x15x4 32) : IVec S8x16x1024 1 := rasterise (boxes l)

/-- The reference's masked mean over prepared arrays: with `mf` the rasterised boxes as floats, `proj` the patches
    projected by `Wp` and `inj` the extended embeddings projected by `We`, the sum over the sixteen rows n of
    (proj + mf_n · inj_n) · mf_n, divided by the sum of the mf_n. -/
def refTail (p : FVec F S8x32x32x256 .f32) (E : FVec F S8x16x256 .f32) (B : IVec S8x16x4 32) (wp we : FVec F S256x256 .f32) :
    FVec F S8x1024x256 .f32 :=
  Host.divf
    (Host.reduceAdd
      (mulf
        (addf
          (broadcastInDim S8x16x1024x256 ![0, 1, 2, 3] bcast_S8x1x1024x256_S8x16x1024x256_0_1_2_3
            (broadcastInDim S8x1x1024x256 ![0, 2, 3] bcast_S8x1024x256_S8x1x1024x256_0_2_3
              (Host.dotGeneral dot_S8x1024x256_S256x256_S8x1024x256_2_0_01_1_n_n none
                (shapeCast S8x1024x256 p shapeCasts_S8x32x32x256_S8x1024x256) wp)))
          (mulf
            (broadcastInDim S8x16x1024x256 ![0, 1, 2, 3] bcast_S8x16x1024x1_S8x16x1024x256_0_1_2_3
              (broadcastInDim S8x16x1024x1 ![0, 1, 2] bcast_S8x16x1024_S8x16x1024x1_0_1_2 (uitofp .f32 (rasterise B) : FVec F S8x16x1024 .f32)))
            (broadcastInDim S8x16x1024x256 ![0, 1, 2, 3] bcast_S8x16x1x256_S8x16x1024x256_0_1_2_3
              (broadcastInDim S8x16x1x256 ![0, 1, 3] bcast_S8x16x256_S8x16x1x256_0_1_3
                (Host.dotGeneral dot_S8x16x256_S256x256_S8x16x256_2_0_01_1_n_n none E we)))))
        (broadcastInDim S8x16x1024x256 ![0, 1, 2, 3] bcast_S8x16x1024x1_S8x16x1024x256_0_1_2_3
          (broadcastInDim S8x16x1024x1 ![0, 1, 2] bcast_S8x16x1024_S8x16x1024x1_0_1_2 (uitofp .f32 (rasterise B) : FVec F S8x16x1024 .f32))))
      (constant S_ .f32 0x00000000#32) reducesTo_S8x16x1024x256_S8x1024x256_d1 h_S_)
    (broadcastInDim S8x1024x256 ![0, 1, 2] bcast_S8x1024x1_S8x1024x256_0_1_2
      (broadcastInDim S8x1024x1 ![0, 1] bcast_S8x1024_S8x1024x1_0_1
        (Host.reduceAdd (uitofp .f32 (rasterise B) : FVec F S8x16x1024 .f32) (constant S_ .f32 0x00000000#32) reducesTo_S8x16x1024_S8x1024_d1 h_S_)))

/-- The reference's result as a function of the five arguments: the masked mean over the extended embeddings and the
    boxes of the locations. -/
def refOut (p : FVec F S8x32x32x256 .f32) (e : FVec F S8x15x256 .f32) (l : IVec S8x15x4 32) (wp we : FVec F S256x256 .f32) :
    FVec F S8x1024x256 .f32 :=
  refTail p (embsExt e) (boxes l) wp we

/-! ## The sixteenth row of the mask -/

/-- The row number at pixel row `r`. -/
theorem rowIdx_apply (b : Fin 8) (n : Fin 16) (r : Fin 32) (z : Fin 1) : rowIdx (ix4 b n r z) = BitVec.ofNat 32 r.val := by
  unfold rowIdx
  refine (broadcastInDim_apply _ _ _ (ix4 b n r z) (ix4 (0 : Fin 1) (0 : Fin 1) r (0 : Fin 1)) fun a => ?_).trans ?_
  · match a with
    | ⟨0, _⟩ => rfl
    | ⟨1, _⟩ => rfl
    | ⟨2, _⟩ => rfl
    | ⟨3, _⟩ => rfl
  refine (broadcastInDim_apply _ _ _ _ (ix2 r (0 : Fin 1)) fun a => ?_).trans ?_
  · match a with
    | ⟨0, _⟩ => rfl
    | ⟨1, _⟩ => rfl
  refine (broadcastInDim_apply _ _ _ _ (ix1 r) fun a => ?_).trans ?_
  · match a with
    | ⟨0, _⟩ => rfl
  rfl

/-- The column number at pixel column `c`. -/
theorem colIdx_apply (b : Fin 8) (n : Fin 16) (z : Fin 1) (c : Fin 32) : colIdx (ix4 b n z c) = BitVec.ofNat 32 c.val := by
  unfold colIdx
  refine (broadcastInDim_apply _ _ _ (ix4 b n z c) (ix4 (0 : Fin 1) (0 : Fin 1) (0 : Fin 1) c) fun a => ?_).trans ?_
  · match a with
    | ⟨0, _⟩ => rfl
    | ⟨1, _⟩ => rfl
    | ⟨2, _⟩ => rfl
    | ⟨3, _⟩ => rfl
  refine (broadcastInDim_apply _ _ _ _ (ix2 (0 : Fin 1) c) fun a => ?_).trans ?_
  · match a with
    | ⟨0, _⟩ => rfl
    | ⟨1, _⟩ => rfl
  refine (broadcastInDim_apply _ _ _ _ (ix1 c) fun a => ?_).trans ?_
  · match a with
    | ⟨0, _⟩ => rfl
  rfl

/-- Corner `k` of box `n` of batch `b` is entry (b, n, k) of the boxes. -/
theorem corner_apply (B : IVec S8x16x4 32) (k : Nat) (hk : S8x16x4.Slices ![0, 0, k] S8x16x1) (q : Fin 4) (hq : q.val = k)
    (b : Fin 8) (n : Fin 16) (y z : Fin 1) : corner B k hk (ix4 b n y z) = B (ix3 b n q) := by
  unfold corner
  refine (broadcastInDim_apply _ _ _ _ (ix2 b n) fun a => ?_).trans ?_
  · match a with
    | ⟨0, _⟩ => rfl
    | ⟨1, _⟩ => rfl
  refine (shapeCast_apply _ _ (ix2 b n) (ix3 b n (0 : Fin 1)) ?_).trans ?_
  · rw [Shape.rowMajor_val_three, Shape.rowMajor_val_two]
    show (b.val * 16 + n.val) * 1 + 0 = b.val * 16 + n.val
    omega
  refine extractStridedSlice_apply _ _ _ (ix3 b n (0 : Fin 1)) (ix3 b n q) fun a => ?_
  match a with
  | ⟨0, _⟩ => show b.val = 0 + b.val; omega
  | ⟨1, _⟩ => show n.val = 0 + n.val; omega
  | ⟨2, _⟩ => show q.val = k + 0; omega

/-- The sixteenth box is the whole image. -/
theorem boxes_last (l : IVec S8x15x4 32) (b : Fin 8) (q : Fin 4) : boxes l (ix3 b (15 : Fin 16) q) = lit0 q := by
  unfold boxes boxJoin
  refine (concatenate_pair_apply_right (t := S8x16x4) (s₁ := S8x15x4) (s₂ := S8x1x4) (1 : Fin 3) _ _ _ (ix3 b (15 : Fin 16) q) rfl rfl (ix3 b (0 : Fin 1) q) (fun a ha => ?_) ?_).trans ?_
  · match a with
    | ⟨0, _⟩ => rfl
    | ⟨1, _⟩ => exact absurd rfl ha
    | ⟨2, _⟩ => rfl
  · rfl
  refine (broadcastInDim_apply _ _ _ _ (ix1 q) fun a => ?_).trans ?_
  · match a with
    | ⟨0, _⟩ => rfl
  exact congrArg lit0 (Fin.ext (Shape.rowMajor_val_one _))

section LastRow

variable (B : IVec S8x16x4 32) (hB : ∀ (b : Fin 8) (q : Fin 4), B (ix3 b (15 : Fin 16) q) = lit0 q)
include hB

theorem cornerRow_last (k : Nat) (hk : S8x16x4.Slices ![0, 0, k] S8x16x1) (q : Fin 4) (hq : q.val = k) (b : Fin 8) (r : Fin 32) (z : Fin 1) :
    broadcastInDim S8x16x32x1 ![0, 1, 2, 3] bcast_S8x16x1x1_S8x16x32x1_0_1_2_3 (corner B k hk) (ix4 b (15 : Fin 16) r z) = lit0 q := by
  refine (broadcastInDim_apply _ _ _ _ (ix4 b (15 : Fin 16) (0 : Fin 1) (0 : Fin 1)) fun a => ?_).trans ?_
  · match a with
    | ⟨0, _⟩ => rfl
    | ⟨1, _⟩ => rfl
    | ⟨2, _⟩ => rfl
    | ⟨3, _⟩ => rfl
  rw [corner_apply B k hk q hq, hB]

theorem cornerCol_last (k : Nat) (hk : S8x16x4.Slices ![0, 0, k] S8x16x1) (q : Fin 4) (hq : q.val = k) (b : Fin 8) (z : Fin 1) (c : Fin 32) :
    broadcastInDim S8x16x1x32 ![0, 1, 2, 3] bcast_S8x16x1x1_S8x16x1x32_0_1_2_3 (corner B k hk) (ix4 b (15 : Fin 16) z c) = lit0 q := by
  refine (broadcastInDim_apply _ _ _ _ (ix4 b (15 : Fin 16) (0 : Fin 1) (0 : Fin 1)) fun a => ?_).trans ?_
  · match a with
    | ⟨0, _⟩ => rfl
    | ⟨1, _⟩ => rfl
    | ⟨2, _⟩ => rfl
    | ⟨3, _⟩ => rfl
  rw [corner_apply B k hk q hq, hB]

/-- Every pixel row is inside the whole image: 0 ≤ r and r < 32. -/
theorem rowsIn_last (b : Fin 8) (r : Fin 32) (z : Fin 1) : rowsIn B (ix4 b (15 : Fin 16) r z) = 1#1 := by
  unfold rowsIn
  dsimp only [andi, cmpi]
  rw [cornerRow_last B hB 0 _ (0 : Fin 4) rfl, cornerRow_last B hB 2 _ (2 : Fin 4) rfl, rowIdx_apply]
  revert r; decide

theorem colsGe_last (b : Fin 8) (z : Fin 1) (c : Fin 32) : colsGe B (ix4 b (15 : Fin 16) z c) = 1#1 := by
  unfold colsGe
  dsimp only [cmpi]
  rw [cornerCol_last B hB 1 _ (1 : Fin 4) rfl, colIdx_apply]
  revert c; decide

theorem colsLt_last (b : Fin 8) (z : Fin 1) (c : Fin 32) : colsLt B (ix4 b (15 : Fin 16) z c) = 1#1 := by
  unfold colsLt
  dsimp only [cmpi]
  rw [cornerCol_last B hB 3 _ (3 : Fin 4) rfl, colIdx_apply]
  revert c; decide

/-- So the sixteenth row of the rasterised boxes is all ones. -/
theorem rasterise_last (b : Fin 8) (hw : Fin 1024) : rasterise B (ix3 b (15 : Fin 16) hw) = 1#1 := by
  have hlt : hw.val < 1024 := hw.isLt
  have hr : hw.val / 32 < 32 := by omega
  have hc : hw.val % 32 < 32 := Nat.mod_lt _ (by norm_num)
  unfold rasterise
  refine (shapeCast_apply _ _ (ix3 b (15 : Fin 16) hw) (ix4 b (15 : Fin 16) (⟨hw.val / 32, hr⟩ : Fin 32) (⟨hw.val % 32, hc⟩ : Fin 32)) ?_).trans ?_
  · rw [Shape.rowMajor_val_four, Shape.rowMajor_val_three]
    show ((b.val * 16 + 15) * 32 + hw.val / 32) * 32 + hw.val % 32 = (b.val * 16 + 15) * 1024 + hw.val
    omega
  have h1 : broadcastInDim S8x16x32x32 ![0, 1, 2, 3] bcast_S8x16x32x1_S8x16x32x32_0_1_2_3 (rowsIn B)
      (ix4 b (15 : Fin 16) (⟨hw.val / 32, hr⟩ : Fin 32) (⟨hw.val % 32, hc⟩ : Fin 32)) = 1#1 := by
    refine (broadcastInDim_apply _ _ _ _ (ix4 b (15 : Fin 16) (⟨hw.val / 32, hr⟩ : Fin 32) (0 : Fin 1)) fun a => ?_).trans (rowsIn_last B hB b _ _)
    match a with
    | ⟨0, _⟩ => rfl
    | ⟨1, _⟩ => rfl
    | ⟨2, _⟩ => rfl
    | ⟨3, _⟩ => rfl
  have h2 : broadcastInDim S8x16x32x32 ![0, 1, 2, 3] bcast_S8x16x1x32_S8x16x32x32_0_1_2_3 (colsGe B)
      (ix4 b (15 : Fin 16) (⟨hw.val / 32, hr⟩ : Fin 32) (⟨hw.val % 32, hc⟩ : Fin 32)) = 1#1 := by
    refine (broadcastInDim_apply _ _ _ _ (ix4 b (15 : Fin 16) (0 : Fin 1) (⟨hw.val % 32, hc⟩ : Fin 32)) fun a => ?_).trans (colsGe_last B hB b _ _)
    match a with
    | ⟨0, _⟩ => rfl
    | ⟨1, _⟩ => rfl
    | ⟨2, _⟩ => rfl
    | ⟨3, _⟩ => rfl
  have h3 : broadcastInDim S8x16x32x32 ![0, 1, 2, 3] bcast_S8x16x1x32_S8x16x32x32_0_1_2_3 (colsLt B)
      (ix4 b (15 : Fin 16) (⟨hw.val / 32, hr⟩ : Fin 32) (⟨hw.val % 32, hc⟩ : Fin 32)) = 1#1 := by
    refine (broadcastInDim_apply _ _ _ _ (ix4 b (15 : Fin 16) (0 : Fin 1) (⟨hw.val % 32, hc⟩ : Fin 32)) fun a => ?_).trans (colsLt_last B hB b _ _)
    match a with
    | ⟨0, _⟩ => rfl
    | ⟨1, _⟩ => rfl
    | ⟨2, _⟩ => rfl
    | ⟨3, _⟩ => rfl
  dsimp only [andi]
  rw [h1, h2, h3]
  rfl

end LastRow

/-- The sixteenth row of the mask is all ones, whatever the locations. -/
theorem maskBits_last (l : IVec S8x15x4 32) (b : Fin 8) (hw : Fin 1024) : maskBits l (ix3 b (15 : Fin 16) hw) = 1#1 :=
  rasterise_last (boxes l) (boxes_last l) b hw

end Cert.Inject

end
-- ==== Proof.RefValue.lean ====
/-
  The reference's result as a function of its arguments.

  The reference's operations are read in two stretches: up to the sixteen boxes — whose contents are
  `Cert.Inject.boxes` of the locations, beside the embeddings with their mean row — and from there to the result, the
  masked mean `Cert.Inject.refTail` over those arrays. Put together, the result buffer after the run holds
  `Cert.Inject.refOut` of the five arguments, and no operation writes an argument's buffer.
-/
import proofs.«142150_j33165737460139_2_alg».proof.Proof.RefRun
import proofs.«142150_j33165737460139_2_alg».proof.Proof.Stages
import Idealize.ShloMosaic.Lib.Pipeline.Frame

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The operations up to the sixteen boxes. -/
abbrev pre : List (HloOp τ sig (Elt F)) :=
  [ StableHlo.nullary main_c (fun i => lit0 (S4.rowMajor i)),
    StableHlo.nullary main_cst (constant S_ .f32 0x00000000#32),
    StableHlo.binary main_arg1 main_cst main_v0 ((fun x v => Host.reduceAdd x v reducesTo_S8x15x256_S8x256_d1 h_S_) : (⟨S8x15x256, .f32⟩ : BufTy).Contents (Elt F) → (⟨S_, .f32⟩ : BufTy).Contents (Elt F) → (⟨S8x256, .f32⟩ : BufTy).Contents (Elt F)),
    StableHlo.unary main_v0 main_v1 (broadcastInDim S8x1x256 ![0, 2] bcast_S8x256_S8x1x256_0_2 : (⟨S8x256, .f32⟩ : BufTy).Contents (Elt F) → (⟨S8x1x256, .f32⟩ : BufTy).Contents (Elt F)),
    StableHlo.nullary main_cst_0 (constant S_ .f32 0x41700000#32),
    StableHlo.unary main_cst_0 main_v2 (broadcastInDim S8x1x256 ![] bcast_S_S8x1x256 : (⟨S_, .f32⟩ : BufTy).Contents (Elt F) → (⟨S8x1x256, .f32⟩ : BufTy).Contents (Elt F)),
    StableHlo.binary main_v1 main_v2 main_v3 (Host.divf : (⟨S8x1x256, .f32⟩ : BufTy).Contents (Elt F) → (⟨S8x1x256, .f32⟩ : BufTy).Contents (Elt F) → (⟨S8x1x256, .f32⟩ : BufTy).Contents (Elt F)),
    StableHlo.binary main_arg1 main_v3 main_v4 ((fun a b => concatenate S8x16x256 1 [⟨S8x15x256, a⟩, ⟨S8x1x256, b⟩] concatenates_S8x15x256_S8x1x256_S8x16x256_d1) : (⟨S8x15x256, .f32⟩ : BufTy).Contents (Elt F) → (⟨S8x1x256, .f32⟩ : BufTy).Contents (Elt F) → (⟨S8x16x256, .f32⟩ : BufTy).Contents (Elt F)),
    StableHlo.unary main_arg2 main_v5 ((extractStridedSlice S8x15x2 ![0, 0, 0] · slices_S8x15x4_S8x15x2_0_0_0) : (⟨S8x15x4, .i32⟩ : BufTy).Contents (Elt F) → (⟨S8x15x2, .i32⟩ : BufTy).Contents (Elt F)),
    StableHlo.unary main_arg2 main_v6 ((extractStridedSlice S8x15x2 ![0, 0, 0] · slices_S8x15x4_S8x15x2_0_0_0) : (⟨S8x15x4, .i32⟩ : BufTy).Contents (Elt F) → (⟨S8x15x2, .i32⟩ : BufTy).Contents (Elt F)),
    StableHlo.nullary main_c_1 (constantI S_ 32 2#32),
    StableHlo.TRef.unary (.of main_c_1 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) main_call0_call0.v0 select,
    StableHlo.TRef.unary main_call0_call0.v0 (.of main_call0_v3 : StableHlo.TRef sig ⟨S8x15x2, .i32⟩) (broadcastInDim S8x15x2 ![] bcast_S_S8x15x2),
    StableHlo.TRef.binary (.of main_v6 : StableHlo.TRef sig ⟨S8x15x2, .i32⟩) (.of main_call0_v3 : StableHlo.TRef sig ⟨S8x15x2, .i32⟩) (.of main_call0_v4 : StableHlo.TRef sig ⟨S8x15x2, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v5 : StableHlo.TRef sig ⟨S8x15x2, .i32⟩) (.of main_call0_v6 : StableHlo.TRef sig ⟨S8x15x2, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v7 : StableHlo.TRef sig ⟨S8x15x2, .i32⟩) (.of main_call0_v8 : StableHlo.TRef sig ⟨S8x15x2, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8x15x2, .i1⟩) (broadcastInDim S8x15x2 ![] bcast_S_S8x15x2),
    StableHlo.TRef.binary (.of main_call0_v8 : StableHlo.TRef sig ⟨S8x15x2, .i1⟩) (.of main_call0_v10 : StableHlo.TRef sig ⟨S8x15x2, .i1⟩) (.of main_call0_v11 : StableHlo.TRef sig ⟨S8x15x2, .i1⟩) (cmpi .ne),
    StableHlo.TRef.binary (.of main_call0_v11 : StableHlo.TRef sig ⟨S8x15x2, .i1⟩) (.of main_call0_v6 : StableHlo.TRef sig ⟨S8x15x2, .i1⟩) (.of main_call0_v12 : StableHlo.TRef sig ⟨S8x15x2, .i1⟩) andi,
    StableHlo.TRef.unary main_call0_call0.v0 (.of main_call0_v13 : StableHlo.TRef sig ⟨S8x15x2, .i32⟩) (broadcastInDim S8x15x2 ![] bcast_S_S8x15x2),
    StableHlo.TRef.binary (.of main_call0_v4 : StableHlo.TRef sig ⟨S8x15x2, .i32⟩) (.of main_call0_v13 : StableHlo.TRef sig ⟨S8x15x2, .i32⟩) (.of main_call0_v14 : StableHlo.TRef sig ⟨S8x15x2, .i32⟩) addi,
    StableHlo.TRef.ternary (.of main_call0_v12 : StableHlo.TRef sig ⟨S8x15x2, .i1⟩) (.of main_call0_v14 : StableHlo.TRef sig ⟨S8x15x2, .i32⟩) (.of main_call0_v4 : StableHlo.TRef sig ⟨S8x15x2, .i32⟩) (.of main_v7 : StableHlo.TRef sig ⟨S8x15x2, .i32⟩) select,
    StableHlo.binary main_v5 main_v7 main_v8 (subi : (⟨S8x15x2, .i32⟩ : BufTy).Contents (Elt F) → (⟨S8x15x2, .i32⟩ : BufTy).Contents (Elt F) → (⟨S8x15x2, .i32⟩ : BufTy).Contents (Elt F)),
    StableHlo.unary main_arg2 main_v9 ((extractStridedSlice S8x15x2 ![0, 0, 2] · slices_S8x15x4_S8x15x2_0_0_2) : (⟨S8x15x4, .i32⟩ : BufTy).Contents (Elt F) → (⟨S8x15x2, .i32⟩ : BufTy).Contents (Elt F)),
    StableHlo.unary main_arg2 main_v10 ((extractStridedSlice S8x15x2 ![0, 0, 2] · slices_S8x15x4_S8x15x2_0_0_2) : (⟨S8x15x4, .i32⟩ : BufTy).Contents (Elt F) → (⟨S8x15x2, .i32⟩ : BufTy).Contents (Elt F)),
    StableHlo.nullary main_c_2 (constantI S_ 32 2#32),
    StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) main_call1_call0.v0 select,
    StableHlo.TRef.unary main_call1_call0.v0 (.of main_call1_v3 : StableHlo.TRef sig ⟨S8x15x2, .i32⟩) (broadcastInDim S8x15x2 ![] bcast_S_S8x15x2),
    StableHlo.TRef.binary (.of main_v10 : StableHlo.TRef sig ⟨S8x15x2, .i32⟩) (.of main_call1_v3 : StableHlo.TRef sig ⟨S8x15x2, .i32⟩) (.of main_call1_v4 : StableHlo.TRef sig ⟨S8x15x2, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v5 : StableHlo.TRef sig ⟨S8x15x2, .i32⟩) (.of main_call1_v6 : StableHlo.TRef sig ⟨S8x15x2, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v7 : StableHlo.TRef sig ⟨S8x15x2, .i32⟩) (.of main_call1_v8 : StableHlo.TRef sig ⟨S8x15x2, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8x15x2, .i1⟩) (broadcastInDim S8x15x2 ![] bcast_S_S8x15x2),
    StableHlo.TRef.binary (.of main_call1_v8 : StableHlo.TRef sig ⟨S8x15x2, .i1⟩) (.of main_call1_v10 : StableHlo.TRef sig ⟨S8x15x2, .i1⟩) (.of main_call1_v11 : StableHlo.TRef sig ⟨S8x15x2, .i1⟩) (cmpi .ne),
    StableHlo.TRef.binary (.of main_call1_v11 : StableHlo.TRef sig ⟨S8x15x2, .i1⟩) (.of main_call1_v6 : StableHlo.TRef sig ⟨S8x15x2, .i1⟩) (.of main_call1_v12 : StableHlo.TRef sig ⟨S8x15x2, .i1⟩) andi,
    StableHlo.TRef.unary main_call1_call0.v0 (.of main_call1_v13 : StableHlo.TRef sig ⟨S8x15x2, .i32⟩) (broadcastInDim S8x15x2 ![] bcast_S_S8x15x2),
    StableHlo.TRef.binary (.of main_call1_v4 : StableHlo.TRef sig ⟨S8x15x2, .i32⟩) (.of main_call1_v13 : StableHlo.TRef sig ⟨S8x15x2, .i32⟩) (.of main_call1_v14 : StableHlo.TRef sig ⟨S8x15x2, .i32⟩) addi,
    StableHlo.TRef.ternary (.of main_call1_v12 : StableHlo.TRef sig ⟨S8x15x2, .i1⟩) (.of main_call1_v14 : StableHlo.TRef sig ⟨S8x15x2, .i32⟩) (.of main_call1_v4 : StableHlo.TRef sig ⟨S8x15x2, .i32⟩) (.of main_v11 : StableHlo.TRef sig ⟨S8x15x2, .i32⟩) select,
    StableHlo.nullary main_c_3 (constantI S_ 32 2#32),
    StableHlo.unary main_c_3 main_v12 (broadcastInDim S8x15x2 ![] bcast_S_S8x15x2 : (⟨S_, .i32⟩ : BufTy).Contents (Elt F) → (⟨S8x15x2, .i32⟩ : BufTy).Contents (Elt F)),
    StableHlo.binary main_v12 main_v11 main_v13 (subi : (⟨S8x15x2, .i32⟩ : BufTy).Contents (Elt F) → (⟨S8x15x2, .i32⟩ : BufTy).Contents (Elt F) → (⟨S8x15x2, .i32⟩ : BufTy).Contents (Elt F)),
    StableHlo.binary main_v9 main_v13 main_v14 (addi : (⟨S8x15x2, .i32⟩ : BufTy).Contents (Elt F) → (⟨S8x15x2, .i32⟩ : BufTy).Contents (Elt F) → (⟨S8x15x2, .i32⟩ : BufTy).Contents (Elt F)),
    StableHlo.binary main_v8 main_v14 main_v15 ((fun a b => concatenate S8x15x4 2 [⟨S8x15x2, a⟩, ⟨S8x15x2, b⟩] concatenates_S8x15x2_S8x15x2_S8x15x4_d2) : (⟨S8x15x2, .i32⟩ : BufTy).Contents (Elt F) → (⟨S8x15x2, .i32⟩ : BufTy).Contents (Elt F) → (⟨S8x15x4, .i32⟩ : BufTy).Contents (Elt F)),
    StableHlo.unary main_c main_v16 (broadcastInDim S8x1x4 ![2] bcast_S4_S8x1x4_2 : (⟨S4, .i32⟩ : BufTy).Contents (Elt F) → (⟨S8x1x4, .i32⟩ : BufTy).Contents (Elt F)),
    StableHlo.binary main_v15 main_v16 main_v17 ((fun a b => concatenate S8x16x4 1 [⟨S8x15x4, a⟩, ⟨S8x1x4, b⟩] concatenates_S8x15x4_S8x1x4_S8x16x4_d1) : (⟨S8x15x4, .i32⟩ : BufTy).Contents (Elt F) → (⟨S8x1x4, .i32⟩ : BufTy).Contents (Elt F) → (⟨S8x16x4, .i32⟩ : BufTy).Contents (Elt F)) ]

/-- The operations from the boxes to the result. -/
abbrev post : List (HloOp τ sig (Elt F)) :=
  [ StableHlo.nullary main_v18 (iotaInDim S32 32 0),
    StableHlo.unary main_v18 main_v19 (broadcastInDim S32x1 ![0] bcast_S32_S32x1_0 : (⟨S32, .i32⟩ : BufTy).Contents (Elt F) → (⟨S32x1, .i32⟩ : BufTy).Contents (Elt F)),
    StableHlo.nullary main_v20 (iotaInDim S32 32 0),
    StableHlo.unary main_v20 main_v21 (broadcastInDim S1x32 ![1] bcast_S32_S1x32_1 : (⟨S32, .i32⟩ : BufTy).Contents (Elt F) → (⟨S1x32, .i32⟩ : BufTy).Contents (Elt F)),
    StableHlo.unary main_v17 main_v22 ((extractStridedSlice S8x16x1 ![0, 0, 0] · slices_S8x16x4_S8x16x1_0_0_0) : (⟨S8x16x4, .i32⟩ : BufTy).Contents (Elt F) → (⟨S8x16x1, .i32⟩ : BufTy).Contents (Elt F)),
    StableHlo.reshape main_v22 main_v23 rfl shapeCasts_S8x16x1_S8x16,
    StableHlo.unary main_v23 main_v24 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v25 ((extractStridedSlice S8x16x1 ![0, 0, 1] · slices_S8x16x4_S8x16x1_0_0_1) : (⟨S8x16x4, .i32⟩ : BufTy).Contents (Elt F) → (⟨S8x16x1, .i32⟩ : BufTy).Contents (Elt F)),
    StableHlo.reshape main_v25 main_v26 rfl shapeCasts_S8x16x1_S8x16,
    StableHlo.unary main_v26 main_v27 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v28 ((extractStridedSlice S8x16x1 ![0, 0, 2] · slices_S8x16x4_S8x16x1_0_0_2) : (⟨S8x16x4, .i32⟩ : BufTy).Contents (Elt F) → (⟨S8x16x1, .i32⟩ : BufTy).Contents (Elt F)),
    StableHlo.reshape main_v28 main_v29 rfl shapeCasts_S8x16x1_S8x16,
    StableHlo.unary main_v29 main_v30 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v31 ((extractStridedSlice S8x16x1 ![0, 0, 3] · slices_S8x16x4_S8x16x1_0_0_3) : (⟨S8x16x4, .i32⟩ : BufTy).Contents (Elt F) → (⟨S8x16x1, .i32⟩ : BufTy).Contents (Elt F)),
    StableHlo.reshape main_v31 main_v32 rfl shapeCasts_S8x16x1_S8x16,
    StableHlo.unary main_v32 main_v33 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v19 main_v34 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v34 main_v35 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v24 main_v36 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v35 main_v36 main_v37 (cmpi .sge : (⟨S8x16x32x1, .i32⟩ : BufTy).Contents (Elt F) → (⟨S8x16x32x1, .i32⟩ : BufTy).Contents (Elt F) → (⟨S8x16x32x1, .i1⟩ : BufTy).Contents (Elt F)),
    StableHlo.unary main_v19 main_v38 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v38 main_v39 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v30 main_v40 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v39 main_v40 main_v41 (cmpi .slt : (⟨S8x16x32x1, .i32⟩ : BufTy).Contents (Elt F) → (⟨S8x16x32x1, .i32⟩ : BufTy).Contents (Elt F) → (⟨S8x16x32x1, .i1⟩ : BufTy).Contents (Elt F)),
    StableHlo.binary main_v37 main_v41 main_v42 (andi : (⟨S8x16x32x1, .i1⟩ : BufTy).Contents (Elt F) → (⟨S8x16x32x1, .i1⟩ : BufTy).Contents (Elt F) → (⟨S8x16x32x1, .i1⟩ : BufTy).Contents (Elt F)),
    StableHlo.unary main_v21 main_v43 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v43 main_v44 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v27 main_v45 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v44 main_v45 main_v46 (cmpi .sge : (⟨S8x16x1x32, .i32⟩ : BufTy).Contents (Elt F) → (⟨S8x16x1x32, .i32⟩ : BufTy).Contents (Elt F) → (⟨S8x16x1x32, .i1⟩ : BufTy).Contents (Elt F)),
    StableHlo.unary main_v42 main_v47 (broadcastInDim S8x16x32x32 ![0, 1, 2, 3] bcast_S8x16x32x1_S8x16x32x32_0_1_2_3 : (⟨S8x16x32x1, .i1⟩ : BufTy).Contents (Elt F) → (⟨S8x16x32x32, .i1⟩ : BufTy).Contents (Elt F)),
    StableHlo.unary main_v46 main_v48 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v47 main_v48 main_v49 (andi : (⟨S8x16x32x32, .i1⟩ : BufTy).Contents (Elt F) → (⟨S8x16x32x32, .i1⟩ : BufTy).Contents (Elt F) → (⟨S8x16x32x32, .i1⟩ : BufTy).Contents (Elt F)),
    StableHlo.unary main_v21 main_v50 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v50 main_v51 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v33 main_v52 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v51 main_v52 main_v53 (cmpi .slt : (⟨S8x16x1x32, .i32⟩ : BufTy).Contents (Elt F) → (⟨S8x16x1x32, .i32⟩ : BufTy).Contents (Elt F) → (⟨S8x16x1x32, .i1⟩ : BufTy).Contents (Elt F)),
    StableHlo.unary main_v53 main_v54 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v49 main_v54 main_v55 (andi : (⟨S8x16x32x32, .i1⟩ : BufTy).Contents (Elt F) → (⟨S8x16x32x32, .i1⟩ : BufTy).Contents (Elt F) → (⟨S8x16x32x32, .i1⟩ : BufTy).Contents (Elt F)),
    StableHlo.reshape main_v55 main_v56 rfl shapeCasts_S8x16x32x32_S8x16x1024,
    StableHlo.unary main_v56 main_v57 (uitofp .f32 : (⟨S8x16x1024, .i1⟩ : BufTy).Contents (Elt F) → (⟨S8x16x1024, .f32⟩ : BufTy).Contents (Elt F)),
    StableHlo.reshape main_arg0 main_v58 rfl shapeCasts_S8x32x32x256_S8x1024x256,
    StableHlo.binary main_v58 main_arg3 main_v59 ((fun l r => Host.dotGeneral dot_S8x1024x256_S256x256_S8x1024x256_2_0_01_1_n_n none l r) : (⟨S8x1024x256, .f32⟩ : BufTy).Contents (Elt F) → (⟨S256x256, .f32⟩ : BufTy).Contents (Elt F) → (⟨S8x1024x256, .f32⟩ : BufTy).Contents (Elt F)),
    StableHlo.binary main_v4 main_arg4 main_v60 ((fun l r => Host.dotGeneral dot_S8x16x256_S256x256_S8x16x256_2_0_01_1_n_n none l r) : (⟨S8x16x256, .f32⟩ : BufTy).Contents (Elt F) → (⟨S256x256, .f32⟩ : BufTy).Contents (Elt F) → (⟨S8x16x256, .f32⟩ : BufTy).Contents (Elt F)),
    StableHlo.unary main_v59 main_v61 (broadcastInDim S8x1x1024x256 ![0, 2, 3] bcast_S8x1024x256_S8x1x1024x256_0_2_3 : (⟨S8x1024x256, .f32⟩ : BufTy).Contents (Elt F) → (⟨S8x1x1024x256, .f32⟩ : BufTy).Contents (Elt F)),
    StableHlo.unary main_v57 main_v62 (broadcastInDim S8x16x1024x1 ![0, 1, 2] bcast_S8x16x1024_S8x16x1024x1_0_1_2 : (⟨S8x16x1024, .f32⟩ : BufTy).Contents (Elt F) → (⟨S8x16x1024x1, .f32⟩ : BufTy).Contents (Elt F)),
    StableHlo.unary main_v60 main_v63 (broadcastInDim S8x16x1x256 ![0, 1, 3] bcast_S8x16x256_S8x16x1x256_0_1_3 : (⟨S8x16x256, .f32⟩ : BufTy).Contents (Elt F) → (⟨S8x16x1x256, .f32⟩ : BufTy).Contents (Elt F)),
    StableHlo.unary main_v62 main_v64 (broadcastInDim S8x16x1024x256 ![0, 1, 2, 3] bcast_S8x16x1024x1_S8x16x1024x256_0_1_2_3 : (⟨S8x16x1024x1, .f32⟩ : BufTy).Contents (Elt F) → (⟨S8x16x1024x256, .f32⟩ : BufTy).Contents (Elt F)),
    StableHlo.unary main_v63 main_v65 (broadcastInDim S8x16x1024x256 ![0, 1, 2, 3] bcast_S8x16x1x256_S8x16x1024x256_0_1_2_3 : (⟨S8x16x1x256, .f32⟩ : BufTy).Contents (Elt F) → (⟨S8x16x1024x256, .f32⟩ : BufTy).Contents (Elt F)),
    StableHlo.binary main_v64 main_v65 main_v66 (mulf : (⟨S8x16x1024x256, .f32⟩ : BufTy).Contents (Elt F) → (⟨S8x16x1024x256, .f32⟩ : BufTy).Contents (Elt F) → (⟨S8x16x1024x256, .f32⟩ : BufTy).Contents (Elt F)),
    StableHlo.unary main_v61 main_v67 (broadcastInDim S8x16x1024x256 ![0, 1, 2, 3] bcast_S8x1x1024x256_S8x16x1024x256_0_1_2_3 : (⟨S8x1x1024x256, .f32⟩ : BufTy).Contents (Elt F) → (⟨S8x16x1024x256, .f32⟩ : BufTy).Contents (Elt F)),
    StableHlo.binary main_v67 main_v66 main_v68 (addf : (⟨S8x16x1024x256, .f32⟩ : BufTy).Contents (Elt F) → (⟨S8x16x1024x256, .f32⟩ : BufTy).Contents (Elt F) → (⟨S8x16x1024x256, .f32⟩ : BufTy).Contents (Elt F)),
    StableHlo.unary main_v57 main_v69 (broadcastInDim S8x16x1024x1 ![0, 1, 2] bcast_S8x16x1024_S8x16x1024x1_0_1_2 : (⟨S8x16x1024, .f32⟩ : BufTy).Contents (Elt F) → (⟨S8x16x1024x1, .f32⟩ : BufTy).Contents (Elt F)),
    StableHlo.unary main_v69 main_v70 (broadcastInDim S8x16x1024x256 ![0, 1, 2, 3] bcast_S8x16x1024x1_S8x16x1024x256_0_1_2_3 : (⟨S8x16x1024x1, .f32⟩ : BufTy).Contents (Elt F) → (⟨S8x16x1024x256, .f32⟩ : BufTy).Contents (Elt F)),
    StableHlo.binary main_v68 main_v70 main_v71 (mulf : (⟨S8x16x1024x256, .f32⟩ : BufTy).Contents (Elt F) → (⟨S8x16x1024x256, .f32⟩ : BufTy).Contents (Elt F) → (⟨S8x16x1024x256, .f32⟩ : BufTy).Contents (Elt F)),
    StableHlo.nullary main_cst_4 (constant S_ .f32 0x00000000#32),
    StableHlo.binary main_v71 main_cst_4 main_v72 ((fun x v => Host.reduceAdd x v reducesTo_S8x16x1024x256_S8x1024x256_d1 h_S_) : (⟨S8x16x1024x256, .f32⟩ : BufTy).Contents (Elt F) → (⟨S_, .f32⟩ : BufTy).Contents (Elt F) → (⟨S8x1024x256, .f32⟩ : BufTy).Contents (Elt F)),
    StableHlo.nullary main_cst_5 (constant S_ .f32 0x00000000#32),
    StableHlo.binary main_v57 main_cst_5 main_v73 ((fun x v => Host.reduceAdd x v reducesTo_S8x16x1024_S8x1024_d1 h_S_) : (⟨S8x16x1024, .f32⟩ : BufTy).Contents (Elt F) → (⟨S_, .f32⟩ : BufTy).Contents (Elt F) → (⟨S8x1024, .f32⟩ : BufTy).Contents (Elt F)),
    StableHlo.unary main_v73 main_v74 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_v74 main_v75 (broadcastInDim S8x1024x256 ![0, 1, 2] bcast_S8x1024x1_S8x1024x256_0_1_2 : (⟨S8x1024x1, .f32⟩ : BufTy).Contents (Elt F) → (⟨S8x1024x256, .f32⟩ : BufTy).Contents (Elt F)),
    StableHlo.binary main_v72 main_v75 main_v76 (Host.divf : (⟨S8x1024x256, .f32⟩ : BufTy).Contents (Elt F) → (⟨S8x1024x256, .f32⟩ : BufTy).Contents (Elt F) → (⟨S8x1024x256, .f32⟩ : BufTy).Contents (Elt F)) ]

theorem ops_split : (ops : List (HloOp τ sig (Elt F))) = pre ++ post := rfl

/-! ## Up to the boxes -/

/-! The boxes are read stretch by stretch: the first stretch slices the locations, each call of the remainder function
    is one stretch, the stretch between them moves the starts and slices the ends, and the last seven operations join
    the corners with the image's box. -/

/-- The seven operations that join the corners with the image's box. -/
abbrev boxTail : List (HloOp τ sig (Elt F)) :=
  [ StableHlo.nullary main_c_3 (constantI S_ 32 2#32),
    StableHlo.unary main_c_3 main_v12 (broadcastInDim S8x15x2 ![] bcast_S_S8x15x2 : (⟨S_, .i32⟩ : BufTy).Contents (Elt F) → (⟨S8x15x2, .i32⟩ : BufTy).Contents (Elt F)),
    StableHlo.binary main_v12 main_v11 main_v13 (subi : (⟨S8x15x2, .i32⟩ : BufTy).Contents (Elt F) → (⟨S8x15x2, .i32⟩ : BufTy).Contents (Elt F) → (⟨S8x15x2, .i32⟩ : BufTy).Contents (Elt F)),
    StableHlo.binary main_v9 main_v13 main_v14 (addi : (⟨S8x15x2, .i32⟩ : BufTy).Contents (Elt F) → (⟨S8x15x2, .i32⟩ : BufTy).Contents (Elt F) → (⟨S8x15x2, .i32⟩ : BufTy).Contents (Elt F)),
    StableHlo.binary main_v8 main_v14 main_v15 ((fun a b => concatenate S8x15x4 2 [⟨S8x15x2, a⟩, ⟨S8x15x2, b⟩] concatenates_S8x15x2_S8x15x2_S8x15x4_d2) : (⟨S8x15x2, .i32⟩ : BufTy).Contents (Elt F) → (⟨S8x15x2, .i32⟩ : BufTy).Contents (Elt F) → (⟨S8x15x4, .i32⟩ : BufTy).Contents (Elt F)),
    StableHlo.unary main_c main_v16 (broadcastInDim S8x1x4 ![2] bcast_S4_S8x1x4_2 : (⟨S4, .i32⟩ : BufTy).Contents (Elt F) → (⟨S8x1x4, .i32⟩ : BufTy).Contents (Elt F)),
    StableHlo.binary main_v15 main_v16 main_v17 ((fun a b => concatenate S8x16x4 1 [⟨S8x15x4, a⟩, ⟨S8x1x4, b⟩] concatenates_S8x15x4_S8x1x4_S8x16x4_d1) : (⟨S8x15x4, .i32⟩ : BufTy).Contents (Elt F) → (⟨S8x1x4, .i32⟩ : BufTy).Contents (Elt F) → (⟨S8x16x4, .i32⟩ : BufTy).Contents (Elt F)) ]

theorem pre_split : (pre : List (HloOp τ sig (Elt F))) = opsA0 ++ (opsA1 ++ (opsA2 ++ (opsA3 ++ boxTail))) := rfl

set_option maxRecDepth 65536 in
set_option maxHeartbeats 2000000 in
theorem T17 (W : Valuation τ sig (Elt F)) : after boxTail W (main_v17 : DevRef τ sig) = Cert.Inject.boxJoin (W (main_v8 : DevRef τ sig)) (W (main_v9 : DevRef τ sig)) (W (main_v11 : DevRef τ sig)) (W (main_c : DevRef τ sig)) := by
  simp only [boxTail]
  after_results_simp <;> first | rfl | fail "T17"

set_option maxRecDepth 65536 in
set_option maxHeartbeats 2000000 in
theorem D11 (W : Valuation τ sig (Elt F)) : after opsA3 W (main_v11 : DevRef τ sig) = Cert.Inject.remTwo' (W (main_v10 : DevRef τ sig)) (W (main_c_2 : DevRef τ sig)) := by
  simp only [opsA3]
  after_results_simp <;> first | rfl | fail "D11"

set_option maxRecDepth 65536 in
set_option maxHeartbeats 2000000 in
theorem D8 (W : Valuation τ sig (Elt F)) : after opsA3 W (main_v8 : DevRef τ sig) = W (main_v8 : DevRef τ sig) := by
  simp only [opsA3]
  after_results_simp <;> first | rfl | fail "D8"

set_option maxRecDepth 65536 in
set_option maxHeartbeats 2000000 in
theorem D9 (W : Valuation τ sig (Elt F)) : after opsA3 W (main_v9 : DevRef τ sig) = W (main_v9 : DevRef τ sig) := by
  simp only [opsA3]
  after_results_simp <;> first | rfl | fail "D9"

set_option maxRecDepth 65536 in
set_option maxHeartbeats 2000000 in
theorem Dc (W : Valuation τ sig (Elt F)) : after opsA3 W (main_c : DevRef τ sig) = W (main_c : DevRef τ sig) := by
  simp only [opsA3]
  after_results_simp <;> first | rfl | fail "Dc"

set_option maxRecDepth 65536 in
set_option maxHeartbeats 2000000 in
theorem C8 (W : Valuation τ sig (Elt F)) : after opsA2 W (main_v8 : DevRef τ sig) = subi (W (main_v5 : DevRef τ sig)) (W (main_v7 : DevRef τ sig)) := by
  simp only [opsA2]
  after_results_simp <;> first | rfl | fail "C8"

set_option maxRecDepth 65536 in
set_option maxHeartbeats 2000000 in
theorem C9 (W : Valuation τ sig (Elt F)) : after opsA2 W (main_v9 : DevRef τ sig) = extractStridedSlice S8x15x2 ![0, 0, 2] (W (main_arg2 : DevRef τ sig)) slices_S8x15x4_S8x15x2_0_0_2 := by
  simp only [opsA2]
  after_results_simp <;> first | rfl | fail "C9"

set_option maxRecDepth 65536 in
set_option maxHeartbeats 2000000 in
theorem C10 (W : Valuation τ sig (Elt F)) : after opsA2 W (main_v10 : DevRef τ sig) = extractStridedSlice S8x15x2 ![0, 0, 2] (W (main_arg2 : DevRef τ sig)) slices_S8x15x4_S8x15x2_0_0_2 := by
  simp only [opsA2]
  after_results_simp <;> first | rfl | fail "C10"

set_option maxRecDepth 65536 in
set_option maxHeartbeats 2000000 in
theorem Cc2 (W : Valuation τ sig (Elt F)) : after opsA2 W (main_c_2 : DevRef τ sig) = constantI S_ 32 2#32 := by
  simp only [opsA2]
  after_results_simp <;> first | rfl | fail "Cc2"

set_option maxRecDepth 65536 in
set_option maxHeartbeats 2000000 in
theorem Cc (W : Valuation τ sig (Elt F)) : after opsA2 W (main_c : DevRef τ sig) = W (main_c : DevRef τ sig) := by
  simp only [opsA2]
  after_results_simp <;> first | rfl | fail "Cc"

set_option maxRecDepth 65536 in
set_option maxHeartbeats 2000000 in
theorem B5 (W : Valuation τ sig (Elt F)) : after opsA1 W (main_v5 : DevRef τ sig) = W (main_v5 : DevRef τ sig) := by
  simp only [opsA1]
  after_results_simp <;> first | rfl | fail "B5"

set_option maxRecDepth 65536 in
set_option maxHeartbeats 2000000 in
theorem B7 (W : Valuation τ sig (Elt F)) : after opsA1 W (main_v7 : DevRef τ sig) = Cert.Inject.remTwo' (W (main_v6 : DevRef τ sig)) (W (main_c_1 : DevRef τ sig)) := by
  simp only [opsA1]
  after_results_simp <;> first | rfl | fail "B7"

set_option maxRecDepth 65536 in
set_option maxHeartbeats 2000000 in
theorem Barg2 (W : Valuation τ sig (Elt F)) : after opsA1 W (main_arg2 : DevRef τ sig) = W (main_arg2 : DevRef τ sig) := by
  simp only [opsA1]
  after_results_simp <;> first | rfl | fail "Barg2"

set_option maxRecDepth 65536 in
set_option maxHeartbeats 2000000 in
theorem Bc (W : Valuation τ sig (Elt F)) : after opsA1 W (main_c : DevRef τ sig) = W (main_c : DevRef τ sig) := by
  simp only [opsA1]
  after_results_simp <;> first | rfl | fail "Bc"

set_option maxRecDepth 65536 in
set_option maxHeartbeats 2000000 in
theorem A5 (W : Valuation τ sig (Elt F)) : after opsA0 W (main_v5 : DevRef τ sig) = extractStridedSlice S8x15x2 ![0, 0, 0] (W (main_arg2 : DevRef τ sig)) slices_S8x15x4_S8x15x2_0_0_0 := by
  simp only [opsA0]
  after_results_simp <;> first | rfl | fail "A5"

set_option maxRecDepth 65536 in
set_option maxHeartbeats 2000000 in
theorem A6 (W : Valuation τ sig (Elt F)) : after opsA0 W (main_v6 : DevRef τ sig) = extractStridedSlice S8x15x2 ![0, 0, 0] (W (main_arg2 : DevRef τ sig)) slices_S8x15x4_S8x15x2_0_0_0 := by
  simp only [opsA0]
  after_results_simp <;> first | rfl | fail "A6"

set_option maxRecDepth 65536 in
set_option maxHeartbeats 2000000 in
theorem Ac1 (W : Valuation τ sig (Elt F)) : after opsA0 W (main_c_1 : DevRef τ sig) = constantI S_ 32 2#32 := by
  simp only [opsA0]
  after_results_simp <;> first | rfl | fail "Ac1"

set_option maxRecDepth 65536 in
set_option maxHeartbeats 2000000 in
theorem Aarg2 (W : Valuation τ sig (Elt F)) : after opsA0 W (main_arg2 : DevRef τ sig) = W (main_arg2 : DevRef τ sig) := by
  simp only [opsA0]
  after_results_simp <;> first | rfl | fail "Aarg2"

set_option maxRecDepth 65536 in
set_option maxHeartbeats 2000000 in
theorem Ac (W : Valuation τ sig (Elt F)) : after opsA0 W (main_c : DevRef τ sig) = (fun i => lit0 (S4.rowMajor i)) := by
  simp only [opsA0]
  after_results_simp <;> first | rfl | fail "Ac"

/-- The sixteen boxes. -/
theorem pre_boxes (V : Valuation τ sig (Elt F)) :
    after pre V (main_v17 : DevRef τ sig) = Cert.Inject.boxes (V (main_arg2 : DevRef τ sig)) := by
  rw [pre_split]
  simp only [StableHlo.after_append]
  rw [T17, D8, D9, D11, Dc, C8, C9, C10, Cc2, Cc, B5, B7, Barg2, Bc, A5, A6, Ac1, Aarg2, Ac]
  rfl

set_option maxRecDepth 65536 in
set_option maxHeartbeats 2000000 in
/-- The embeddings with their mean row. -/
theorem pre_embs (V : Valuation τ sig (Elt F)) :
    after pre V (main_v4 : DevRef τ sig) = Cert.Inject.embsExt (V (main_arg1 : DevRef τ sig)) := by
  simp only [pre]
  after_results_simp <;> first | rfl | fail "pre_embs"

set_option maxRecDepth 65536 in
set_option maxHeartbeats 2000000 in
theorem pre_arg0 (W : Valuation τ sig (Elt F)) : after pre W (main_arg0 : DevRef τ sig) = W (main_arg0 : DevRef τ sig) := by
  simp only [pre]
  after_results_simp <;> first | rfl | fail "pre_arg0"

set_option maxRecDepth 65536 in
set_option maxHeartbeats 2000000 in
theorem pre_arg1 (W : Valuation τ sig (Elt F)) : after pre W (main_arg1 : DevRef τ sig) = W (main_arg1 : DevRef τ sig) := by
  simp only [pre]
  after_results_simp <;> first | rfl | fail "pre_arg1"

set_option maxRecDepth 65536 in
set_option maxHeartbeats 2000000 in
theorem pre_arg2 (W : Valuation τ sig (Elt F)) : after pre W (main_arg2 : DevRef τ sig) = W (main_arg2 : DevRef τ sig) := by
  simp only [pre]
  after_results_simp <;> first | rfl | fail "pre_arg2"

set_option maxRecDepth 65536 in
set_option maxHeartbeats 2000000 in
theorem pre_arg3 (W : Valuation τ sig (Elt F)) : after pre W (main_arg3 : DevRef τ sig) = W (main_arg3 : DevRef τ sig) := by
  simp only [pre]
  after_results_simp <;> first | rfl | fail "pre_arg3"

set_option maxRecDepth 65536 in
set_option maxHeartbeats 2000000 in
theorem pre_arg4 (W : Valuation τ sig (Elt F)) : after pre W (main_arg4 : DevRef τ sig) = W (main_arg4 : DevRef τ sig) := by
  simp only [pre]
  after_results_simp <;> first | rfl | fail "pre_arg4"

/-! ## From the boxes to the result -/

set_option maxRecDepth 65536 in
set_option maxHeartbeats 2000000 in
/-- The masked mean over the arrays the first stretch prepared. -/
theorem post_out (W : Valuation τ sig (Elt F)) :
    after post W (main_v76 : DevRef τ sig)
      = Cert.Inject.refTail (W (main_arg0 : DevRef τ sig)) (W (main_v4 : DevRef τ sig)) (W (main_v17 : DevRef τ sig))
          (W (main_arg3 : DevRef τ sig)) (W (main_arg4 : DevRef τ sig)) := by
  simp only [post]
  after_results_simp <;> first | rfl | fail "post_out"

set_option maxRecDepth 65536 in
set_option maxHeartbeats 2000000 in
theorem post_arg0 (W : Valuation τ sig (Elt F)) : after post W (main_arg0 : DevRef τ sig) = W (main_arg0 : DevRef τ sig) := by
  simp only [post]
  after_results_simp <;> first | rfl | fail "post_arg0"

set_option maxRecDepth 65536 in
set_option maxHeartbeats 2000000 in
theorem post_arg1 (W : Valuation τ sig (Elt F)) : after post W (main_arg1 : DevRef τ sig) = W (main_arg1 : DevRef τ sig) := by
  simp only [post]
  after_results_simp <;> first | rfl | fail "post_arg1"

set_option maxRecDepth 65536 in
set_option maxHeartbeats 2000000 in
theorem post_arg2 (W : Valuation τ sig (Elt F)) : after post W (main_arg2 : DevRef τ sig) = W (main_arg2 : DevRef τ sig) := by
  simp only [post]
  after_results_simp <;> first | rfl | fail "post_arg2"

set_option maxRecDepth 65536 in
set_option maxHeartbeats 2000000 in
theorem post_arg3 (W : Valuation τ sig (Elt F)) : after post W (main_arg3 : DevRef τ sig) = W (main_arg3 : DevRef τ sig) := by
  simp only [post]
  after_results_simp <;> first | rfl | fail "post_arg3"

set_option maxRecDepth 65536 in
set_option maxHeartbeats 2000000 in
theorem post_arg4 (W : Valuation τ sig (Elt F)) : after post W (main_arg4 : DevRef τ sig) = W (main_arg4 : DevRef τ sig) := by
  simp only [post]
  after_results_simp <;> first | rfl | fail "post_arg4"

/-! ## The whole run -/

/-- The result buffer after the operations is `refOut` of the arguments' contents. -/
theorem out_eq (V : Valuation τ sig (Elt F)) :
    after ops V (main_v76 : DevRef τ sig)
      = Cert.Inject.refOut (V (main_arg0 : DevRef τ sig)) (V (main_arg1 : DevRef τ sig)) (V (main_arg2 : DevRef τ sig))
          (V (main_arg3 : DevRef τ sig)) (V (main_arg4 : DevRef τ sig)) := by
  rw [ops_split, StableHlo.after_append, post_out, pre_arg0, pre_embs, pre_boxes, pre_arg3, pre_arg4]
  rfl

theorem arg0_eq (V : Valuation τ sig (Elt F)) : after ops V (main_arg0 : DevRef τ sig) = V (main_arg0 : DevRef τ sig) := by
  rw [ops_split, StableHlo.after_append, post_arg0, pre_arg0]
theorem arg1_eq (V : Valuation τ sig (Elt F)) : after ops V (main_arg1 : DevRef τ sig) = V (main_arg1 : DevRef τ sig) := by
  rw [ops_split, StableHlo.after_append, post_arg1, pre_arg1]
theorem arg2_eq (V : Valuation τ sig (Elt F)) : after ops V (main_arg2 : DevRef τ sig) = V (main_arg2 : DevRef τ sig) := by
  rw [ops_split, StableHlo.after_append, post_arg2, pre_arg2]
theorem arg3_eq (V : Valuation τ sig (Elt F)) : after ops V (main_arg3 : DevRef τ sig) = V (main_arg3 : DevRef τ sig) := by
  rw [ops_split, StableHlo.after_append, post_arg3, pre_arg3]
theorem arg4_eq (V : Valuation τ sig (Elt F)) : after ops V (main_arg4 : DevRef τ sig) = V (main_arg4 : DevRef τ sig) := by
  rw [ops_split, StableHlo.after_append, post_arg4, pre_arg4]

/-- Every weakly fair execution of the reference terminates with its result at `refOut` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
          = Cert.Inject.refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v76).trans (out_eq _), (h c main_arg0).trans (arg0_eq _),
      (h c main_arg1).trans (arg1_eq _), (h c main_arg2).trans (arg2_eq _), (h c main_arg3).trans (arg3_eq _),
      (h c main_arg4).trans (arg4_eq _)⟩) (run_all m ρ)

end Cert.ReferenceIdeal.Straight

end
-- ==== Proof.KernelHost.lean ====
/-
  The arrays the kernel's region finds.

  Before the region the kernel's program runs the same host stages as the reference — the mean row appended to the
  embeddings, the boxes, the mask — and then changes formats: the mask bits become bf16 zeros and ones, the patches
  are recast from [8,32,32,256] to [8,1024,256], the two weight matrices are rounded to bf16 (the identity on the
  extended reals). The host operations are read in two stretches: up to the sixteen boxes, whose contents are
  `Cert.Inject.boxes` of the locations, and from there to the region, where the boxes are rasterised. Read off the
  fold of those operations, the five arrays the region's windows stage are these functions of the arguments.
-/
import proofs.«142150_j33165737460139_2_alg».proof.Proof.Gen.KernelIdeal.Frame
import proofs.«142150_j33165737460139_2_alg».proof.Proof.Stages

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The last stretch's operations up to the sixteen boxes. -/
abbrev boxTail : List (HloOp τ sig (Elt F)) :=
  [ StableHlo.nullary main_c_3 (constantI S_ 32 2#32),
    StableHlo.unary main_c_3 main_v12 (broadcastInDim S8x15x2 ![] bcast_S_S8x15x2 : (⟨S_, .i32⟩ : BufTy).Contents (Elt F) → (⟨S8x15x2, .i32⟩ : BufTy).Contents (Elt F)),
    StableHlo.binary main_v12 main_v11 main_v13 (subi : (⟨S8x15x2, .i32⟩ : BufTy).Contents (Elt F) → (⟨S8x15x2, .i32⟩ : BufTy).Contents (Elt F) → (⟨S8x15x2, .i32⟩ : BufTy).Contents (Elt F)),
    StableHlo.binary main_v9 main_v13 main_v14 (addi : (⟨S8x15x2, .i32⟩ : BufTy).Contents (Elt F) → (⟨S8x15x2, .i32⟩ : BufTy).Contents (Elt F) → (⟨S8x15x2, .i32⟩ : BufTy).Contents (Elt F)),
    StableHlo.binary main_v8 main_v14 main_v15 ((fun a b => concatenate S8x15x4 2 [⟨S8x15x2, a⟩, ⟨S8x15x2, b⟩] concatenates_S8x15x2_S8x15x2_S8x15x4_d2) : (⟨S8x15x2, .i32⟩ : BufTy).Contents (Elt F) → (⟨S8x15x2, .i32⟩ : BufTy).Contents (Elt F) → (⟨S8x15x4, .i32⟩ : BufTy).Contents (Elt F)),
    StableHlo.unary main_c main_v16 (broadcastInDim S8x1x4 ![2] bcast_S4_S8x1x4_2 : (⟨S4, .i32⟩ : BufTy).Contents (Elt F) → (⟨S8x1x4, .i32⟩ : BufTy).Contents (Elt F)),
    StableHlo.binary main_v15 main_v16 main_v17 ((fun a b => concatenate S8x16x4 1 [⟨S8x15x4, a⟩, ⟨S8x1x4, b⟩] concatenates_S8x15x4_S8x1x4_S8x16x4_d1) : (⟨S8x15x4, .i32⟩ : BufTy).Contents (Elt F) → (⟨S8x1x4, .i32⟩ : BufTy).Contents (Elt F) → (⟨S8x16x4, .i32⟩ : BufTy).Contents (Elt F)) ]

/-- The rest, to the region: the pixel grid, the comparisons, the mask and the format changes. -/
abbrev post : List (HloOp τ sig (Elt F)) :=
  [ StableHlo.nullary main_v18 (iotaInDim S32 32 0),
    StableHlo.unary main_v18 main_v19 (broadcastInDim S32x1 ![0] bcast_S32_S32x1_0 : (⟨S32, .i32⟩ : BufTy).Contents (Elt F) → (⟨S32x1, .i32⟩ : BufTy).Contents (Elt F)),
    StableHlo.nullary main_v20 (iotaInDim S32 32 0),
    StableHlo.unary main_v20 main_v21 (broadcastInDim S1x32 ![1] bcast_S32_S1x32_1 : (⟨S32, .i32⟩ : BufTy).Contents (Elt F) → (⟨S1x32, .i32⟩ : BufTy).Contents (Elt F)),
    StableHlo.unary main_v17 main_v22 ((extractStridedSlice S8x16x1 ![0, 0, 0] · slices_S8x16x4_S8x16x1_0_0_0) : (⟨S8x16x4, .i32⟩ : BufTy).Contents (Elt F) → (⟨S8x16x1, .i32⟩ : BufTy).Contents (Elt F)),
    StableHlo.reshape main_v22 main_v23 rfl shapeCasts_S8x16x1_S8x16,
    StableHlo.unary main_v23 main_v24 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v25 ((extractStridedSlice S8x16x1 ![0, 0, 1] · slices_S8x16x4_S8x16x1_0_0_1) : (⟨S8x16x4, .i32⟩ : BufTy).Contents (Elt F) → (⟨S8x16x1, .i32⟩ : BufTy).Contents (Elt F)),
    StableHlo.reshape main_v25 main_v26 rfl shapeCasts_S8x16x1_S8x16,
    StableHlo.unary main_v26 main_v27 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v28 ((extractStridedSlice S8x16x1 ![0, 0, 2] · slices_S8x16x4_S8x16x1_0_0_2) : (⟨S8x16x4, .i32⟩ : BufTy).Contents (Elt F) → (⟨S8x16x1, .i32⟩ : BufTy).Contents (Elt F)),
    StableHlo.reshape main_v28 main_v29 rfl shapeCasts_S8x16x1_S8x16,
    StableHlo.unary main_v29 main_v30 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v17 main_v31 ((extractStridedSlice S8x16x1 ![0, 0, 3] · slices_S8x16x4_S8x16x1_0_0_3) : (⟨S8x16x4, .i32⟩ : BufTy).Contents (Elt F) → (⟨S8x16x1, .i32⟩ : BufTy).Contents (Elt F)),
    StableHlo.reshape main_v31 main_v32 rfl shapeCasts_S8x16x1_S8x16,
    StableHlo.unary main_v32 main_v33 (broadcastInDim S8x16x1x1 ![0, 1] bcast_S8x16_S8x16x1x1_0_1 : (⟨S8x16, .i32⟩ : BufTy).Contents (Elt F) → (⟨S8x16x1x1, .i32⟩ : BufTy).Contents (Elt F)),
    StableHlo.unary main_v19 main_v34 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v34 main_v35 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v24 main_v36 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v35 main_v36 main_v37 (cmpi .sge : (⟨S8x16x32x1, .i32⟩ : BufTy).Contents (Elt F) → (⟨S8x16x32x1, .i32⟩ : BufTy).Contents (Elt F) → (⟨S8x16x32x1, .i1⟩ : BufTy).Contents (Elt F)),
    StableHlo.unary main_v19 main_v38 (broadcastInDim S1x1x32x1 ![2, 3] bcast_S32x1_S1x1x32x1_2_3 : (⟨S32x1, .i32⟩ : BufTy).Contents (Elt F) → (⟨S1x1x32x1, .i32⟩ : BufTy).Contents (Elt F)),
    StableHlo.unary main_v38 main_v39 (broadcastInDim S8x16x32x1 ![0, 1, 2, 3] bcast_S1x1x32x1_S8x16x32x1_0_1_2_3 : (⟨S1x1x32x1, .i32⟩ : BufTy).Contents (Elt F) → (⟨S8x16x32x1, .i32⟩ : BufTy).Contents (Elt F)),
    StableHlo.unary main_v30 main_v40 (broadcastInDim S8x16x32x1 ![0, 1, 2, 3] bcast_S8x16x1x1_S8x16x32x1_0_1_2_3 : (⟨S8x16x1x1, .i32⟩ : BufTy).Contents (Elt F) → (⟨S8x16x32x1, .i32⟩ : BufTy).Contents (Elt F)),
    StableHlo.binary main_v39 main_v40 main_v41 (cmpi .slt : (⟨S8x16x32x1, .i32⟩ : BufTy).Contents (Elt F) → (⟨S8x16x32x1, .i32⟩ : BufTy).Contents (Elt F) → (⟨S8x16x32x1, .i1⟩ : BufTy).Contents (Elt F)),
    StableHlo.binary main_v37 main_v41 main_v42 (andi : (⟨S8x16x32x1, .i1⟩ : BufTy).Contents (Elt F) → (⟨S8x16x32x1, .i1⟩ : BufTy).Contents (Elt F) → (⟨S8x16x32x1, .i1⟩ : BufTy).Contents (Elt F)),
    StableHlo.unary main_v21 main_v43 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v43 main_v44 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v27 main_v45 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v44 main_v45 main_v46 (cmpi .sge : (⟨S8x16x1x32, .i32⟩ : BufTy).Contents (Elt F) → (⟨S8x16x1x32, .i32⟩ : BufTy).Contents (Elt F) → (⟨S8x16x1x32, .i1⟩ : BufTy).Contents (Elt F)),
    StableHlo.unary main_v42 main_v47 (broadcastInDim S8x16x32x32 ![0, 1, 2, 3] bcast_S8x16x32x1_S8x16x32x32_0_1_2_3 : (⟨S8x16x32x1, .i1⟩ : BufTy).Contents (Elt F) → (⟨S8x16x32x32, .i1⟩ : BufTy).Contents (Elt F)),
    StableHlo.unary main_v46 main_v48 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v47 main_v48 main_v49 (andi : (⟨S8x16x32x32, .i1⟩ : BufTy).Contents (Elt F) → (⟨S8x16x32x32, .i1⟩ : BufTy).Contents (Elt F) → (⟨S8x16x32x32, .i1⟩ : BufTy).Contents (Elt F)),
    StableHlo.unary main_v21 main_v50 (broadcastInDim S1x1x1x32 ![2, 3] bcast_S1x32_S1x1x1x32_2_3 : (⟨S1x32, .i32⟩ : BufTy).Contents (Elt F) → (⟨S1x1x1x32, .i32⟩ : BufTy).Contents (Elt F)),
    StableHlo.unary main_v50 main_v51 (broadcastInDim S8x16x1x32 ![0, 1, 2, 3] bcast_S1x1x1x32_S8x16x1x32_0_1_2_3 : (⟨S1x1x1x32, .i32⟩ : BufTy).Contents (Elt F) → (⟨S8x16x1x32, .i32⟩ : BufTy).Contents (Elt F)),
    StableHlo.unary main_v33 main_v52 (broadcastInDim S8x16x1x32 ![0, 1, 2, 3] bcast_S8x16x1x1_S8x16x1x32_0_1_2_3 : (⟨S8x16x1x1, .i32⟩ : BufTy).Contents (Elt F) → (⟨S8x16x1x32, .i32⟩ : BufTy).Contents (Elt F)),
    StableHlo.binary main_v51 main_v52 main_v53 (cmpi .slt : (⟨S8x16x1x32, .i32⟩ : BufTy).Contents (Elt F) → (⟨S8x16x1x32, .i32⟩ : BufTy).Contents (Elt F) → (⟨S8x16x1x32, .i1⟩ : BufTy).Contents (Elt F)),
    StableHlo.unary main_v53 main_v54 (broadcastInDim S8x16x32x32 ![0, 1, 2, 3] bcast_S8x16x1x32_S8x16x32x32_0_1_2_3 : (⟨S8x16x1x32, .i1⟩ : BufTy).Contents (Elt F) → (⟨S8x16x32x32, .i1⟩ : BufTy).Contents (Elt F)),
    StableHlo.binary main_v49 main_v54 main_v55 (andi : (⟨S8x16x32x32, .i1⟩ : BufTy).Contents (Elt F) → (⟨S8x16x32x32, .i1⟩ : BufTy).Contents (Elt F) → (⟨S8x16x32x32, .i1⟩ : BufTy).Contents (Elt F)),
    StableHlo.reshape main_v55 main_v56 rfl shapeCasts_S8x16x32x32_S8x16x1024,
    StableHlo.unary main_v56 main_v57 (uitofp .bf16 : (⟨S8x16x1024, .i1⟩ : BufTy).Contents (Elt F) → (⟨S8x16x1024, .bf16⟩ : BufTy).Contents (Elt F)),
    StableHlo.reshape main_arg0 main_v58 rfl shapeCasts_S8x32x32x256_S8x1024x256,
    StableHlo.unary main_arg3 main_v59 ((truncf .bf16 · bitsLt_bf16_f32) : (⟨S256x256, .f32⟩ : BufTy).Contents (Elt F) → (⟨S256x256, .bf16⟩ : BufTy).Contents (Elt F)),
    StableHlo.unary main_arg4 main_v60 ((truncf .bf16 · bitsLt_bf16_f32) : (⟨S256x256, .f32⟩ : BufTy).Contents (Elt F) → (⟨S256x256, .bf16⟩ : BufTy).Contents (Elt F)) ]

/-- Everything up to the boxes. -/
abbrev pre : List (HloOp τ sig (Elt F)) := hostOps0 ++ (hostOps0_1 ++ (hostOps0_2 ++ (hostOps0_3 ++ boxTail)))

theorem last_split : (hostOps0_4 : List (HloOp τ sig (Elt F))) = boxTail ++ post := rfl

theorem all_split : (List.flatten [hostOps0, hostOps0_1, hostOps0_2, hostOps0_3, hostOps0_4] : List (HloOp τ sig (Elt F))) = pre ++ post := by
  rw [last_split]
  simp only [List.flatten_cons, List.flatten_nil, List.append_nil, List.append_assoc, pre]

/-! ## Up to the boxes -/

/-! The boxes are read stretch by stretch: the first stretch slices the locations, each call of the remainder function
    is one stretch, the stretch between them moves the starts and slices the ends, and the last seven operations join
    the corners with the image's box. -/

set_option maxRecDepth 65536 in
set_option maxHeartbeats 2000000 in
theorem T17 (W : Valuation τ sig (Elt F)) : after boxTail W (main_v17 : DevRef τ sig) = Cert.Inject.boxJoin (W (main_v8 : DevRef τ sig)) (W (main_v9 : DevRef τ sig)) (W (main_v11 : DevRef τ sig)) (W (main_c : DevRef τ sig)) := by
  simp only [boxTail]
  after_results_simp <;> first | rfl | fail "T17"

set_option maxRecDepth 65536 in
set_option maxHeartbeats 2000000 in
theorem D11 (W : Valuation τ sig (Elt F)) : after hostOps0_3 W (main_v11 : DevRef τ sig) = Cert.Inject.remTwo' (W (main_v10 : DevRef τ sig)) (W (main_c_2 : DevRef τ sig)) := by
  simp only [hostOps0_3]
  after_results_simp <;> first | rfl | fail "D11"

set_option maxRecDepth 65536 in
set_option maxHeartbeats 2000000 in
theorem D8 (W : Valuation τ sig (Elt F)) : after hostOps0_3 W (main_v8 : DevRef τ sig) = W (main_v8 : DevRef τ sig) := by
  simp only [hostOps0_3]
  after_results_simp <;> first | rfl | fail "D8"

set_option maxRecDepth 65536 in
set_option maxHeartbeats 2000000 in
theorem D9 (W : Valuation τ sig (Elt F)) : after hostOps0_3 W (main_v9 : DevRef τ sig) = W (main_v9 : DevRef τ sig) := by
  simp only [hostOps0_3]
  after_results_simp <;> first | rfl | fail "D9"

set_option maxRecDepth 65536 in
set_option maxHeartbeats 2000000 in
theorem Dc (W : Valuation τ sig (Elt F)) : after hostOps0_3 W (main_c : DevRef τ sig) = W (main_c : DevRef τ sig) := by
  simp only [hostOps0_3]
  after_results_simp <;> first | rfl | fail "Dc"

set_option maxRecDepth 65536 in
set_option maxHeartbeats 2000000 in
theorem C8 (W : Valuation τ sig (Elt F)) : after hostOps0_2 W (main_v8 : DevRef τ sig) = subi (W (main_v5 : DevRef τ sig)) (W (main_v7 : DevRef τ sig)) := by
  simp only [hostOps0_2]
  after_results_simp <;> first | rfl | fail "C8"

set_option maxRecDepth 65536 in
set_option maxHeartbeats 2000000 in
theorem C9 (W : Valuation τ sig (Elt F)) : after hostOps0_2 W (main_v9 : DevRef τ sig) = extractStridedSlice S8x15x2 ![0, 0, 2] (W (main_arg2 : DevRef τ sig)) slices_S8x15x4_S8x15x2_0_0_2 := by
  simp only [hostOps0_2]
  after_results_simp <;> first | rfl | fail "C9"

set_option maxRecDepth 65536 in
set_option maxHeartbeats 2000000 in
theorem C10 (W : Valuation τ sig (Elt F)) : after hostOps0_2 W (main_v10 : DevRef τ sig) = extractStridedSlice S8x15x2 ![0, 0, 2] (W (main_arg2 : DevRef τ sig)) slices_S8x15x4_S8x15x2_0_0_2 := by
  simp only [hostOps0_2]
  after_results_simp <;> first | rfl | fail "C10"

set_option maxRecDepth 65536 in
set_option maxHeartbeats 2000000 in
theorem Cc2 (W : Valuation τ sig (Elt F)) : after hostOps0_2 W (main_c_2 : DevRef τ sig) = constantI S_ 32 2#32 := by
  simp only [hostOps0_2]
  after_results_simp <;> first | rfl | fail "Cc2"

set_option maxRecDepth 65536 in
set_option maxHeartbeats 2000000 in
theorem Cc (W : Valuation τ sig (Elt F)) : after hostOps0_2 W (main_c : DevRef τ sig) = W (main_c : DevRef τ sig) := by
  simp only [hostOps0_2]
  after_results_simp <;> first | rfl | fail "Cc"

set_option maxRecDepth 65536 in
set_option maxHeartbeats 2000000 in
theorem B5 (W : Valuation τ sig (Elt F)) : after hostOps0_1 W (main_v5 : DevRef τ sig) = W (main_v5 : DevRef τ sig) := by
  simp only [hostOps0_1]
  after_results_simp <;> first | rfl | fail "B5"

set_option maxRecDepth 65536 in
set_option maxHeartbeats 2000000 in
theorem B7 (W : Valuation τ sig (Elt F)) : after hostOps0_1 W (main_v7 : DevRef τ sig) = Cert.Inject.remTwo' (W (main_v6 : DevRef τ sig)) (W (main_c_1 : DevRef τ sig)) := by
  simp only [hostOps0_1]
  after_results_simp <;> first | rfl | fail "B7"

set_option maxRecDepth 65536 in
set_option maxHeartbeats 2000000 in
theorem Barg2 (W : Valuation τ sig (Elt F)) : after hostOps0_1 W (main_arg2 : DevRef τ sig) = W (main_arg2 : DevRef τ sig) := by
  simp only [hostOps0_1]
  after_results_simp <;> first | rfl | fail "Barg2"

set_option maxRecDepth 65536 in
set_option maxHeartbeats 2000000 in
theorem Bc (W : Valuation τ sig (Elt F)) : after hostOps0_1 W (main_c : DevRef τ sig) = W (main_c : DevRef τ sig) := by
  simp only [hostOps0_1]
  after_results_simp <;> first | rfl | fail "Bc"

set_option maxRecDepth 65536 in
set_option maxHeartbeats 2000000 in
theorem A5 (W : Valuation τ sig (Elt F)) : after hostOps0 W (main_v5 : DevRef τ sig) = extractStridedSlice S8x15x2 ![0, 0, 0] (W (main_arg2 : DevRef τ sig)) slices_S8x15x4_S8x15x2_0_0_0 := by
  simp only [hostOps0]
  after_results_simp <;> first | rfl | fail "A5"

set_option maxRecDepth 65536 in
set_option maxHeartbeats 2000000 in
theorem A6 (W : Valuation τ sig (Elt F)) : after hostOps0 W (main_v6 : DevRef τ sig) = extractStridedSlice S8x15x2 ![0, 0, 0] (W (main_arg2 : DevRef τ sig)) slices_S8x15x4_S8x15x2_0_0_0 := by
  simp only [hostOps0]
  after_results_simp <;> first | rfl | fail "A6"

set_option maxRecDepth 65536 in
set_option maxHeartbeats 2000000 in
theorem Ac1 (W : Valuation τ sig (Elt F)) : after hostOps0 W (main_c_1 : DevRef τ sig) = constantI S_ 32 2#32 := by
  simp only [hostOps0]
  after_results_simp <;> first | rfl | fail "Ac1"

set_option maxRecDepth 65536 in
set_option maxHeartbeats 2000000 in
theorem Aarg2 (W : Valuation τ sig (Elt F)) : after hostOps0 W (main_arg2 : DevRef τ sig) = W (main_arg2 : DevRef τ sig) := by
  simp only [hostOps0]
  after_results_simp <;> first | rfl | fail "Aarg2"

set_option maxRecDepth 65536 in
set_option maxHeartbeats 2000000 in
theorem Ac (W : Valuation τ sig (Elt F)) : after hostOps0 W (main_c : DevRef τ sig) = (fun i => lit0 (S4.rowMajor i)) := by
  simp only [hostOps0]
  after_results_simp <;> first | rfl | fail "Ac"

/-- The sixteen boxes. -/
theorem pre_boxes (M : Valuation τ sig (Elt F)) :
    after pre M (main_v17 : DevRef τ sig) = Cert.Inject.boxes (M (main_arg2 : DevRef τ sig)) := by
  simp only [pre, StableHlo.after_append]
  rw [T17, D8, D9, D11, Dc, C8, C9, C10, Cc2, Cc, B5, B7, Barg2, Bc, A5, A6, Ac1, Aarg2, Ac]
  rfl

set_option maxRecDepth 65536 in
set_option maxHeartbeats 2000000 in
/-- The embeddings with their mean row. -/
theorem pre_embs (M : Valuation τ sig (Elt F)) :
    after pre M (main_v4 : DevRef τ sig) = Cert.Inject.embsExt (M (main_arg1 : DevRef τ sig)) := by
  simp only [pre, hostOps0, hostOps0_1, hostOps0_2, hostOps0_3, boxTail, List.cons_append, List.nil_append]
  after_results_simp <;> first | rfl | fail "pre_embs"

set_option maxRecDepth 65536 in
set_option maxHeartbeats 2000000 in
theorem pre_arg0 (M : Valuation τ sig (Elt F)) : after pre M (main_arg0 : DevRef τ sig) = M (main_arg0 : DevRef τ sig) := by
  simp only [pre, hostOps0, hostOps0_1, hostOps0_2, hostOps0_3, boxTail, List.cons_append, List.nil_append]
  after_results_simp <;> first | rfl | fail "pre_arg0"

set_option maxRecDepth 65536 in
set_option maxHeartbeats 2000000 in
theorem pre_arg3 (M : Valuation τ sig (Elt F)) : after pre M (main_arg3 : DevRef τ sig) = M (main_arg3 : DevRef τ sig) := by
  simp only [pre, hostOps0, hostOps0_1, hostOps0_2, hostOps0_3, boxTail, List.cons_append, List.nil_append]
  after_results_simp <;> first | rfl | fail "pre_arg3"

set_option maxRecDepth 65536 in
set_option maxHeartbeats 2000000 in
theorem pre_arg4 (M : Valuation τ sig (Elt F)) : after pre M (main_arg4 : DevRef τ sig) = M (main_arg4 : DevRef τ sig) := by
  simp only [pre, hostOps0, hostOps0_1, hostOps0_2, hostOps0_3, boxTail, List.cons_append, List.nil_append]
  after_results_simp <;> first | rfl | fail "pre_arg4"

/-! ## From the boxes to the region -/

set_option maxRecDepth 65536 in
set_option maxHeartbeats 2000000 in
/-- The mask: the boxes rasterised, as bf16 zeros and ones. -/
theorem post_mask (W : Valuation τ sig (Elt F)) :
    after post W (main_v57 : DevRef τ sig) = (uitofp .bf16 (Cert.Inject.rasterise (W (main_v17 : DevRef τ sig))) : FVec F S8x16x1024 .bf16) := by
  simp only [post, List.cons_append, List.nil_append]
  after_results_simp <;> first | rfl | fail "post_mask"

set_option maxRecDepth 65536 in
set_option maxHeartbeats 2000000 in
/-- The patches, recast. -/
theorem post_patches (W : Valuation τ sig (Elt F)) :
    after post W (main_v58 : DevRef τ sig) = shapeCast S8x1024x256 (W (main_arg0 : DevRef τ sig)) shapeCasts_S8x32x32x256_S8x1024x256 := by
  simp only [post, List.cons_append, List.nil_append]
  after_results_simp <;> first | rfl | fail "post_patches"

set_option maxRecDepth 65536 in
set_option maxHeartbeats 2000000 in
/-- The patch weights, rounded to bf16. -/
theorem post_wp (W : Valuation τ sig (Elt F)) :
    after post W (main_v59 : DevRef τ sig) = truncf .bf16 (W (main_arg3 : DevRef τ sig)) bitsLt_bf16_f32 := by
  simp only [post, List.cons_append, List.nil_append]
  after_results_simp <;> first | rfl | fail "post_wp"

set_option maxRecDepth 65536 in
set_option maxHeartbeats 2000000 in
/-- The embedding weights, rounded to bf16. -/
theorem post_we (W : Valuation τ sig (Elt F)) :
    after post W (main_v60 : DevRef τ sig) = truncf .bf16 (W (main_arg4 : DevRef τ sig)) bitsLt_bf16_f32 := by
  simp only [post, List.cons_append, List.nil_append]
  after_results_simp <;> first | rfl | fail "post_we"

set_option maxRecDepth 65536 in
set_option maxHeartbeats 2000000 in
theorem post_embs (W : Valuation τ sig (Elt F)) : after post W (main_v4 : DevRef τ sig) = W (main_v4 : DevRef τ sig) := by
  simp only [post, List.cons_append, List.nil_append]
  after_results_simp <;> first | rfl | fail "post_embs"

/-! ## The five arrays -/

variable (m : (ℓ : Loc nD τ sig) → Buf (Elt F) ℓ)

/-- The patches, recast. -/
theorem V_patches (c : Dev nD) : (V m c main_v58 : S8x1024x256.Idx → Elt F .f32)
    = shapeCast S8x1024x256 (m ((c : Thread nD τ).loc main_arg0)) shapeCasts_S8x32x32x256_S8x1024x256 := by
  dsimp only [Gen.V]
  rw [all_split, StableHlo.after_append, post_patches, pre_arg0]

/-- The embeddings with their mean row. -/
theorem V_embs (c : Dev nD) : (V m c main_v4 : S8x16x256.Idx → Elt F .f32)
    = Cert.Inject.embsExt (m ((c : Thread nD τ).loc main_arg1)) := by
  dsimp only [Gen.V]
  rw [all_split, StableHlo.after_append, post_embs, pre_embs]

/-- The mask, as bf16 zeros and ones. -/
theorem V_mask (c : Dev nD) : (V m c main_v57 : S8x16x1024.Idx → Elt F .bf16)
    = (uitofp .bf16 (Cert.Inject.maskBits (m ((c : Thread nD τ).loc main_arg2))) : FVec F S8x16x1024 .bf16) := by
  dsimp only [Gen.V]
  rw [all_split, StableHlo.after_append, post_mask, pre_boxes]
  rfl

/-- The patch weights, rounded to bf16. -/
theorem V_wp (c : Dev nD) : (V m c main_v59 : S256x256.Idx → Elt F .bf16)
    = truncf .bf16 (m ((c : Thread nD τ).loc main_arg3)) bitsLt_bf16_f32 := by
  dsimp only [Gen.V]
  rw [all_split, StableHlo.after_append, post_wp, pre_arg3]

/-- The embedding weights, rounded to bf16. -/
theorem V_we (c : Dev nD) : (V m c main_v60 : S256x256.Idx → Elt F .bf16)
    = truncf .bf16 (m ((c : Thread nD τ).loc main_arg4)) bitsLt_bf16_f32 := by
  dsimp only [Gen.V]
  rw [all_split, StableHlo.after_append, post_we, pre_arg4]

end Cert.KernelIdeal.Entry

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Payload.lean ====
/-
  The kernel body's stored value at an index, on the extended reals.

  The body handles two batches at a time. With P the two batches' patches [2,1024,256], E their extended embeddings
  [2,16,256], M their mask [2,16,1024] and Wp, We the weights, it stores at (b', hw, o)
      Σ_d P[b',hw,d]·Wp[d,o]  +  (Σ_n M[b',n,hw] · Σ_e E[b',n,e]·We[e,o]) / max (Σ_n M[b',n,hw]·1) 1.
  The two projections are plain matrix products over the batches folded into the rows; the weighted sum and the count
  are products batched over b' that contract the sixteen mask rows; a change of float format is the identity here.
-/
import proofs.«142150_j33165737460139_2_alg».proof.Proof.Gen.KernelIdeal.Skeleton
import proofs.«142150_j33165737460139_2_alg».proof.Proof.LibPlainDot
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Body

open Cert.KernelIdeal Cert.KernelIdeal.Gen Idealize.ShloMosaic Idealize.ShloMosaic.ValueIdx

/-- What the body stores at (b', hw, o), as a function of its five loaded blocks. -/
def blockVal (P : S2x1024x256.Idx → EReal) (Wp : S256x256.Idx → EReal) (E : S2x16x256.Idx → EReal) (We : S256x256.Idx → EReal)
    (M : S2x16x1024.Idx → EReal) (b' : Fin 2) (hw : Fin 1024) (o : Fin 256) : EReal :=
  (∑ d : Fin 256, P (ix3 b' hw d) * Wp (ix2 d o))
    + Ideal.div (∑ n : Fin 16, M (ix3 b' n hw) * ∑ e : Fin 256, E (ix3 b' n e) * We (ix2 e o))
        (max (∑ n : Fin 16, M (ix3 b' n hw) * Ideal.ofBits .bf16 0x3F80#16) (Ideal.ofBits .f32 0x3F800000#32))

/-- The patches' projection: the two batches' rows folded into 2048 rows, multiplied by Wp, unfolded again. -/
theorem proj_apply (x : FVec Ideal S2x1024x256 .f32) (w : FVec Ideal S256x256 .bf16)
    (h1 : S2x1024x256.ShapeCasts S2x1024x256) (h2 : S2x1024x256.ShapeCasts S2048x256) (h3 : S256x256.ShapeCasts S256x256)
    (h4 : S2048x256.ShapeCasts S2x1024x256) (hb : FTy.bits .bf16 < FTy.bits .f32) (b' : Fin 2) (hw : Fin 1024) (o : Fin 256) :
    shapeCast S2x1024x256 (matmul dot_S2048x256_S256x256_S2048x256_1_0_0_1_n_n none
        (truncf .bf16 (shapeCast S2048x256 (shapeCast S2x1024x256 x h1) h2) hb) (shapeCast S256x256 w h3)
        (constant S2048x256 .f32 0x00000000#32)) h4 (ix3 b' hw o)
      = ∑ d : Fin 256, x (ix3 b' hw d) * w (ix2 d o) := by
  have hr : b'.val * 1024 + hw.val < 2048 := by have := b'.isLt; have := hw.isLt; omega
  refine (shapeCast_apply _ _ (ix3 b' hw o) (ix2 (⟨b'.val * 1024 + hw.val, hr⟩ : Fin 2048) o) ?_).trans ?_
  · rw [Shape.rowMajor_val_two, Shape.rowMajor_val_three]; rfl
  refine (congrFun (Cert.Lib.PlainDot.matmul_zero_eq dot_S2048x256_S256x256_S2048x256_1_0_0_1_n_n rfl none _ _) _).trans ?_
  refine Finset.sum_congr rfl fun d _ => congrArg₂ (· * ·) ?_ ?_
  · show shapeCast S2048x256 (shapeCast S2x1024x256 x h1) h2 (ix2 (⟨b'.val * 1024 + hw.val, hr⟩ : Fin 2048) d) = x (ix3 b' hw d)
    rw [shapeCast_self]
    exact shapeCast_apply _ _ _ (ix3 b' hw d) (by rw [Shape.rowMajor_val_three, Shape.rowMajor_val_two]; rfl)
  · show shapeCast S256x256 w h3 (ix2 d o) = w (ix2 d o)
    rw [shapeCast_self]

/-- The embeddings' projection: the two batches' sixteen rows folded into 32 rows, multiplied by We, unfolded again. -/
theorem inj_apply (x : FVec Ideal S2x16x256 .f32) (w : FVec Ideal S256x256 .bf16)
    (h1 : S2x16x256.ShapeCasts S2x16x256) (h2 : S2x16x256.ShapeCasts S32x256) (h3 : S256x256.ShapeCasts S256x256)
    (h4 : S32x256.ShapeCasts S2x16x256) (hb : FTy.bits .bf16 < FTy.bits .f32) (b' : Fin 2) (n : Fin 16) (o : Fin 256) :
    shapeCast S2x16x256 (matmul dot_S32x256_S256x256_S32x256_1_0_0_1_n_n none
        (truncf .bf16 (shapeCast S32x256 (shapeCast S2x16x256 x h1) h2) hb) (shapeCast S256x256 w h3)
        (constant S32x256 .f32 0x00000000#32)) h4 (ix3 b' n o)
      = ∑ d : Fin 256, x (ix3 b' n d) * w (ix2 d o) := by
  have hr : b'.val * 16 + n.val < 32 := by have := b'.isLt; have := n.isLt; omega
  refine (shapeCast_apply _ _ (ix3 b' n o) (ix2 (⟨b'.val * 16 + n.val, hr⟩ : Fin 32) o) ?_).trans ?_
  · rw [Shape.rowMajor_val_two, Shape.rowMajor_val_three]; rfl
  refine (congrFun (Cert.Lib.PlainDot.matmul_zero_eq dot_S32x256_S256x256_S32x256_1_0_0_1_n_n rfl none _ _) _).trans ?_
  refine Finset.sum_congr rfl fun d _ => congrArg₂ (· * ·) ?_ ?_
  · show shapeCast S32x256 (shapeCast S2x16x256 x h1) h2 (ix2 (⟨b'.val * 16 + n.val, hr⟩ : Fin 32) d) = x (ix3 b' n d)
    rw [shapeCast_self]
    exact shapeCast_apply _ _ _ (ix3 b' n d) (by rw [Shape.rowMajor_val_three, Shape.rowMajor_val_two]; rfl)
  · show shapeCast S256x256 w h3 (ix2 d o) = w (ix2 d o)
    rw [shapeCast_self]

/-- The weighted sum's contraction: the batch is b', the contracted axis is the mask row n, the left operand is read at
    (b', n, hw) and the right at (b', n, o). -/
theorem weighted_contr (l : S2x16x1024.Idx → EReal) (r : S2x16x256.Idx → EReal) (b' : Fin 2) (hw : Fin 1024) (o : Fin 256) :
    ∑ q : (dot_S2x16x1024_S2x16x256_S2x1024x256_1_1_2_2_0_0).contr.Idx, l ((dot_S2x16x1024_S2x16x256_S2x1024x256_1_1_2_2_0_0).lhsIdx (ix3 b' hw o) q) * r ((dot_S2x16x1024_S2x16x256_S2x1024x256_1_1_2_2_0_0).rhsIdx (ix3 b' hw o) q)
      = ∑ n : Fin 16, l (ix3 b' n hw) * r (ix3 b' n o) := by
  rw [← Equiv.sum_comp (contrEquiv1 dot_S2x16x1024_S2x16x256_S2x1024x256_1_1_2_2_0_0 16 rfl rfl).symm]
  refine Finset.sum_congr rfl fun n _ => ?_
  have hk := contrEquiv1_symm_val dot_S2x16x1024_S2x16x256_S2x1024x256_1_1_2_2_0_0 16 rfl rfl n
  have el : (dot_S2x16x1024_S2x16x256_S2x1024x256_1_1_2_2_0_0).lhsIdx (ix3 b' hw o) ((contrEquiv1 dot_S2x16x1024_S2x16x256_S2x1024x256_1_1_2_2_0_0 16 rfl rfl).symm n) = ix3 b' n hw :=
    funext fun a => Fin.ext (by
      match a with
      | ⟨0, _⟩ => rfl
      | ⟨1, _⟩ => exact ((dot_S2x16x1024_S2x16x256_S2x1024x256_1_1_2_2_0_0).lhsIdx_val_of_single rfl _ _).trans hk
      | ⟨2, _⟩ => rfl)
  have er : (dot_S2x16x1024_S2x16x256_S2x1024x256_1_1_2_2_0_0).rhsIdx (ix3 b' hw o) ((contrEquiv1 dot_S2x16x1024_S2x16x256_S2x1024x256_1_1_2_2_0_0 16 rfl rfl).symm n) = ix3 b' n o :=
    funext fun a => Fin.ext (by
      match a with
      | ⟨0, _⟩ => rfl
      | ⟨1, _⟩ => exact ((dot_S2x16x1024_S2x16x256_S2x1024x256_1_1_2_2_0_0).rhsIdx_val_of_single rfl _ _).trans hk
      | ⟨2, _⟩ => rfl)
  exact congrArg₂ (· * ·) (congrArg l el) (congrArg r er)

/-- The count's contraction, against a right operand that is one value `c` everywhere. -/
theorem count_contr (l : S2x16x1024.Idx → EReal) (c : EReal) (b' : Fin 2) (hw : Fin 1024) (z : Fin 1) :
    ∑ q : (dot_S2x16x1024_S2x16x1_S2x1024x1_1_1_2_2_0_0).contr.Idx, l ((dot_S2x16x1024_S2x16x1_S2x1024x1_1_1_2_2_0_0).lhsIdx (ix3 b' hw z) q) * c = ∑ n : Fin 16, l (ix3 b' n hw) * c := by
  rw [← Equiv.sum_comp (contrEquiv1 dot_S2x16x1024_S2x16x1_S2x1024x1_1_1_2_2_0_0 16 rfl rfl).symm]
  refine Finset.sum_congr rfl fun n _ => ?_
  have hk := contrEquiv1_symm_val dot_S2x16x1024_S2x16x1_S2x1024x1_1_1_2_2_0_0 16 rfl rfl n
  have el : (dot_S2x16x1024_S2x16x1_S2x1024x1_1_1_2_2_0_0).lhsIdx (ix3 b' hw z) ((contrEquiv1 dot_S2x16x1024_S2x16x1_S2x1024x1_1_1_2_2_0_0 16 rfl rfl).symm n) = ix3 b' n hw :=
    funext fun a => Fin.ext (by
      match a with
      | ⟨0, _⟩ => rfl
      | ⟨1, _⟩ => exact ((dot_S2x16x1024_S2x16x1_S2x1024x1_1_1_2_2_0_0).lhsIdx_val_of_single rfl _ _).trans hk
      | ⟨2, _⟩ => rfl)
  exact congrArg (· * c) (congrArg l el)

/-- The stored value at (b', hw, o). -/
theorem pay_apply (v0 : Vec Ideal S2x1024x256 .f32) (v4 : Vec Ideal S256x256 .bf16) (v8 : Vec Ideal S2x16x256 .f32)
    (v12 : Vec Ideal S256x256 .bf16) (v17 : Vec Ideal S2x16x1024 .bf16) (b' : Fin 2) (hw : Fin 1024) (o : Fin 256) :
    k0_pay1 (F := Ideal) v0 v4 v8 v12 v17 (ix3 b' hw o) = blockVal v0 v4 v8 v12 v17 b' hw o := by
  unfold k0_pay1 blockVal
  refine (addf_apply _ _ _).trans (congrArg₂ (· + ·) (proj_apply v0 v4 _ _ _ _ _ b' hw o) ?_)
  refine (divf_apply _ _ _).trans (congrArg₂ Ideal.div ?_ ?_)
  · refine (Ideal.matmul_constant_zero_apply _ none _ _ _).trans ?_
    refine (weighted_contr _ _ b' hw o).trans ?_
    refine Finset.sum_congr rfl fun n _ => congrArg₂ (· * ·) ?_ (inj_apply v8 v12 _ _ _ _ _ b' n o)
    exact congrFun (shapeCast_self v17 _) _
  · refine (broadcastTo_apply _ _ (ix3 b' hw o) (ix3 b' hw (0 : Fin 1)) fun a => ?_).trans ?_
    · match a with
      | ⟨0, _⟩ => rfl
      | ⟨1, _⟩ => rfl
      | ⟨2, _⟩ => rfl
    refine (maximumf_apply _ _ _).trans (congrArg₂ max ?_ rfl)
    refine (Ideal.matmul_constant_zero_apply _ none _ _ _).trans ?_
    refine (count_contr _ (Ideal.ofBits .bf16 0x3F80#16) b' hw (0 : Fin 1)).trans ?_
    refine Finset.sum_congr rfl fun n _ => congrArg (· * Ideal.ofBits .bf16 0x3F80#16) ?_
    exact congrFun (shapeCast_self v17 _) _

end Cert.KernelIdeal.Body

end
-- ==== Proof.KernelValue.lean ====
/-
  The kernel's result array as one function of the arrays its region finds.

  The grid has four points; point t handles batches 2t and 2t + 1: its blocks of the patches, the mask and the
  extended embeddings are rows 2t, 2t + 1 of those arrays along the batch axis, the two weight matrices are staged
  whole, and the block it writes back is rows 2t, 2t + 1 of the result. So what point t writes is block t of the
  whole-array function `G`: at (b, hw, o), the projection Σ_d P[b,hw,d]·Wp[d,o] plus the mask-weighted sum of the
  embeddings' projections divided by the count clamped below at one. The four blocks tile the result.
-/
import proofs.«142150_j33165737460139_2_alg».proof.Proof.Gen.KernelIdeal.Value
import proofs.«142150_j33165737460139_2_alg».proof.Proof.Payload
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- The result at batch b, pixel hw, output feature o. -/
def gval (P : S8x1024x256.Idx → EReal) (M : S8x16x1024.Idx → EReal) (E : S8x16x256.Idx → EReal) (Wp We : S256x256.Idx → EReal)
    (b : Fin 8) (hw : Fin 1024) (o : Fin 256) : EReal :=
  (∑ d : Fin 256, P (ix3 b hw d) * Wp (ix2 d o))
    + Ideal.div (∑ n : Fin 16, M (ix3 b n hw) * ∑ e : Fin 256, E (ix3 b n e) * We (ix2 e o))
        (max (∑ n : Fin 16, M (ix3 b n hw) * Ideal.ofBits .bf16 0x3F80#16) (Ideal.ofBits .f32 0x3F800000#32))

/-- The whole result array. -/
def G (P : S8x1024x256.Idx → EReal) (M : S8x16x1024.Idx → EReal) (E : S8x16x256.Idx → EReal) (Wp We : S256x256.Idx → EReal) :
    S8x1024x256.Idx → EReal :=
  fun i => gval P M E Wp We (i 0) (i 1) (i 2)

/-- A body run on blocks that are rows `B b'` of the arrays along the batch axis stores rows `B b'` of `G`. -/
theorem block_eq (P : S8x1024x256.Idx → EReal) (M : S8x16x1024.Idx → EReal) (E : S8x16x256.Idx → EReal) (Wp We : S256x256.Idx → EReal)
    (x0 : Vec Ideal S2x1024x256 .f32) (x1 : Vec Ideal S2x16x1024 .bf16) (x2 : Vec Ideal S2x16x256 .f32)
    (x3 x4 : Vec Ideal S256x256 .bf16) (B : Fin 2 → Fin 8)
    (h0 : ∀ (b' : Fin 2) (hw : Fin 1024) (d : Fin 256), x0 (ix3 b' hw d) = P (ix3 (B b') hw d))
    (h1 : ∀ (b' : Fin 2) (n : Fin 16) (hw : Fin 1024), x1 (ix3 b' n hw) = M (ix3 (B b') n hw))
    (h2 : ∀ (b' : Fin 2) (n : Fin 16) (e : Fin 256), x2 (ix3 b' n e) = E (ix3 (B b') n e))
    (h3 : ∀ (d o : Fin 256), x3 (ix2 d o) = Wp (ix2 d o)) (h4 : ∀ (e o : Fin 256), x4 (ix2 e o) = We (ix2 e o))
    (b' : Fin 2) (hw : Fin 1024) (o : Fin 256) :
    k0_pay1 (F := Ideal) x0 x3 x2 x4 x1 (ix3 b' hw o) = gval P M E Wp We (B b') hw o := by
  rw [Body.pay_apply]
  unfold Body.blockVal gval
  simp only [h0, h1, h2, h3, h4]

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the four points: the batch-blocked windows sit at block (t, 0, 0), the
    weights at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-- Point t's block of the patches is rows 2t, 2t + 1. -/
theorem iblk0_apply (c : Dev nD) (t : Fin cfg0.N) (b' : Fin 2) (hw : Fin 1024) (d : Fin 256) (k : S8x1024x256.Idx)
    (hk0 : (k 0).val = 2 * t.val + b'.val) (hk1 : (k 1).val = hw.val) (hk2 : (k 2).val = d.val) :
    (iblk m c 0 t : Vec Ideal S2x1024x256 .f32) (ix3 b' hw d) = (V m c main_v58 : S8x1024x256.Idx → EReal) k := by
  obtain ⟨⟨e0, e1, e2⟩, -⟩ := idx_facts t
  unfold iblk
  rw [View.read_apply]
  show V m c main_v58 _ = V m c main_v58 _
  congr 1
  funext a
  apply Fin.ext
  match a with
  | ⟨0, _⟩ => show win0_0.index t 0 * 2 + 1 * b'.val = (k 0).val; rw [e0, hk0]; omega
  | ⟨1, _⟩ => show win0_0.index t 1 * 1024 + 1 * hw.val = (k 1).val; rw [e1, hk1]; omega
  | ⟨2, _⟩ => show win0_0.index t 2 * 256 + 1 * d.val = (k 2).val; rw [e2, hk2]; omega

/-- Point t's block of the mask is rows 2t, 2t + 1. -/
theorem iblk1_apply (c : Dev nD) (t : Fin cfg0.N) (b' : Fin 2) (n : Fin 16) (hw : Fin 1024) (k : S8x16x1024.Idx)
    (hk0 : (k 0).val = 2 * t.val + b'.val) (hk1 : (k 1).val = n.val) (hk2 : (k 2).val = hw.val) :
    (iblk m c 1 t : Vec Ideal S2x16x1024 .bf16) (ix3 b' n hw) = (V m c main_v57 : S8x16x1024.Idx → EReal) k := by
  obtain ⟨-, ⟨e0, e1, e2⟩, -⟩ := idx_facts t
  unfold iblk
  rw [View.read_apply]
  show V m c main_v57 _ = V m c main_v57 _
  congr 1
  funext a
  apply Fin.ext
  match a with
  | ⟨0, _⟩ => show win0_1.index t 0 * 2 + 1 * b'.val = (k 0).val; rw [e0, hk0]; omega
  | ⟨1, _⟩ => show win0_1.index t 1 * 16 + 1 * n.val = (k 1).val; rw [e1, hk1]; omega
  | ⟨2, _⟩ => show win0_1.index t 2 * 1024 + 1 * hw.val = (k 2).val; rw [e2, hk2]; omega

/-- Point t's block of the extended embeddings is rows 2t, 2t + 1. -/
theorem iblk2_apply (c : Dev nD) (t : Fin cfg0.N) (b' : Fin 2) (n : Fin 16) (e : Fin 256) (k : S8x16x256.Idx)
    (hk0 : (k 0).val = 2 * t.val + b'.val) (hk1 : (k 1).val = n.val) (hk2 : (k 2).val = e.val) :
    (iblk m c 2 t : Vec Ideal S2x16x256 .f32) (ix3 b' n e) = (V m c main_v4 : S8x16x256.Idx → EReal) k := by
  obtain ⟨-, -, ⟨e0, e1, e2⟩, -⟩ := idx_facts t
  unfold iblk
  rw [View.read_apply]
  show V m c main_v4 _ = V m c main_v4 _
  congr 1
  funext a
  apply Fin.ext
  match a with
  | ⟨0, _⟩ => show win0_2.index t 0 * 2 + 1 * b'.val = (k 0).val; rw [e0, hk0]; omega
  | ⟨1, _⟩ => show win0_2.index t 1 * 16 + 1 * n.val = (k 1).val; rw [e1, hk1]; omega
  | ⟨2, _⟩ => show win0_2.index t 2 * 256 + 1 * e.val = (k 2).val; rw [e2, hk2]; omega

/-- Every point stages the patch weights whole. -/
theorem iblk3_apply (c : Dev nD) (t : Fin cfg0.N) (d o : Fin 256) :
    (iblk m c 3 t : Vec Ideal S256x256 .bf16) (ix2 d o) = (V m c main_v59 : S256x256.Idx → EReal) (ix2 d o) := by
  obtain ⟨-, -, -, ⟨e0, e1⟩, -⟩ := idx_facts t
  unfold iblk
  rw [View.read_apply]
  show V m c main_v59 _ = V m c main_v59 _
  congr 1
  funext a
  apply Fin.ext
  match a with
  | ⟨0, _⟩ => show win0_3.index t 0 * 256 + 1 * d.val = d.val; rw [e0]; omega
  | ⟨1, _⟩ => show win0_3.index t 1 * 256 + 1 * o.val = o.val; rw [e1]; omega

/-- Every point stages the embedding weights whole. -/
theorem iblk4_apply (c : Dev nD) (t : Fin cfg0.N) (d o : Fin 256) :
    (iblk m c 4 t : Vec Ideal S256x256 .bf16) (ix2 d o) = (V m c main_v60 : S256x256.Idx → EReal) (ix2 d o) := by
  obtain ⟨-, -, -, -, ⟨e0, e1⟩, -⟩ := idx_facts t
  unfold iblk
  rw [View.read_apply]
  show V m c main_v60 _ = V m c main_v60 _
  congr 1
  funext a
  apply Fin.ext
  match a with
  | ⟨0, _⟩ => show win0_4.index t 0 * 256 + 1 * d.val = d.val; rw [e0]; omega
  | ⟨1, _⟩ => show win0_4.index t 1 * 256 + 1 * o.val = o.val; rw [e1]; omega

/-- What point t writes back is block t of `G` of the arrays as the region finds them. -/
theorem flushed_eq (c : Dev nD) (t : Fin cfg0.N) :
    (dats m 0 c).flushed 5 t = ((cfg0.win 5).blk t).view.read (Elt Ideal)
      (G (V m c main_v58) (V m c main_v57) (V m c main_v4) (V m c main_v59) (V m c main_v60)) := by
  have hN : cfg0.N = 4 := N_0
  have ht : t.val < 4 := hN ▸ t.isLt
  obtain ⟨-, -, -, -, -, ⟨e0, e1, e2⟩⟩ := idx_facts t
  rw [flushed5]
  unfold out0_5
  rw [View.canon_unit_zero hz3]
  simp only [View.ld_unit_zero (S := S2x1024x256) hz3, View.ld_unit_zero (S := S256x256) hz2,
    View.ld_unit_zero (S := S2x16x256) hz3, View.ld_unit_zero (S := S2x16x1024) hz3]
  funext j
  obtain ⟨b', hw, o, rfl⟩ : ∃ (b' : Fin 2) (hw : Fin 1024) (o : Fin 256), j = ix3 b' hw o := ⟨j 0, j 1, j 2, eq_ix3 j⟩
  have hB : ∀ b' : Fin 2, 2 * t.val + b'.val < 8 := fun b' => by have := b'.isLt; omega
  show k0_pay1 (F := Ideal) (iblk m c 0 t) (iblk m c 3 t) (iblk m c 2 t) (iblk m c 4 t) (iblk m c 1 t) (ix3 b' hw o)
      = gval (V m c main_v58) (V m c main_v57) (V m c main_v4) (V m c main_v59) (V m c main_v60)
          (((cfg0.win 5).blk t).view.emb (ix3 b' hw o) 0) (((cfg0.win 5).blk t).view.emb (ix3 b' hw o) 1)
          (((cfg0.win 5).blk t).view.emb (ix3 b' hw o) 2)
  have q0 : (((cfg0.win 5).blk t).view.emb (ix3 b' hw o) 0 : Fin 8) = (⟨2 * t.val + b'.val, hB b'⟩ : Fin 8) :=
    Fin.ext (by show win0_5.index t 0 * 2 + 1 * b'.val = 2 * t.val + b'.val; rw [e0]; omega)
  have q1 : (((cfg0.win 5).blk t).view.emb (ix3 b' hw o) 1 : Fin 1024) = hw :=
    Fin.ext (by show win0_5.index t 1 * 1024 + 1 * hw.val = hw.val; rw [e1]; omega)
  have q2 : (((cfg0.win 5).blk t).view.emb (ix3 b' hw o) 2 : Fin 256) = o :=
    Fin.ext (by show win0_5.index t 2 * 256 + 1 * o.val = o.val; rw [e2]; omega)
  rw [q0, q1, q2]
  exact block_eq (V m c main_v58) (V m c main_v57) (V m c main_v4) (V m c main_v59) (V m c main_v60)
    (iblk m c 0 t) (iblk m c 1 t) (iblk m c 2 t) (iblk m c 3 t) (iblk m c 4 t) (fun b' => ⟨2 * t.val + b'.val, hB b'⟩)
    (fun b' hw d => iblk0_apply m c t b' hw d _ rfl rfl rfl)
    (fun b' n hw => iblk1_apply m c t b' n hw _ rfl rfl rfl)
    (fun b' n e => iblk2_apply m c t b' n e _ rfl rfl rfl)
    (fun d o => iblk3_apply m c t d o) (fun e o => iblk4_apply m c t e o) b' hw o

/-- An index of the result is in point t's block iff each coordinate is in the block's range on its axis. -/
theorem mem_blk (t : Fin cfg0.N) (i : S8x1024x256.Idx) :
    i ∈ ((cfg0.win 5).blk t).view.set ↔ ∀ a : Fin 3, win0_5.index t a * S2x1024x256.size a ≤ (i a).val
      ∧ (i a).val < win0_5.index t a * S2x1024x256.size a + S2x1024x256.size a := by
  show i ∈ ((View.whole main_v61).slice (win0_5.rect t)).set ↔ _
  rw [View.set_slice_whole, Rect.mem_set_unit]
  exact Iff.rfl

/-- The four blocks cover the result: batch b is in the block of point b / 2. -/
theorem cover (i : S8x1024x256.Idx) :
    ∃ t : Fin cfg0.N, (cfg0.win 5).flush t = true ∧ i ∈ ((cfg0.win 5).blk t).view.set := by
  have hN : cfg0.N = 4 := N_0
  have h0 : (i 0).val < 8 := (i 0).isLt
  have h1 : (i 1).val < 1024 := (i 1).isLt
  have h2 : (i 2).val < 256 := (i 2).isLt
  obtain ⟨t, ht⟩ : ∃ t : Fin cfg0.N, t.val = (i 0).val / 2 := ⟨⟨(i 0).val / 2, by rw [hN]; omega⟩, rfl⟩
  obtain ⟨-, -, -, -, -, ⟨e0, e1, e2⟩⟩ := idx_facts t
  refine ⟨t, flush0_5 t, ?_⟩
  rw [mem_blk]
  intro a
  match a with
  | ⟨0, _⟩ => show win0_5.index t 0 * 2 ≤ (i 0).val ∧ (i 0).val < win0_5.index t 0 * 2 + 2; rw [e0]; omega
  | ⟨1, _⟩ => show win0_5.index t 1 * 1024 ≤ (i 1).val ∧ (i 1).val < win0_5.index t 1 * 1024 + 1024; rw [e1]; omega
  | ⟨2, _⟩ => show win0_5.index t 2 * 256 ≤ (i 2).val ∧ (i 2).val < win0_5.index t 2 * 256 + 256; rw [e2]; omega

/-- So the result array ends holding `G` of the arrays the region found. -/
theorem final (c : Dev nD) : (dats m 0 c).arrAt 5 cfg0.N
    = G (V m c main_v58) (V m c main_v57) (V m c main_v4) (V m c main_v59) (V m c main_v60) :=
  (dats m 0 c).arrAt_eq_of_cover 5 (G (V m c main_v58) (V m c main_v57) (V m c main_v4) (V m c main_v59) (V m c main_v60))
    (fun t _ => flushed_eq m c t) cover

/-- The kernel's run, read: the result at `G`, the arguments unchanged. -/
theorem run : θ_run defs (onTc (τ := τ) (main (F := Ideal))) ⟨m, fun _ => 0, ρ⟩ fun r => ∀ c : Dev nD,
      r.2.mem ((c : Thread nD τ).loc main_v61)
          = G (V m c main_v58) (V m c main_v57) (V m c main_v4) (V m c main_v59) (V m c main_v60)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefRead.lean ====
/-
  The reference's result, and the extended embeddings, read at an index on the extended reals.

  At (b, hw, o) the reference's result is the quotient of
      0 + Σ_n (proj + mf_n · inj_n) · mf_n      by      0 + Σ_n mf_n,
  where proj = Σ_d patches'[b,hw,d]·Wp[d,o] (patches' the patches recast to [8,1024,256]), inj_n = Σ_e embs'[b,n,e]·We[e,o]
  (embs' the embeddings with their mean row) and mf_n is mask bit (b, n, hw) read as the real 0 or 1. The broadcasts
  only repeat values along new axes; the two sums over the sixteen rows are the host's reductions along axis 1.
  The extended embeddings at row n < 15 are the embeddings, and at row 15 the sum of the fifteen rows divided by 15.
-/
import proofs.«142150_j33165737460139_2_alg».proof.Proof.Stages
import Idealize.ShloMosaic.PureOps.Ideal.Laws

noncomputable section

namespace Cert.Inject

open Cert.ReferenceIdeal Cert.ReferenceIdeal.Gen Idealize.ShloMosaic Idealize.ShloMosaic.ValueIdx

/-! ## Broadcasts along new axes -/

variable {α : Type}

theorem bproj_apply (x : S8x1024x256.Idx → α) (b : Fin 8) (n : Fin 16) (hw : Fin 1024) (o : Fin 256) :
    broadcastInDim S8x16x1024x256 ![0, 1, 2, 3] bcast_S8x1x1024x256_S8x16x1024x256_0_1_2_3
      (broadcastInDim S8x1x1024x256 ![0, 2, 3] bcast_S8x1024x256_S8x1x1024x256_0_2_3 x) (ix4 b n hw o) = x (ix3 b hw o) := by
  refine (broadcastInDim_apply _ _ _ _ (ix4 b (0 : Fin 1) hw o) fun a => ?_).trans ?_
  · match a with
    | ⟨0, _⟩ => rfl
    | ⟨1, _⟩ => rfl
    | ⟨2, _⟩ => rfl
    | ⟨3, _⟩ => rfl
  refine broadcastInDim_apply _ _ _ _ (ix3 b hw o) fun a => ?_
  match a with
  | ⟨0, _⟩ => rfl
  | ⟨1, _⟩ => rfl
  | ⟨2, _⟩ => rfl

theorem bmask_apply (x : S8x16x1024.Idx → α) (b : Fin 8) (n : Fin 16) (hw : Fin 1024) (o : Fin 256) :
    broadcastInDim S8x16x1024x256 ![0, 1, 2, 3] bcast_S8x16x1024x1_S8x16x1024x256_0_1_2_3
      (broadcastInDim S8x16x1024x1 ![0, 1, 2] bcast_S8x16x1024_S8x16x1024x1_0_1_2 x) (ix4 b n hw o) = x (ix3 b n hw) := by
  refine (broadcastInDim_apply _ _ _ _ (ix4 b n hw (0 : Fin 1)) fun a => ?_).trans ?_
  · match a with
    | ⟨0, _⟩ => rfl
    | ⟨1, _⟩ => rfl
    | ⟨2, _⟩ => rfl
    | ⟨3, _⟩ => rfl
  refine broadcastInDim_apply _ _ _ _ (ix3 b n hw) fun a => ?_
  match a with
  | ⟨0, _⟩ => rfl
  | ⟨1, _⟩ => rfl
  | ⟨2, _⟩ => rfl

theorem binj_apply (x : S8x16x256.Idx → α) (b : Fin 8) (n : Fin 16) (hw : Fin 1024) (o : Fin 256) :
    broadcastInDim S8x16x1024x256 ![0, 1, 2, 3] bcast_S8x16x1x256_S8x16x1024x256_0_1_2_3
      (broadcastInDim S8x16x1x256 ![0, 1, 3] bcast_S8x16x256_S8x16x1x256_0_1_3 x) (ix4 b n hw o) = x (ix3 b n o) := by
  refine (broadcastInDim_apply _ _ _ _ (ix4 b n (0 : Fin 1) o) fun a => ?_).trans ?_
  · match a with
    | ⟨0, _⟩ => rfl
    | ⟨1, _⟩ => rfl
    | ⟨2, _⟩ => rfl
    | ⟨3, _⟩ => rfl
  refine broadcastInDim_apply _ _ _ _ (ix3 b n o) fun a => ?_
  match a with
  | ⟨0, _⟩ => rfl
  | ⟨1, _⟩ => rfl
  | ⟨2, _⟩ => rfl

theorem bcnt_apply (x : S8x1024.Idx → α) (b : Fin 8) (hw : Fin 1024) (o : Fin 256) :
    broadcastInDim S8x1024x256 ![0, 1, 2] bcast_S8x1024x1_S8x1024x256_0_1_2
      (broadcastInDim S8x1024x1 ![0, 1] bcast_S8x1024_S8x1024x1_0_1 x) (ix3 b hw o) = x (ix2 b hw) := by
  refine (broadcastInDim_apply _ _ _ _ (ix3 b hw (0 : Fin 1)) fun a => ?_).trans ?_
  · match a with
    | ⟨0, _⟩ => rfl
    | ⟨1, _⟩ => rfl
    | ⟨2, _⟩ => rfl
  refine broadcastInDim_apply _ _ _ _ (ix2 b hw) fun a => ?_
  match a with
  | ⟨0, _⟩ => rfl
  | ⟨1, _⟩ => rfl

/-! ## The two projections' contractions -/

/-- The patches' projection contracts the feature axis: the left operand is read at (b, hw, d), the right at (d, o). -/
theorem proj_contr (l : S8x1024x256.Idx → EReal) (r : S256x256.Idx → EReal) (b : Fin 8) (hw : Fin 1024) (o : Fin 256) :
    ∑ q : (dot_S8x1024x256_S256x256_S8x1024x256_2_0_01_1_n_n).contr.Idx, l ((dot_S8x1024x256_S256x256_S8x1024x256_2_0_01_1_n_n).lhsIdx (ix3 b hw o) q) * r ((dot_S8x1024x256_S256x256_S8x1024x256_2_0_01_1_n_n).rhsIdx (ix3 b hw o) q)
      = ∑ d : Fin 256, l (ix3 b hw d) * r (ix2 d o) := by
  rw [← Equiv.sum_comp (contrEquiv1 dot_S8x1024x256_S256x256_S8x1024x256_2_0_01_1_n_n 256 rfl rfl).symm]
  refine Finset.sum_congr rfl fun d _ => ?_
  have hk := contrEquiv1_symm_val dot_S8x1024x256_S256x256_S8x1024x256_2_0_01_1_n_n 256 rfl rfl d
  have el : (dot_S8x1024x256_S256x256_S8x1024x256_2_0_01_1_n_n).lhsIdx (ix3 b hw o) ((contrEquiv1 dot_S8x1024x256_S256x256_S8x1024x256_2_0_01_1_n_n 256 rfl rfl).symm d) = ix3 b hw d :=
    funext fun a => Fin.ext (by
      match a with
      | ⟨0, _⟩ => rfl
      | ⟨1, _⟩ => rfl
      | ⟨2, _⟩ => exact ((dot_S8x1024x256_S256x256_S8x1024x256_2_0_01_1_n_n).lhsIdx_val_of_single rfl _ _).trans hk)
  have er : (dot_S8x1024x256_S256x256_S8x1024x256_2_0_01_1_n_n).rhsIdx (ix3 b hw o) ((contrEquiv1 dot_S8x1024x256_S256x256_S8x1024x256_2_0_01_1_n_n 256 rfl rfl).symm d) = ix2 d o :=
    funext fun a => Fin.ext (by
      match a with
      | ⟨0, _⟩ => exact ((dot_S8x1024x256_S256x256_S8x1024x256_2_0_01_1_n_n).rhsIdx_val_of_single rfl _ _).trans hk
      | ⟨1, _⟩ => rfl)
  exact congrArg₂ (· * ·) (congrArg l el) (congrArg r er)

/-- The embeddings' projection contracts the feature axis: the left operand is read at (b, n, e), the right at (e, o). -/
theorem inj_contr (l : S8x16x256.Idx → EReal) (r : S256x256.Idx → EReal) (b : Fin 8) (n : Fin 16) (o : Fin 256) :
    ∑ q : (dot_S8x16x256_S256x256_S8x16x256_2_0_01_1_n_n).contr.Idx, l ((dot_S8x16x256_S256x256_S8x16x256_2_0_01_1_n_n).lhsIdx (ix3 b n o) q) * r ((dot_S8x16x256_S256x256_S8x16x256_2_0_01_1_n_n).rhsIdx (ix3 b n o) q)
      = ∑ d : Fin 256, l (ix3 b n d) * r (ix2 d o) := by
  rw [← Equiv.sum_comp (contrEquiv1 dot_S8x16x256_S256x256_S8x16x256_2_0_01_1_n_n 256 rfl rfl).symm]
  refine Finset.sum_congr rfl fun d _ => ?_
  have hk := contrEquiv1_symm_val dot_S8x16x256_S256x256_S8x16x256_2_0_01_1_n_n 256 rfl rfl d
  have el : (dot_S8x16x256_S256x256_S8x16x256_2_0_01_1_n_n).lhsIdx (ix3 b n o) ((contrEquiv1 dot_S8x16x256_S256x256_S8x16x256_2_0_01_1_n_n 256 rfl rfl).symm d) = ix3 b n d :=
    funext fun a => Fin.ext (by
      match a with
      | ⟨0, _⟩ => rfl
      | ⟨1, _⟩ => rfl
      | ⟨2, _⟩ => exact ((dot_S8x16x256_S256x256_S8x16x256_2_0_01_1_n_n).lhsIdx_val_of_single rfl _ _).trans hk)
  have er : (dot_S8x16x256_S256x256_S8x16x256_2_0_01_1_n_n).rhsIdx (ix3 b n o) ((contrEquiv1 dot_S8x16x256_S256x256_S8x16x256_2_0_01_1_n_n 256 rfl rfl).symm d) = ix2 d o :=
    funext fun a => Fin.ext (by
      match a with
      | ⟨0, _⟩ => exact ((dot_S8x16x256_S256x256_S8x16x256_2_0_01_1_n_n).rhsIdx_val_of_single rfl _ _).trans hk
      | ⟨1, _⟩ => rfl)
  exact congrArg₂ (· * ·) (congrArg l el) (congrArg r er)

/-! ## The reductions along the sixteen rows -/

theorem red4 : S8x16x1024x256.Reduces [1] S8x1024x256 := by decide
theorem red3 : S8x16x1024.Reduces [1] S8x1024 := by decide
theorem red15 : S8x15x256.Reduces [1] S8x256 := by decide

theorem red4_lift (b : Fin 8) (hw : Fin 1024) (o : Fin 256) (n : Fin 16) : red4.lift (ix3 b hw o) n = ix4 b n hw o :=
  funext fun a => Fin.ext (by
    match a with
    | ⟨0, _⟩ => rfl
    | ⟨1, _⟩ => rfl
    | ⟨2, _⟩ => rfl
    | ⟨3, _⟩ => rfl)
theorem red3_lift (b : Fin 8) (hw : Fin 1024) (n : Fin 16) : red3.lift (ix2 b hw) n = ix3 b n hw :=
  funext fun a => Fin.ext (by
    match a with
    | ⟨0, _⟩ => rfl
    | ⟨1, _⟩ => rfl
    | ⟨2, _⟩ => rfl)
theorem red15_lift (b : Fin 8) (e : Fin 256) (k : Fin 15) : red15.lift (ix2 b e) k = ix3 b k e :=
  funext fun a => Fin.ext (by
    match a with
    | ⟨0, _⟩ => rfl
    | ⟨1, _⟩ => rfl
    | ⟨2, _⟩ => rfl)

/-! ## The reference's result at an index -/

/-- The projected patches at (b, hw, o). -/
def projAt (p : FVec Ideal S8x32x32x256 .f32) (wp : FVec Ideal S256x256 .f32) (b : Fin 8) (hw : Fin 1024) (o : Fin 256) : EReal :=
  ∑ d : Fin 256, shapeCast S8x1024x256 p shapeCasts_S8x32x32x256_S8x1024x256 (ix3 b hw d) * wp (ix2 d o)

/-- The projected extended embeddings at (b, n, o). -/
def injAt (e : FVec Ideal S8x15x256 .f32) (we : FVec Ideal S256x256 .f32) (b : Fin 8) (n : Fin 16) (o : Fin 256) : EReal :=
  ∑ k : Fin 256, embsExt e (ix3 b n k) * we (ix2 k o)

/-- Mask bit (b, n, hw) as the real 0 or 1. -/
def mfAt (l : IVec S8x15x4 32) (b : Fin 8) (n : Fin 16) (hw : Fin 1024) : EReal :=
  (((maskBits l (ix3 b n hw)).toNat : ℝ) : EReal)

theorem refOut_apply (p : FVec Ideal S8x32x32x256 .f32) (e : FVec Ideal S8x15x256 .f32) (l : IVec S8x15x4 32)
    (wp we : FVec Ideal S256x256 .f32) (b : Fin 8) (hw : Fin 1024) (o : Fin 256) :
    refOut (F := Ideal) p e l wp we (ix3 b hw o)
      = Ideal.div
          (Ideal.ofBits .f32 0x00000000#32
            + ∑ n : Fin 16, (projAt p wp b hw o + mfAt l b n hw * injAt e we b n o) * mfAt l b n hw)
          (Ideal.ofBits .f32 0x00000000#32 + ∑ n : Fin 16, mfAt l b n hw) := by
  unfold refOut refTail
  refine (hostDivf_apply _ _ _).trans (congrArg₂ Ideal.div ?_ ?_)
  · refine (hostReduceAdd_apply _ _ _ _ _).trans ?_
    refine (Ideal.hostReduceAdd_single _ red4 _ _ _).trans (congrArg₂ (· + ·) rfl ?_)
    refine Finset.sum_congr rfl fun n _ => ?_
    rw [red4_lift b hw o n]
    refine (mulf_apply _ _ _).trans (congrArg₂ (· * ·) ?_ ?_)
    · refine (addf_apply _ _ _).trans (congrArg₂ (· + ·) ?_ ?_)
      · refine (bproj_apply _ b n hw o).trans ?_
        refine (Ideal.dotGeneral_apply _ none _ _ _ _).trans ?_
        exact proj_contr _ _ b hw o
      · refine (mulf_apply _ _ _).trans (congrArg₂ (· * ·) ?_ ?_)
        · exact bmask_apply _ b n hw o
        · refine (binj_apply _ b n hw o).trans ?_
          refine (Ideal.dotGeneral_apply _ none _ _ _ _).trans ?_
          exact inj_contr _ _ b n o
    · exact bmask_apply _ b n hw o
  · refine (bcnt_apply _ b hw o).trans ?_
    refine (hostReduceAdd_apply _ _ _ _ _).trans ?_
    refine (Ideal.hostReduceAdd_single _ red3 _ _ _).trans (congrArg₂ (· + ·) rfl ?_)
    refine Finset.sum_congr rfl fun n _ => ?_
    rw [red3_lift b hw n]
    rfl

/-! ## The extended embeddings at an index -/

/-- The f32 pattern `0x41700000` is fifteen. -/
theorem ofBits_fifteen : Ideal.ofBits .f32 0x41700000#32 = ((15 : ℝ) : EReal) := by
  simp [Ideal.ofBits, Ideal.ieee, -EReal.coe_mul]; norm_num

/-- Rows 0 … 14 are the embeddings. -/
theorem embsExt_lt (e : FVec Ideal S8x15x256 .f32) (b : Fin 8) (n : Fin 16) (hn : n.val < 15) (k : Fin 256) :
    embsExt e (ix3 b n k) = e (ix3 b (⟨n.val, hn⟩ : Fin 15) k) := by
  unfold embsExt
  refine concatenate_pair_apply_left (t := S8x16x256) (s₁ := S8x15x256) (s₂ := S8x1x256) (1 : Fin 3) _ _ _ (ix3 b n k) rfl
    (ix3 b (⟨n.val, hn⟩ : Fin 15) k) fun a => ?_
  match a with
  | ⟨0, _⟩ => rfl
  | ⟨1, _⟩ => rfl
  | ⟨2, _⟩ => rfl

/-- Row 15 is the mean: the sum of the fifteen rows, from zero, divided by fifteen. -/
theorem embsExt_last (e : FVec Ideal S8x15x256 .f32) (b : Fin 8) (k : Fin 256) :
    embsExt e (ix3 b (15 : Fin 16) k)
      = Ideal.div (Ideal.ofBits .f32 0x00000000#32 + ∑ j : Fin 15, e (ix3 b j k)) (Ideal.ofBits .f32 0x41700000#32) := by
  unfold embsExt
  refine (concatenate_pair_apply_right (t := S8x16x256) (s₁ := S8x15x256) (s₂ := S8x1x256) (1 : Fin 3) _ _ _
    (ix3 b (15 : Fin 16) k) rfl rfl (ix3 b (0 : Fin 1) k) (fun a ha => ?_) ?_).trans ?_
  · match a with
    | ⟨0, _⟩ => rfl
    | ⟨1, _⟩ => exact absurd rfl ha
    | ⟨2, _⟩ => rfl
  · rfl
  refine (hostDivf_apply _ _ _).trans (congrArg₂ Ideal.div ?_ ?_)
  · refine (broadcastInDim_apply _ _ _ _ (ix2 b k) fun a => ?_).trans ?_
    · match a with
      | ⟨0, _⟩ => rfl
      | ⟨1, _⟩ => rfl
    refine (hostReduceAdd_apply _ _ _ _ _).trans ?_
    refine (Ideal.hostReduceAdd_single _ red15 _ _ _).trans (congrArg₂ (· + ·) rfl ?_)
    refine Finset.sum_congr rfl fun j _ => ?_
    rw [red15_lift b k j]
  · exact broadcastInDim_scalar_apply _ _ _

end Cert.Inject

end
-- ==== Proof.Algebra.lean ====
/-
  The masked mean over rows, on the reals and on the extended reals.

  For finitely many rows n with a real projection p, real injections w n and mask values μ n ∈ {0, 1}, of which at
  least one (row n₀) is 1: the mean over the masked rows of p + μ n · w n, weighted again by the mask,
      (Σ_n (p + μ n · w n) · μ n) / (Σ_n μ n),
  is p + (Σ_n μ n · w n) / max (Σ_n μ n) 1. The law uses μ n · μ n = μ n, distributivity and a divisor that is at
  least 1 — so it needs p and the w n finite, and it is stated for reals read as extended reals.
-/
import Mathlib
import Idealize.ShloMosaic.PureOps.Ideal

namespace Cert.Inject.Algebra

open Idealize.ShloMosaic

/-- The coercion of the reals into the extended reals commutes with finite sums. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The masked mean: both spellings are p + W / c with W = Σ μ·w and c = Σ μ ≥ 1. -/
theorem masked_mean {ι : Type*} [Fintype ι] (n₀ : ι) (p : ℝ) (w μ : ι → ℝ)
    (hμ : ∀ n, μ n = 0 ∨ μ n = 1) (h₀ : μ n₀ = 1) :
    Ideal.div (0 + ∑ n, ((p : EReal) + (μ n : EReal) * (w n : EReal)) * (μ n : EReal)) (0 + ∑ n, (μ n : EReal))
      = (p : EReal) + Ideal.div (∑ n, (μ n : EReal) * (w n : EReal)) (max (∑ n, (μ n : EReal) * 1) 1) := by
  have hc1 : (1 : ℝ) ≤ ∑ n, μ n := by
    calc (1 : ℝ) = μ n₀ := h₀.symm
      _ ≤ ∑ n, μ n := Finset.single_le_sum (f := μ)
          (fun n _ => by rcases hμ n with h | h <;> rw [h] <;> norm_num) (Finset.mem_univ n₀)
  have hc0 : (∑ n, μ n) ≠ 0 := by linarith
  have e1 : ∀ n, ((p : EReal) + Real.toEReal (μ n * w n)) * (μ n : EReal) = Real.toEReal ((p + μ n * w n) * μ n) :=
    fun n => by rw [EReal.coe_mul (p + μ n * w n) (μ n), EReal.coe_add p (μ n * w n)]
  have e2 : ∀ n, (μ n : EReal) * (w n : EReal) = Real.toEReal (μ n * w n) := fun n => (EReal.coe_mul _ _).symm
  have e3 : ∀ n, (μ n : EReal) * 1 = ((μ n : ℝ) : EReal) := fun n => mul_one _
  simp only [e2, e1, e3, coe_sum, zero_add]
  rw [show max (((∑ n, μ n : ℝ)) : EReal) 1 = ((∑ n, μ n : ℝ) : EReal) from max_eq_left (by exact_mod_cast hc1)]
  rw [Ideal.div_coe hc0, Ideal.div_coe hc0, ← EReal.coe_mul, ← EReal.coe_mul, ← EReal.coe_add]
  refine congrArg _ ?_
  have hsq : ∀ n, (p + μ n * w n) * μ n = p * μ n + μ n * w n := fun n => by
    rcases hμ n with h | h <;> rw [h] <;> ring
  simp only [hsq, Finset.sum_add_distrib, ← Finset.mul_sum]
  field_simp

end Cert.Inject.Algebra
-- ==== Proof.Bridge.lean ====
/-
  The kernel's array is the reference's result.

  At every (b, hw, o), with proj the projected patches, inj_n the projected extended embeddings and mf_n the mask bits
  read as 0 or 1, the kernel's array holds proj + (Σ_n mf_n·inj_n) / max (Σ_n mf_n·1) 1 and the reference's result is
  (0 + Σ_n (proj + mf_n·inj_n)·mf_n) / (0 + Σ_n mf_n). Under the precondition proj and the inj_n are reals (finite sums
  of products of reals; the mean row is a finite sum divided by fifteen), the mask's sixteenth row is all ones, and the
  masked-mean law makes the two equal.
-/
import proofs.«142150_j33165737460139_2_alg».proof.Proof.KernelValue
import proofs.«142150_j33165737460139_2_alg».proof.Proof.RefRead
import proofs.«142150_j33165737460139_2_alg».proof.Proof.Algebra

noncomputable section

namespace Cert.Inject.Bridge

open Cert.ReferenceIdeal Cert.ReferenceIdeal.Gen Idealize.ShloMosaic Idealize.ShloMosaic.ValueIdx Cert.Inject

/-- A finite sum of products of reals is a real. -/
theorem sum_mul_real {ι : Type} [Fintype ι] (a b : ι → EReal) (ha : ∀ i, ∃ r : ℝ, a i = (r : EReal))
    (hb : ∀ i, ∃ r : ℝ, b i = (r : EReal)) : ∃ r : ℝ, ∑ i, a i * b i = (r : EReal) := by
  choose ar har using ha
  choose br hbr using hb
  exact ⟨∑ i, ar i * br i, by simp only [har, hbr, ← EReal.coe_mul, Algebra.coe_sum]⟩

/-- The extended embeddings of real embeddings are real: a row of the embeddings, or fifteen of them added and divided
    by fifteen. -/
theorem embsExt_real (e : FVec Ideal S8x15x256 .f32) (he : ∀ i, ∃ r : ℝ, e i = (r : EReal)) (b : Fin 8) (n : Fin 16) (k : Fin 256) :
    ∃ r : ℝ, embsExt e (ix3 b n k) = (r : EReal) := by
  by_cases hn : n.val < 15
  · rw [embsExt_lt e b n hn k]; exact he _
  · have h15 : n = (15 : Fin 16) := Fin.ext (by have := n.isLt; show n.val = 15; omega)
    subst h15
    rw [embsExt_last, Ideal.ofBits_zero_f32, ofBits_fifteen, zero_add]
    choose er her using he
    simp only [her, Algebra.coe_sum]
    rw [Ideal.div_coe (by norm_num : (15 : ℝ) ≠ 0), ← EReal.coe_mul]
    exact ⟨_, rfl⟩

/-- The two spellings at one index, over a real projection, real injections and mask bits whose sixteenth is one. -/
theorem point (projA : EReal) (injA : Fin 16 → EReal) (β : Fin 16 → BitVec 1) (hp : ∃ r : ℝ, projA = (r : EReal))
    (hi : ∀ n, ∃ r : ℝ, injA n = (r : EReal)) (hβ : β 15 = 1#1) :
    projA + Ideal.div (∑ n, (((β n).toNat : ℝ) : EReal) * injA n)
        (max (∑ n, (((β n).toNat : ℝ) : EReal) * Ideal.ofBits .bf16 0x3F80#16) (Ideal.ofBits .f32 0x3F800000#32))
      = Ideal.div
          (Ideal.ofBits .f32 0x00000000#32 + ∑ n, (projA + (((β n).toNat : ℝ) : EReal) * injA n) * (((β n).toNat : ℝ) : EReal))
          (Ideal.ofBits .f32 0x00000000#32 + ∑ n, (((β n).toNat : ℝ) : EReal)) := by
  obtain ⟨pr, rfl⟩ := hp
  choose w hw using hi
  simp only [hw]
  rw [Ideal.ofBits_one_bf16, Ideal.ofBits_one_f32, Ideal.ofBits_zero_f32]
  have hμ : ∀ n, ((β n).toNat : ℝ) = 0 ∨ ((β n).toNat : ℝ) = 1 := fun n => by
    rcases BitVec.eq_zero_or_eq_one (β n) with h | h <;> rw [h] <;> simp
  have h₀ : ((β 15).toNat : ℝ) = 1 := by rw [hβ]; simp
  exact (Algebra.masked_mean (15 : Fin 16) pr w (fun n => ((β n).toNat : ℝ)) hμ h₀).symm

/-- The kernel's array, over the arrays its region finds written as functions of the arguments, is the reference's
    result. -/
theorem result_eq (p : FVec Ideal S8x32x32x256 .f32) (e : FVec Ideal S8x15x256 .f32) (l : IVec S8x15x4 32)
    (wp we : FVec Ideal S256x256 .f32) (hb : FTy.bits .bf16 < FTy.bits .f32)
    (hp : ∀ i, ∃ r : ℝ, p i = (r : EReal)) (he : ∀ i, ∃ r : ℝ, e i = (r : EReal))
    (hwp : ∀ i, ∃ r : ℝ, wp i = (r : EReal)) (hwe : ∀ i, ∃ r : ℝ, we i = (r : EReal)) :
    Cert.KernelIdeal.Whole.G (shapeCast S8x1024x256 p shapeCasts_S8x32x32x256_S8x1024x256)
        (uitofp .bf16 (maskBits l) : FVec Ideal S8x16x1024 .bf16) (embsExt e) (truncf .bf16 wp hb) (truncf .bf16 we hb)
      = refOut (F := Ideal) p e l wp we := by
  funext i
  obtain ⟨b, hw, o, rfl⟩ : ∃ (b : Fin 8) (hw : Fin 1024) (o : Fin 256), i = ix3 b hw o := ⟨i 0, i 1, i 2, eq_ix3 i⟩
  rw [refOut_apply]
  exact point (projAt p wp b hw o) (fun n => injAt e we b n o) (fun n => maskBits l (ix3 b n hw))
    (sum_mul_real _ _ (fun d => hp _) (fun d => hwp _))
    (fun n => sum_mul_real _ _ (fun k => embsExt_real e he b n k) (fun k => hwe _))
    (maskBits_last l b hw)

end Cert.Inject.Bridge

end
-- ==== Proof.Finite.lean ====
/-
  From the precondition to real entries.

  The precondition says, of each float argument x, that every entry satisfies |x| < +∞ (the conjunction of four
  reductions by `and` over the comparisons). On the extended reals |x| = max x (−x) is below +∞ exactly when x is a
  real, so under the precondition every entry of the patches, the embeddings and the two weight matrices is a real.
-/
import proofs.«142150_j33165737460139_2_alg».proof.Pre_finite_inputs
import Idealize.ShloMosaic.Lib.ReduceAll
import Idealize.ShloMosaic.Lib.ValueIdx
import Idealize.ShloMosaic.PureOps.Ideal

noncomputable section

namespace Cert.Inject.Finite

open Idealize.ShloMosaic Idealize.ShloMosaic.ValueIdx

instance : Subsingleton (⟨0, ![]⟩ : Shape).Idx := ⟨fun a b => funext fun d => d.elim0⟩

/-- |x| < +∞ says x is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

open Cert.Pre_finite_inputs in
/-- Under the precondition every entry of the four float arguments is a real. -/
theorem finite_of_pre [hF : Cert.Pre_finite_inputs.Facts] (p : FVec Ideal S8x32x32x256 .f32) (e : FVec Ideal S8x15x256 .f32)
    (l : IVec S8x15x4 32) (wp we : FVec Ideal S256x256 .f32)
    (h : Cert.Pre_finite_inputs.fn (F := Ideal) p e l wp we = fun _ => 1#1) :
    (∀ i, ∃ r : ℝ, p i = (r : EReal)) ∧ (∀ i, ∃ r : ℝ, e i = (r : EReal))
      ∧ (∀ i, ∃ r : ℝ, wp i = (r : EReal)) ∧ (∀ i, ∃ r : ℝ, we i = (r : EReal)) := by
  have h0 := congrFun h ix0
  simp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt (p i) (Host.reduce_andi_all _ _ _ _ _ h1 i),
    fun i => real_of_abs_lt (e i) (Host.reduce_andi_all _ _ _ _ _ h2 i),
    fun i => real_of_abs_lt (wp i) (Host.reduce_andi_all _ _ _ _ _ h3 i),
    fun i => real_of_abs_lt (we i) (Host.reduce_andi_all _ _ _ _ _ h4 i)⟩

end Cert.Inject.Finite

end
-- ==== Proof.lean ====
/-
  The certificate of the fused injection kernel against its jnp reference.

  The kernel computes, two batches per grid point, out[b,hw,o] = proj[b,hw,o] + (Σ_n mf[b,n,hw]·inj[b,n,o]) / max(count[b,hw], 1),
  with proj = patches·Wp, inj = (embeddings with their mean row)·We, mf the sixteen rasterised box masks and
  count = Σ_n mf. The reference computes the masked mean Σ_n (proj + mf_n·inj_n)·mf_n / Σ_n mf_n. The mask values are
  0 or 1, so mf_n·mf_n = mf_n, and the sixteenth box is the whole image, so the count is at least 1: on finite
  inputs the two are one function. The frames of the two kernel programs are the generated ones; the reference's is
  its run with the result dropped; the idealization rewrote nothing.
-/
import proofs.«142150_j33165737460139_2_alg».proof.Defs
import proofs.«142150_j33165737460139_2_alg».proof.Proof.Gen.Kernel
import proofs.«142150_j33165737460139_2_alg».proof.Proof.Gen.Kernel.Skeleton
import proofs.«142150_j33165737460139_2_alg».proof.Proof.Gen.Kernel.Launch
import proofs.«142150_j33165737460139_2_alg».proof.Proof.Gen.Kernel.Points
import proofs.«142150_j33165737460139_2_alg».proof.Proof.Gen.Kernel.Frame
import proofs.«142150_j33165737460139_2_alg».proof.Proof.Gen.KernelIdeal
import proofs.«142150_j33165737460139_2_alg».proof.Proof.Gen.KernelIdeal.Skeleton
import proofs.«142150_j33165737460139_2_alg».proof.Proof.Gen.KernelIdeal.Launch
import proofs.«142150_j33165737460139_2_alg».proof.Proof.Gen.KernelIdeal.Points
import proofs.«142150_j33165737460139_2_alg».proof.Proof.Gen.KernelIdeal.Frame
import proofs.«142150_j33165737460139_2_alg».proof.Proof.Gen.KernelIdeal.Value
import proofs.«142150_j33165737460139_2_alg».proof.Proof.Gen.ReferenceIdeal
import proofs.«142150_j33165737460139_2_alg».proof.Proof.Gen.Pre_finite_inputs
import proofs.«142150_j33165737460139_2_alg».proof.Proof.RefValue
import proofs.«142150_j33165737460139_2_alg».proof.Proof.KernelHost
import proofs.«142150_j33165737460139_2_alg».proof.Proof.KernelValue
import proofs.«142150_j33165737460139_2_alg».proof.Proof.Bridge
import proofs.«142150_j33165737460139_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Straight.run (F := Ideal) m ρ)

/-- The idealization rewrote no operation. -/
theorem preserves : Cert.preserves_Kernel_KernelIdeal := trivial

/-- Both programs end with the reference's function of the arguments: the kernel's array is `G` of the arrays its
    region finds, which are the shared host stages of the arguments, and `G` of those is the reference's result. -/
theorem algebraic : Cert.algebraic_KernelIdeal_ReferenceIdeal := by
  intro m ρ m' ρ' hpre hagree
  refine ⟨fun c => Cert.Inject.refOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Whole.run m ρ)
    obtain ⟨hp, he, hwp, hwe⟩ := Cert.Inject.Finite.finite_of_pre _ _ _ _ _ (hpre c)
    rw [Cert.KernelIdeal.Entry.V_patches m c, Cert.KernelIdeal.Entry.V_mask m c, Cert.KernelIdeal.Entry.V_embs m c,
      Cert.KernelIdeal.Entry.V_wp m c, Cert.KernelIdeal.Entry.V_we m c]
    exact Cert.Inject.Bridge.result_eq _ _ _ _ _ _ hp he hwp hwe
  · refine (θ_run Cert.ReferenceIdeal.defs _ _).mono (fun r h c => ⟨(h c).1.trans ?_, (h c).2⟩)
      (Cert.ReferenceIdeal.Straight.run (F := Ideal) m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
